-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x640 : Shape := ⟨2, ![4096, 640]⟩
abbrev S4x16x640 : Shape := ⟨3, ![4, 16, 640]⟩
abbrev S4x16 : Shape := ⟨2, ![4, 16]⟩
abbrev S2048x4096 : Shape := ⟨2, ![2048, 4096]⟩
abbrev S2048 : Shape := ⟨1, ![2048]⟩
abbrev S_ : Shape := ⟨0, ![]⟩

class Facts : Prop where
  bcast_S_S4096x640 : S_.BroadcastsInDim S4096x640 (![] : Fin 0 → Fin S4096x640.rank)
  reducesTo_S4096x640_S_d0_1 : S4096x640.ReducesTo [0, 1] S_
  h_S_ : 0 < S_.numel
  bcast_S_S4x16x640 : S_.BroadcastsInDim S4x16x640 (![] : Fin 0 → Fin S4x16x640.rank)
  reducesTo_S4x16x640_S_d0_1_2 : S4x16x640.ReducesTo [0, 1, 2] S_
  bcast_S_S4x16 : S_.BroadcastsInDim S4x16 (![] : Fin 0 → Fin S4x16.rank)
  reducesTo_S4x16_S_d0_1 : S4x16.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x4096 .f32) (main_arg8 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S4x16 .f32) (main_arg5 : FVec F S4x16x640 .f32) (main_arg6 : FVec F S4x16 .f32) (main_arg7 : FVec F S2048x4096 .f32) (main_arg8 : FVec F S2048 .f32) (main_v13 : IVec S_ 1) (main_v16 : IVec S4x16x640 1) : IVec S_ 1 :=
  let main_c_5 : IVec S_ 1 := constantI S_ 1 1#1
  let main_v17 : IVec S_ 1 := (fun x v => Host.reduce IntOp.andi x v reducesTo_S4x16x640_S_d0_1_2 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S4x16x640 .f32 := Host.absf main_arg5
  let main_cst_8 : FVec F S_ .f32 := constant S_ .f32 0x7F800000#32
  let main_v25 : FVec F S4x16x640 .f32 := broadcastInDim S4x16x640 ![] bcast_S_S4x16x640 main_cst_8
  let main_v26 : IVec S4x16x640 1 := cmpf .olt main_v24 main_v25
  let main_c_9 : IVec S_ 1 := constantI S_ 1 1#1
  let main_v27 : IVec S_ 1 := (fun x v => Host.reduce IntOp.andi x v reducesTo_S4x16x640_S_d0_1_2 h_S_) main_v26 main_c_9
  let main_v28 : IVec S_ 1 := andi main_v23 main_v27
  let main_v29 : FVec F S4x16 .f32 := Host.absf main_arg6
  let main_cst_10 : FVec F S_ .f32 := constant S_ .f32 0x7F800000#32
  let main_v30 : FVec F S4x16 .f32 := broadcastInDim S4x16 ![] bcast_S_S4x16 main_cst_10
  let main_v31 : IVec S4x16 1 := cmpf .olt main_v29 main_v30
  let main_c_11 : IVec S_ 1 := constantI S_ 1 1#1
  let main_v32 : IVec S_ 1 := (fun x v => Host.reduce IntOp.andi x v reducesTo_S4x16_S_d0_1 h_S_) main_v31 main_c_11
  let main_v33 : IVec S_ 1 := andi main_v28 main_v32
  fn_part2 (F := F) main_arg7 main_arg8 main_v33

def fn {F : FTy → Type} [FloatOps F] (main_arg0 : FVec F S4096x640 .f32) (main_arg1 : FVec F S4x16x640 .f32) (main_arg2 : FVec F S4x16 .f32) (main_arg3 : FVec F S4x16x640 .f32) (main_arg4 : FVec F S4x16 .f32) (main_arg5 : FVec F S4x16x640 .f32) (main_arg6 : FVec F S4x16 .f32) (main_arg7 : FVec F S2048x4096 .f32) (main_arg8 : FVec F S2048 .f32) : IVec S_ 1 :=
  let main_v0 : FVec F S4096x640 .f32 := Host.absf main_arg0
  let main_cst : FVec F S_ .f32 := constant S_ .f32 0x7F800000#32
  let main_v1 : FVec F S4096x640 .f32 := broadcastInDim S4096x640 ![] bcast_S_S4096x640 main_cst
  let main_v2 : IVec S4096x640 1 := cmpf .olt main_v0 main_v1
  let main_c : IVec S_ 1 := constantI S_ 1 1#1
  let main_v3 : IVec S_ 1 := (fun x v => Host.reduce IntOp.andi x v reducesTo_S4096x640_S_d0_1 h_S_) main_v2 main_c
  let main_v4 : FVec F S4x16x640 .f32 := Host.absf main_arg1
  let main_cst_0 : FVec F S_ .f32 := constant S_ .f32 0x7F800000#32
  let main_v5 : FVec F S4x16x640 .f32 := broadcastInDim S4x16x640 ![] bcast_S_S4x16x640 main_cst_0
  let main_v6 : IVec S4x16x640 1 := cmpf .olt main_v4 main_v5
  let main_c_1 : IVec S_ 1 := constantI S_ 1 1#1
  let main_v7 : IVec S_ 1 := (fun x v => Host.reduce IntOp.andi x v reducesTo_S4x16x640_S_d0_1_2 h_S_) main_v6 main_c_1
  let main_v8 : IVec S_ 1 := andi main_v3 main_v7
  let main_v9 : FVec F S4x16 .f32 := Host.absf main_arg2
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S4x16x640 .f32 := Host.absf main_arg3
  let main_cst_4 : FVec F S_ .f32 := constant S_ .f32 0x7F800000#32
  let main_v15 : FVec F S4x16x640 .f32 := broadcastInDim S4x16x640 ![] bcast_S_S4x16x640 main_cst_4
  let main_v16 : IVec S4x16x640 1 := cmpf .olt main_v14 main_v15
  fn_part1 (F := F) main_arg4 main_arg5 main_arg6 main_arg7 main_arg8 main_v13 main_v16
-- ==== Kernel.lean ====
abbrev S4096x640 : Shape := ⟨2, ![4096, 640]⟩
abbrev S4x16x640 : Shape := ⟨3, ![4, 16, 640]⟩
abbrev S4x16 : Shape := ⟨2, ![4, 16]⟩
abbrev S2048x4096 : Shape := ⟨2, ![2048, 4096]⟩
abbrev S2048 : Shape := ⟨1, ![2048]⟩
abbrev S64x640 : Shape := ⟨2, ![64, 640]⟩
abbrev S192x640 : Shape := ⟨2, ![192, 640]⟩
abbrev S640x192 : Shape := ⟨2, ![640, 192]⟩
abbrev S64 : Shape := ⟨1, ![64]⟩
abbrev S192 : Shape := ⟨1, ![192]⟩
abbrev S1x192 : Shape := ⟨2, ![1, 192]⟩
abbrev S4096x192 : Shape := ⟨2, ![4096, 192]⟩
abbrev S512x640 : Shape := ⟨2, ![512, 640]⟩
abbrev S512x192 : Shape := ⟨2, ![512, 192]⟩
abbrev S4096x64 : Shape := ⟨2, ![4096, 64]⟩
abbrev S256x192 : Shape := ⟨2, ![256, 192]⟩
abbrev S256x64 : Shape := ⟨2, ![256, 64]⟩
abbrev S256x16 : Shape := ⟨2, ![256, 16]⟩
abbrev S4096x16 : Shape := ⟨2, ![4096, 16]⟩
abbrev S256x4096 : Shape := ⟨2, ![256, 4096]⟩
abbrev S256 : Shape := ⟨1, ![256]⟩
abbrev S256x1 : Shape := ⟨2, ![256, 1]⟩
abbrev S2048x1 : Shape := ⟨2, ![2048, 1]⟩
abbrev S2048x64 : Shape := ⟨2, ![2048, 64]⟩
abbrev S512x4096 : Shape := ⟨2, ![512, 4096]⟩
abbrev S512x1 : Shape := ⟨2, ![512, 1]⟩
abbrev S512x64 : Shape := ⟨2, ![512, 64]⟩

abbrev nBuf : Space → Nat
  | .hbm => 23
  | .vmem => 18
  | .smem => 0
  | _ => 0

abbrev bufTy : (tb : Table) → Fin (tcTables nBuf tb) → BufTy
  | .hbm, ⟨0, _⟩ => ⟨S4096x640, .f32⟩
  | .hbm, ⟨1, _⟩ => ⟨S4x16x640, .f32⟩
  | .hbm, ⟨2, _⟩ => ⟨S4x16, .f32⟩
  | .hbm, ⟨3, _⟩ => ⟨S4x16x640, .f32⟩
  | .hbm, ⟨4, _⟩ => ⟨S4x16, .f32⟩
  | .hbm, ⟨5, _⟩ => ⟨S4x16x640, .f32⟩
  | .hbm, ⟨6, _⟩ => ⟨S4x16, .f32⟩
  | .hbm, ⟨7, _⟩ => ⟨S2048x4096, .f32⟩
  | .hbm, ⟨8, _⟩ => ⟨S2048, .f32⟩
  | .hbm, ⟨9, _⟩ => ⟨S64x640, .f32⟩
  | .hbm, ⟨10, _⟩ => ⟨S64x640, .f32⟩
  | .hbm, ⟨11, _⟩ => ⟨S64x640, .f32⟩
  | .hbm, ⟨12, _⟩ => ⟨S192x640, .f32⟩
  | .hbm, ⟨13, _⟩ => ⟨S640x192, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S192, .f32⟩
  | .hbm, ⟨18, _⟩ => ⟨S1x192, .f32⟩
  | .hbm, ⟨19, _⟩ => ⟨S4096x192, .f32⟩
  | .hbm, ⟨20, _⟩ => ⟨S4096x64, .f32⟩
  | .hbm, ⟨21, _⟩ => ⟨S2048x1, .f32⟩
  | .hbm, ⟨22, _⟩ => ⟨S2048x64, .f32⟩
  | .local _ .vmem, ⟨0, _⟩ => ⟨S512x640, .f32⟩
  | .local _ .vmem, ⟨1, _⟩ => ⟨S512x640, .f32⟩
  | .local _ .vmem, ⟨2, _⟩ => ⟨S640x192, .f32⟩
  | .local _ .vmem, ⟨3, _⟩ => ⟨S1x192, .f32⟩
  | .local _ .vmem, ⟨4, _⟩ => ⟨S512x192, .f32⟩
  | .local _ .vmem, ⟨5, _⟩ => ⟨S512x192, .f32⟩
  | .local _ .vmem, ⟨6, _⟩ => ⟨S256x192, .f32⟩
  | .local _ .vmem, ⟨7, _⟩ => ⟨S256x192, .f32⟩
  | .local _ .vmem, ⟨8, _⟩ => ⟨S4096x192, .f32⟩
  | .local _ .vmem, ⟨9, _⟩ => ⟨S256x64, .f32⟩
  | .local _ .vmem, ⟨10, _⟩ => ⟨S256x64, .f32⟩
  | .local _ .vmem, ⟨11, _⟩ => ⟨S512x4096, .f32⟩
  | .local _ .vmem, ⟨12, _⟩ => ⟨S512x4096, .f32⟩
  | .local _ .vmem, ⟨13, _⟩ => ⟨S4096x64, .f32⟩
  | .local _ .vmem, ⟨14, _⟩ => ⟨S512x1, .f32⟩
  | .local _ .vmem, ⟨15, _⟩ => ⟨S512x1, .f32⟩
  | .local _ .vmem, ⟨16, _⟩ => ⟨S512x64, .f32⟩
  | .local _ .vmem, ⟨17, _⟩ => ⟨S512x64, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x16x640_S64x640 : S4x16x640.ShapeCasts S64x640
  concatenates_S64x640_S64x640_S64x640_S192x640_d0 : Shape.Concatenates [S64x640, S64x640, S64x640] S192x640 0
  transposes_S192x640_S640x192_1_0 : S192x640.Transposes [1, 0] S640x192
  shapeCasts_S4x16_S64 : S4x16.ShapeCasts S64
  concatenates_S64_S64_S64_S192_d0 : Shape.Concatenates [S64, S64, S64] S192 0
  shapeCasts_S192_S1x192 : S192.ShapeCasts S1x192
  inb_S512x640_S512x640_0_0 : ∀ a, (![0, 0] : Fin 2 → Nat) a + S512x640.size a ≤ S512x640.size a
  h_S512x640 : 0 < S512x640.numel
  bitsLt_bf16_f32 : FTy.bits .bf16 < FTy.bits .f32
  inb_S640x192_S640x192_0_0 : ∀ a, (![0, 0] : Fin 2 → Nat) a + S640x192.size a ≤ S640x192.size a
  h_S640x192 : 0 < S640x192.numel
  shapeCasts_S640x192_S640x192 : S640x192.ShapeCasts S640x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  inb_S512x192_S512x192_0_0 : ∀ a, (![0, 0] : Fin 2 → Nat) a + S512x192.size a ≤ S512x192.size a
  h_S512x192 : 0 < S512x192.numel
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S4096x192_S4096x192_0_0 : ∀ a, (![0, 0] : Fin 2 → Nat) a + S4096x192.size a ≤ S4096x192.size a
  h_S4096x192 : 0 < S4096x192.numel
  shapeCasts_S4096x192_S4096x192 : S4096x192.ShapeCasts S4096x192
  slices_S256x192_o0_0_S256x64 : S256x192.Slices ![0, 0] S256x64
  slices_S256x192_o0_128_S256x64 : S256x192.Slices ![0, 128] S256x64
  slices_S4096x192_o0_64_S4096x64 : S4096x192.Slices ![0, 64] S4096x64
  slices_S4096x192_o0_128_S4096x64 : S4096x192.Slices ![0, 128] S4096x64
  slices_S256x64_o0_0_S256x16 : S256x64.Slices ![0, 0] S256x16
  slices_S4096x64_o0_0_S4096x16 : S4096x64.Slices ![0, 0] S4096x16
  reduces_S256x4096_S256 : S256x4096.Reduces [1] S256
  shapeCasts_S256_S256x1 : S256.ShapeCasts S256x1
  broadcasts_S256x1_S256x4096 : S256x1.Broadcasts S256x4096
  inb_S256x64_S256x16_0_0 : ∀ a, (![0, 0] : Fin 2 → Nat) a + S256x16.size a ≤ S256x64.size a
  h_S256x16 : 0 < S256x16.numel
  slices_S256x64_o0_16_S256x16 : S256x64.Slices ![0, 16] S256x16
  slices_S4096x64_o0_16_S4096x16 : S4096x64.Slices ![0, 16] S4096x16
  inb_S256x64_S256x16_0_16 : ∀ a, (![0, 16] : Fin 2 → Nat) a + S256x16.size a ≤ S256x64.size a
  slices_S256x64_o0_32_S256x16 : S256x64.Slices ![0, 32] S256x16
  slices_S4096x64_o0_32_S4096x16 : S4096x64.Slices ![0, 32] S4096x16
  inb_S256x64_S256x16_0_32 : ∀ a, (![0, 32] : Fin 2 → Nat) a + S256x16.size a ≤ S256x64.size a
  slices_S256x64_o0_48_S256x16 : S256x64.Slices ![0, 48] S256x16
  slices_S4096x64_o0_48_S4096x16 : S4096x64.Slices ![0, 48] S4096x16
  inb_S256x64_S256x16_0_48 : ∀ a, (![0, 48] : Fin 2 → Nat) a + S256x16.size a ≤ S256x64.size a
  shapeCasts_S2048_S2048x1 : S2048.ShapeCasts S2048x1
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S512x640_S640x192_S512x192_1_0_0_1_n_n_wf : DotDims.WF S512x640 S640x192 S512x192 [1] [0] [0] [1] [] []
  dot_S256x16_S4096x16_S256x4096_1_1_0_0_n_n_wf : DotDims.WF S256x16 S4096x16 S256x4096 [1] [1] [0] [0] [] []
  dot_S256x4096_S4096x16_S256x16_1_0_0_1_n_n_wf : DotDims.WF S256x4096 S4096x16 S256x16 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S4096x640.size a
  hwx0_0 : ∀ i : grid0.Coords, EltTy.bits .f32 = 32 ∨ (Rect.block (s := S4096x640) S512x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x192.size a ≤ S640x192.size a
  hwx0_1 : ∀ i : grid0.Coords, EltTy.bits .f32 = 32 ∨ (Rect.block (s := S640x192) S640x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x192.size a ≤ S4096x192.size a
  hwx0_3 : ∀ i : grid0.Coords, EltTy.bits .f32 = 32 ∨ (Rect.block (s := S4096x192) S512x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x192.size a ≤ S4096x192.size a
  hwx1_0 : ∀ i : grid1.Coords, EltTy.bits .f32 = 32 ∨ (Rect.block (s := S4096x192) S256x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x192.size a ≤ S4096x192.size a
  hwx1_1 : ∀ i : grid1.Coords, EltTy.bits .f32 = 32 ∨ (Rect.block (s := S4096x192) S4096x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S4096x64.size a
  hwx1_2 : ∀ i : grid1.Coords, EltTy.bits .f32 = 32 ∨ (Rect.block (s := S4096x64) S256x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S2048x4096.size a
  hwx2_0 : ∀ i : grid2.Coords, EltTy.bits .f32 = 32 ∨ (Rect.block (s := S2048x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S2048x1.size a
  hwx2_2 : ∀ i : grid2.Coords, EltTy.bits .f32 = 32 ∨ (Rect.block (s := S2048x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S2048x64.size a
  hwx2_3 : ∀ i : grid2.Coords, EltTy.bits .f32 = 32 ∨ (Rect.block (s := S2048x64) S512x64.size (cc2_transform_3 i) (hinb2_3 i)).WholeWords (EltTy.packing .f32)

variable [Facts₀]

def dot_S512x640_S640x192_S512x192_1_0_0_1_n_n : DotDims S512x640 S640x192 S512x192 where
  lhsContracting := [1]
  rhsContracting := [0]
  lhsNonContracting := [0]
  rhsNonContracting := [1]
  lhsBatch := []
  rhsBatch := []
  wf := dot_S512x640_S640x192_S512x192_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S640x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S256x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg7) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x640 : Shape := ⟨2, ![4096, 640]⟩
abbrev S4x16x640 : Shape := ⟨3, ![4, 16, 640]⟩
abbrev S4x16 : Shape := ⟨2, ![4, 16]⟩
abbrev S2048x4096 : Shape := ⟨2, ![2048, 4096]⟩
abbrev S2048 : Shape := ⟨1, ![2048]⟩
abbrev S4x16x4096 : Shape := ⟨3, ![4, 16, 4096]⟩
abbrev S4x4096x16 : Shape := ⟨3, ![4, 4096, 16]⟩
abbrev S4x1x16 : Shape := ⟨3, ![4, 1, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4096x4x16 : Shape := ⟨3, ![4096, 4, 16]⟩
abbrev S4096x64 : Shape := ⟨2, ![4096, 64]⟩
abbrev S2048x64 : Shape := ⟨2, ![2048, 64]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4x16x640, .f32⟩
  | .hbm, ⟨2, _⟩ => ⟨S4x16, .f32⟩
  | .hbm, ⟨3, _⟩ => ⟨S4x16x640, .f32⟩
  | .hbm, ⟨4, _⟩ => ⟨S4x16, .f32⟩
  | .hbm, ⟨5, _⟩ => ⟨S4x16x640, .f32⟩
  | .hbm, ⟨6, _⟩ => ⟨S4x16, .f32⟩
  | .hbm, ⟨7, _⟩ => ⟨S2048x4096, .f32⟩
  | .hbm, ⟨8, _⟩ => ⟨S2048, .f32⟩
  | .hbm, ⟨9, _⟩ => ⟨S4x16x4096, .f32⟩
  | .hbm, ⟨10, _⟩ => ⟨S4x4096x16, .f32⟩
  | .hbm, ⟨11, _⟩ => ⟨S4x1x16, .f32⟩
  | .hbm, ⟨12, _⟩ => ⟨S4x4096x16, .f32⟩
  | .hbm, ⟨13, _⟩ => ⟨S4x4096x16, .f32⟩
  | .hbm, ⟨14, _⟩ => ⟨S4x16x4096, .f32⟩
  | .hbm, ⟨15, _⟩ => ⟨S4x4096x16, .f32⟩
  | .hbm, ⟨16, _⟩ => ⟨S4x1x16, .f32⟩
  | .hbm, ⟨17, _⟩ => ⟨S4x4096x16, .f32⟩
  | .hbm, ⟨18, _⟩ => ⟨S4x4096x16, .f32⟩
  | .hbm, ⟨19, _⟩ => ⟨S4x16x4096, .f32⟩
  | .hbm, ⟨20, _⟩ => ⟨S4x4096x16, .f32⟩
  | .hbm, ⟨21, _⟩ => ⟨S4x1x16, .f32⟩
  | .hbm, ⟨22, _⟩ => ⟨S4x4096x16, .f32⟩
  | .hbm, ⟨23, _⟩ => ⟨S4x4096x16, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x16, .f32⟩
  | .hbm, ⟨43, _⟩ => ⟨S4x4096x16, .f32⟩
  | .hbm, ⟨44, _⟩ => ⟨S4096x4x16, .f32⟩
  | .hbm, ⟨45, _⟩ => ⟨S4096x64, .f32⟩
  | .hbm, ⟨46, _⟩ => ⟨S2048x64, .f32⟩
  | .hbm, ⟨47, _⟩ => ⟨S2048x1, .f32⟩
  | .hbm, ⟨48, _⟩ => ⟨S2048x64, .f32⟩
  | .hbm, ⟨49, _⟩ => ⟨S2048x64, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S4x16x4096_S4x4096x16_0_2_1 : S4x16x4096.Transposes [0, 2, 1] S4x4096x16
  bcast_S4x16_S4x1x16_0_2 : S4x16.BroadcastsInDim S4x1x16 (![0, 2] : Fin 2 → Fin S4x1x16.rank)
  bcast_S4x1x16_S4x4096x16_0_1_2 : S4x1x16.BroadcastsInDim S4x4096x16 (![0, 1, 2] : Fin 3 → Fin S4x4096x16.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x16_S4096x4x16_1_0_2 : S4x4096x16.Transposes [1, 0, 2] S4096x4x16
  shapeCasts_S4096x4x16_S4096x64 : S4096x4x16.ShapeCasts S4096x64
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  dot_S4x16x640_S4096x640_S4x16x4096_2_1_01_0_n_n_wf : DotDims.WF S4x16x640 S4096x640 S4x16x4096 [2] [1] [0, 1] [0] [] []
  dot_S4x4096x16_S4x4096x16_S4x4096x4096_2_2_1_1_0_0_wf : DotDims.WF S4x4096x16 S4x4096x16 S4x4096x4096 [2] [2] [1] [1] [0] [0]
  dot_S4x4096x4096_S4x4096x16_S4x4096x16_2_1_1_2_0_0_wf : DotDims.WF S4x4096x4096 S4x4096x16 S4x4096x16 [2] [1] [1] [2] [0] [0]
  dot_S2048x4096_S4096x64_S2048x64_1_0_0_1_n_n_wf : DotDims.WF S2048x4096 S4096x64 S2048x64 [1] [0] [0] [1] [] []

variable [Facts₀]

def dot_S4x16x640_S4096x640_S4x16x4096_2_1_01_0_n_n : DotDims S4x16x640 S4096x640 S4x16x4096 where
  lhsContracting := [2]
  rhsContracting := [1]
  lhsNonContracting := [0, 1]
  rhsNonContracting := [0]
  lhsBatch := []
  rhsBatch := []
  wf := dot_S4x16x640_S4096x640_S4x16x4096_2_1_01_0_n_n_wf
def dot_S4x4096x16_S4x4096x16_S4x4096x4096_2_2_1_1_0_0 : DotDims S4x4096x16 S4x4096x16 S4x4096x4096 where
  lhsContracting := [2]
  rhsContracting := [2]
  lhsNonContracting := [1]
  rhsNonContracting := [1]
  lhsBatch := [0]
  rhsBatch := [0]
  wf := dot_S4x4096x16_S4x4096x16_S4x4096x4096_2_2_1_1_0_0_wf
def dot_S4x4096x4096_S4x4096x16_S4x4096x16_2_1_1_2_0_0 : DotDims S4x4096x4096 S4x4096x16 S4x4096x16 where
  lhsContracting := [2]
  rhsContracting := [1]
  lhsNonContracting := [1]
  rhsNonContracting := [2]
  lhsBatch := [0]
  rhsBatch := [0]
  wf := dot_S4x4096x4096_S4x4096x16_S4x4096x16_2_1_1_2_0_0_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf

class Facts : Prop extends Facts₀ where

variable [Facts]
-- ==== Proof.K.R0.lean ====
import proofs.«150061_j20074677141639_2_alg».proof.Proof.Gen.Kernel.Launch
import proofs.«150061_j20074677141639_2_alg».proof.Proof.Gen.Kernel.Skeleton
import proofs.«150061_j20074677141639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The first region: the fused projection. At grid point `t` the body reads rows `512 t … 512 t + 511` of the
  token matrix (window 0), the whole stacked weight matrix `[640, 192]` (window 1) and the bias row `[1, 192]`
  (window 2), and stores `x · w + b` into the whole `[512, 192]` block of window 3.
-/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or carried over from
    the point where the block index last moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four whole-buffer rectangles. -/
abbrev r0_0 : Rect S512x640 := Rect.unit (s := S512x640) ![0, 0] S512x640.size inb_S512x640_S512x640_0_0
abbrev r0_1 : Rect S640x192 := Rect.unit (s := S640x192) ![0, 0] S640x192.size inb_S640x192_S640x192_0_0
abbrev r0_2 : Rect S1x192 := Rect.unit (s := S1x192) ![0, 0] S1x192.size inb_S1x192_S1x192_0_0
abbrev r0_3 : Rect S512x192 := Rect.unit (s := S512x192) ![0, 0] S512x192.size inb_S512x192_S512x192_0_0

/-- What the body leaves in the output window's buffer: its one store, of the projection of the three input blocks. -/
def out0_3 (x0 : Vec F S512x640 .f32) (x1 : Vec F S640x192 .f32) (x2 : Vec F S1x192 .f32) : Vec F S512x192 .f32 :=
  View.canon [⟨r0_3, k0_pay1 (View.ld x0 r0_0) (View.ld x1 r0_1) (View.ld x2 r0_2)⟩]

/-- The one store covers the buffer. -/
theorem cover0_3 (p0 : Vec F S512x192 .f32) (y : S512x192.Idx) :
    ∃ pc ∈ ([⟨r0_3, p0⟩] : List (View.Piece (Elt F) S512x192 .f32)), y ∈ pc.1.set :=
  View.cover_of_tiled [⟨r0_3, p0⟩] S512x192.size (by rfl) y

set_option maxHeartbeats 1000000 in
/-- The body on whole staging buffers, the inputs' at contents `x0 x1 x2`, the output's at anything, ends with the
    inputs as they were and the output at `out0_3 x0 x1 x2`. -/
theorem sound_kernel0 (c : Dev nD) (E : Set ℕ) (i : grid0.Coords)
    (arg1 : Memref sig .tc .vmem S512x640 .f32) (harg1 : arg1.IsWhole) (arg2 : Memref sig .tc .vmem S640x192 .f32) (harg2 : arg2.IsWhole)
    (arg3 : Memref sig .tc .vmem S1x192 .f32) (harg3 : arg3.IsWhole) (arg4 : Memref sig .tc .vmem S512x192 .f32) (harg4 : arg4.IsWhole)
    (x0 : Vec F S512x640 .f32) (x1 : Vec F S640x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point `t`
    each input's buffer at its block and the output's at the projection of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«150061_j20074677141639_2_alg».proof.Proof.Gen.Kernel.Launch
import proofs.«150061_j20074677141639_2_alg».proof.Proof.Gen.Kernel.Skeleton
import proofs.«150061_j20074677141639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The second region: attention with the residual. At grid point `t` the body reads rows `256 t … 256 t + 255` of the
  fused projection `[4096, 192]` (window 0) and the whole of the same array (window 1), and stores head `h`'s
  `[256, 16]` output into columns `16 h … 16 h + 15` of the `[256, 64]` block of window 2, one store per head.
  Both input windows read one array: each holds half of it (`q`).
-/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or carried over from
    the point where the block index last moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two whole-buffer loads and the four column stores. -/
abbrev r1_t : Rect S256x192 := Rect.unit (s := S256x192) ![0, 0] S256x192.size inb_S256x192_S256x192_0_0
abbrev r1_f : Rect S4096x192 := Rect.unit (s := S4096x192) ![0, 0] S4096x192.size inb_S4096x192_S4096x192_0_0
abbrev r1_s0 : Rect S256x64 := Rect.unit (s := S256x64) ![0, 0] S256x16.size inb_S256x64_S256x16_0_0
abbrev r1_s16 : Rect S256x64 := Rect.unit (s := S256x64) ![0, 16] S256x16.size inb_S256x64_S256x16_0_16
abbrev r1_s32 : Rect S256x64 := Rect.unit (s := S256x64) ![0, 32] S256x16.size inb_S256x64_S256x16_0_32
abbrev r1_s48 : Rect S256x64 := Rect.unit (s := S256x64) ![0, 48] S256x16.size inb_S256x64_S256x16_0_48

/-- The four heads' outputs as functions of the two loaded blocks (the tile `v0`, the whole array `v2`). -/
def pay1_h0 (v0 : Vec F S256x192 .f32) (v2 : Vec F S4096x192 .f32) : FVec F S256x16 .f32 := k1_pay8 v0 v2
def pay1_h1 (v0 : Vec F S256x192 .f32) (v2 : Vec F S4096x192 .f32) : FVec F S256x16 .f32 :=
  k1_pay11 (k1_pay5 v0) (k1_pay9 v2) (k1_pay10 v0 v2)
def pay1_h2 (v0 : Vec F S256x192 .f32) (v2 : Vec F S4096x192 .f32) : FVec F S256x16 .f32 :=
  k1_pay12 (k1_pay4 v0) (k1_pay5 v0) (k1_pay6 v2) (k1_pay7 v2)
def pay1_h3 (v0 : Vec F S256x192 .f32) (v2 : Vec F S4096x192 .f32) : FVec F S256x16 .f32 :=
  k1_pay1 (k1_pay5 v0) (k1_pay13 (k1_pay7 v2)) (k1_pay14 (k1_pay4 v0) (k1_pay6 v2)) (k1_pay15 (k1_pay4 v0) (k1_pay6 v2))

/-- What the body leaves in the output window's buffer: its four stores, last first. -/
def out1_2 (x0 : Vec F S256x192 .f32) (x1 : Vec F S4096x192 .f32) : Vec F S256x64 .f32 :=
  View.canon [⟨r1_s48, pay1_h3 (View.ld x0 r1_t) (View.ld x1 r1_f)⟩,
    ⟨r1_s32, pay1_h2 (View.ld x0 r1_t) (View.ld x1 r1_f)⟩,
    ⟨r1_s16, pay1_h1 (View.ld x0 r1_t) (View.ld x1 r1_f)⟩,
    ⟨r1_s0, pay1_h0 (View.ld x0 r1_t) (View.ld x1 r1_f)⟩]

/-- The four column stores tile the buffer. -/
theorem cover1_2 (p0 p1 p2 p3 : Vec F S256x16 .f32) (y : S256x64.Idx) :
    ∃ pc ∈ ([⟨r1_s48, p0⟩, ⟨r1_s32, p1⟩, ⟨r1_s16, p2⟩, ⟨r1_s0, p3⟩] : List (View.Piece (Elt F) S256x64 .f32)), y ∈ pc.1.set :=
  View.cover_of_tiled [⟨r1_s48, p0⟩, ⟨r1_s32, p1⟩, ⟨r1_s16, p2⟩, ⟨r1_s0, p3⟩] S256x16.size (by rfl) y

set_option maxHeartbeats 4000000 in
/-- The body on whole staging buffers, the inputs' at contents `x0 x1`, the output's at anything, ends with the
    inputs as they were and the output at `out1_2 x0 x1`. -/
theorem sound_kernel1 (c : Dev nD) (E : Set ℕ) (i : grid1.Coords)
    (arg1 : Memref sig .tc .vmem S256x192 .f32) (harg1 : arg1.IsWhole) (arg2 : Memref sig .tc .vmem S4096x192 .f32) (harg2 : arg2.IsWhole)
    (arg3 : Memref sig .tc .vmem S256x64 .f32) (harg3 : arg3.IsWhole)
    (x0 : Vec F S256x192 .f32) (x1 : Vec F S4096x192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-- The proof data of the second pipeline on core `c`: the arrays as the region finds them; after the body at point
    `t` each input's buffer at its block and the output's at the four heads' outputs of the input blocks; nothing
    owed; the two input windows hold the halves of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«150061_j20074677141639_2_alg».proof.Proof.Gen.Kernel.Launch
import proofs.«150061_j20074677141639_2_alg».proof.Proof.Gen.Kernel.Skeleton
import proofs.«150061_j20074677141639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The third region: the token mix. At grid point `t` the body reads rows `512 t … 512 t + 511` of the mixing matrix
  (window 0), the whole `[4096, 64]` matrix of the heads' outputs (window 1) and rows `512 t …` of the bias column
  `[2048, 1]` (window 2), and stores `Wd · v + b` into the whole `[512, 64]` block of window 3.
-/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or carried over from
    the point where the block index last moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's four whole-buffer rectangles. -/
abbrev r2_0 : Rect S512x4096 := Rect.unit (s := S512x4096) ![0, 0] S512x4096.size inb_S512x4096_S512x4096_0_0
abbrev r2_1 : Rect S4096x64 := Rect.unit (s := S4096x64) ![0, 0] S4096x64.size inb_S4096x64_S4096x64_0_0
abbrev r2_2 : Rect S512x1 := Rect.unit (s := S512x1) ![0, 0] S512x1.size inb_S512x1_S512x1_0_0
abbrev r2_3 : Rect S512x64 := Rect.unit (s := S512x64) ![0, 0] S512x64.size inb_S512x64_S512x64_0_0

/-- What the body leaves in the output window's buffer: its one store, of the mix of the three input blocks. -/
def out2_3 (x0 : Vec F S512x4096 .f32) (x1 : Vec F S4096x64 .f32) (x2 : Vec F S512x1 .f32) : Vec F S512x64 .f32 :=
  View.canon [⟨r2_3, k2_pay1 (View.ld x0 r2_0) (View.ld x1 r2_1) (View.ld x2 r2_2)⟩]

/-- The one store covers the buffer. -/
theorem cover2_3 (p0 : Vec F S512x64 .f32) (y : S512x64.Idx) :
    ∃ pc ∈ ([⟨r2_3, p0⟩] : List (View.Piece (Elt F) S512x64 .f32)), y ∈ pc.1.set :=
  View.cover_of_tiled [⟨r2_3, p0⟩] S512x64.size (by rfl) y

set_option maxHeartbeats 1000000 in
/-- The body on whole staging buffers, the inputs' at contents `x0 x1 x2`, the output's at anything, ends with the
    inputs as they were and the output at `out2_3 x0 x1 x2`. -/
theorem sound_kernel2 (c : Dev nD) (E : Set ℕ) (i : grid2.Coords)
    (arg1 : Memref sig .tc .vmem S512x4096 .f32) (harg1 : arg1.IsWhole) (arg2 : Memref sig .tc .vmem S4096x64 .f32) (harg2 : arg2.IsWhole)
    (arg3 : Memref sig .tc .vmem S512x1 .f32) (harg3 : arg3.IsWhole) (arg4 : Memref sig .tc .vmem S512x64 .f32) (harg4 : arg4.IsWhole)
    (x0 : Vec F S512x4096 .f32) (x1 : Vec F S4096x64 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__down_kernel i arg1 harg1 arg2 harg2 arg3 harg3 arg4 harg4) K := by
  simp only [cc2__down_kernel_eq_skeleton]; unfold cc2__down_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body at point `t`
    each input's buffer at its block and the output's at the mix of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«150061_j20074677141639_2_alg».proof.Proof.Gen.Kernel.Launch
import proofs.«150061_j20074677141639_2_alg».proof.Proof.Gen.Kernel.Skeleton
import proofs.«150061_j20074677141639_2_alg».proof.Proof.Gen.Kernel.Points
import proofs.«150061_j20074677141639_2_alg».proof.Proof.Gen.Kernel.Regions
import proofs.«150061_j20074677141639_2_alg».proof.Proof.K.R0
import proofs.«150061_j20074677141639_2_alg».proof.Proof.K.R1
import proofs.«150061_j20074677141639_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The run of the whole program: a stretch of host operations, the three regions — the second after the first, the
  third after one more host operation —, each entered from the buffer contents the item before it left.
-/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the heads' outputs at what the pipeline leaves, every other buffer as entered (the
    region's two input windows read one array and leave it as it was). -/
def W3 (c : Dev nD) : Valuation τ sig (Elt F) :=
  Function.update (W2 m ρ c) (Proc.devRef .tc main_v11) ((dat1 (V2 m ρ) c).arrAt 2 cfg1.N)
theorem W3_out (c : Dev nD) : W3 m ρ c (Proc.devRef .tc main_v11) = (dat1 (V2 m ρ) c).arrAt 2 cfg1.N := by
  unfold W3; exact Function.update_self ..
theorem W3_of_ne (c : Dev nD) (b : Ref sig .tc) (hb : b ≠ main_v11) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the second host stretch (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third region's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## What no item writes keeps its launch contents -/

theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W4_of (c : Dev nD) (b : Ref sig .tc) (h : b ∉ hostOps2_W) : W4 m ρ c (Proc.devRef .tc b) = W3 m ρ c (Proc.devRef .tc b) :=
  StableHlo.after_of_writes_sub hostOps2 _ hostOps2_writes h

/-- A buffer that is no array of the first or third region, that no host stretch writes and that is not the second
    region's output, ends as launched. -/
theorem W5_kept (c : Dev nD) (b : Ref sig .tc) (h5 : ∀ w, Pipeline.arrRef spec2 w ≠ b) (h4 : b ∉ hostOps2_W) (h3 : b ≠ main_v11)
    (h2 : ∀ w, Pipeline.arrRef spec0 w ≠ b) (h1 : b ∉ hostOps0_W) :
    W5 m ρ c (Proc.devRef .tc b) = m ((c : Thread nD τ).loc b) :=
  (W5_of_ne m ρ c b h5).trans <| (W4_of m ρ c b h4).trans <| (W3_of_ne m ρ c b h3).trans <| (W2_of_ne m ρ c b h2).trans <|
    (W1_of m ρ c b h1).trans rfl

/-- The token matrix, an input of the first region, ends as launched. -/
theorem W5_main_arg0 (c : Dev nD) : W5 m ρ c (Proc.devRef .tc main_arg0) = m ((c : Thread nD τ).loc main_arg0) :=
  (W5_of_ne m ρ c main_arg0 (by decide)).trans <| (W4_of m ρ c main_arg0 (by decide)).trans <| (W3_of_ne m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
/-- The mixing matrix, an input of the third region, ends as launched. -/
theorem W5_main_arg7 (c : Dev nD) : W5 m ρ c (Proc.devRef .tc main_arg7) = m ((c : Thread nD τ).loc main_arg7) :=
  ((W5_arr m ρ c 0).trans (((dat2 (V4 m ρ) c).arrAt_in 0 rfl _).trans (A_eq2 (V4 m ρ) c 0))).trans <|
    (W4_of m ρ c main_arg7 (by decide)).trans <| (W3_of_ne m ρ c main_arg7 (by decide)).trans <|
    (W2_of_ne m ρ c main_arg7 (by decide)).trans <| (W1_of m ρ c main_arg7 (by decide)).trans rfl

/-! ## The second region's two input windows on one array -/

/-- The two buffers behind the second region's three windows. -/
theorem arrImage1 : Finset.univ.image (Pipeline.arrRef spec1) = ({main_v10, main_v11} : Finset (Ref sig .tc)) := by decide

/-- At the entry the buffer of the common array, held whole, is split into the two input windows' halves. -/
theorem arrays1_split (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  unfold Pipeline.arrBufs Pipeline.Dat.arrays
  rw [arrImage1, BI.bigSep_insert (by decide), BI.bigSep_singleton, bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have s0 : (dat1 V c).share 0 = fullShare.left := rfl
  have s1 : (dat1 V c).share 1 = fullShare.right := rfl
  have s2 : (dat1 V c).share 2 = fullShare := rfl
  simp only [h0, h1, h2, s0, s1, s2]
  show iprop(((c : Thread nD τ).loc main_v10 ↦{fullShare} V c main_v10) ∗ ((c : Thread nD τ).loc main_v11 ↦{fullShare} V c main_v11))
    ⊢ iprop(((c : Thread nD τ).loc main_v10 ↦{fullShare.left} V c main_v10) ∗ ((c : Thread nD τ).loc main_v10 ↦{fullShare.right} V c main_v10)
        ∗ ((c : Thread nD τ).loc main_v11 ↦{fullShare} V c main_v11))
  have hs : ((c : Thread nD τ).loc main_v10 ↦{fullShare} V c main_v10 : sProp 𝕄)
      ⊢ iprop(((c : Thread nD τ).loc main_v10 ↦{fullShare.left} V c main_v10) ∗ ((c : Thread nD τ).loc main_v10 ↦{fullShare.right} V c main_v10)) :=
    (pointsTo_share (PosShare.mem_left_op_right fullShare)).1
  iintro ⟨Ha, Hb⟩
  ihave H := hs $$ Ha
  icases H with ⟨Hl, Hr⟩
  isplitl [Hl]; · iexact Hl
  isplitl [Hr]; · iexact Hr
  iexact Hb

/-- At the exit the two halves of the common array, both still at the entry contents, are joined; the output is
    at what the pipeline leaves. -/
theorem arrays1_join (V : (c : Dev nD) → (b : Ref sig .tc) → Buf (Elt F) ((c : Thread nD τ).loc b)) (c : Dev nD)
    (V' : (b : Ref sig .tc) → Buf (Elt F) ((c : Thread nD τ).loc b))
    (h10 : V' main_v10 = V c main_v10) (h11 : V' main_v11 = (dat1 V c).arrAt 2 cfg1.N) :
    (dat1 V c).arrays (fun w => (dat1 V c).arrAt w cfg1.N)
      ⊢ (Pipeline.arrBufs (Ix := Unit) (Name := ℕ) (U := UR sig nD τ) (Lvl := ℕ) spec1 c V' : sProp 𝕄) := by
  unfold Pipeline.arrBufs Pipeline.Dat.arrays
  rw [arrImage1, BI.bigSep_insert (by decide), BI.bigSep_singleton, bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have s0 : (dat1 V c).share 0 = fullShare.left := rfl
  have s1 : (dat1 V c).share 1 = fullShare.right := rfl
  have s2 : (dat1 V c).share 2 = fullShare := rfl
  have a0 : (dat1 V c).arrAt 0 cfg1.N = V c main_v10 := ((dat1 V c).arrAt_in 0 rfl _).trans (A_eq1 V c 0)
  have a1 : (dat1 V c).arrAt 1 cfg1.N = V c main_v10 := ((dat1 V c).arrAt_in 1 rfl _).trans (A_eq1 V c 1)
  simp only [h0, h1, h2, s0, s1, s2, h10, h11, a0, a1]
  show iprop(((c : Thread nD τ).loc main_v10 ↦{fullShare.left} V c main_v10) ∗ ((c : Thread nD τ).loc main_v10 ↦{fullShare.right} V c main_v10)
        ∗ ((c : Thread nD τ).loc main_v11 ↦{fullShare} (dat1 V c).arrAt 2 cfg1.N))
    ⊢ iprop(((c : Thread nD τ).loc main_v10 ↦{fullShare} V c main_v10) ∗ ((c : Thread nD τ).loc main_v11 ↦{fullShare} (dat1 V c).arrAt 2 cfg1.N))
  have hj : iprop(((c : Thread nD τ).loc main_v10 ↦{fullShare.left} V c main_v10) ∗ ((c : Thread nD τ).loc main_v10 ↦{fullShare.right} V c main_v10))
      ⊢ ((c : Thread nD τ).loc main_v10 ↦{fullShare} V c main_v10 : sProp 𝕄) :=
    (pointsTo_share (PosShare.mem_left_op_right fullShare)).2
  iintro ⟨Hl, Hr, Hb⟩
  isplitl [Hl Hr]
  · iapply hj
    isplitl [Hl]; · iexact Hl
    iexact Hr
  iexact Hb

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers at entry and put back at their exit contents; the generator register passes
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its two input
    windows read one array: the array's buffer, held whole at entry, is split into two halves, one per window, and the
    halves — both still at the entry contents — are joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held (Ix := Unit) (Name := ℕ) (U := UR sig nD τ) (Lvl := ℕ) c (W2 m ρ c),
        Pipeline.unscopedBufs_split₀ cfgs 1 winFacts₀1.arr_unscoped c (V2 m ρ c)]
      exact BIClass.sep_mono (arrays1_split (V2 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c),
        Pipeline.unscopedBufs_split₀ cfgs 1 winFacts₀1.arr_unscoped c (V3 m ρ c)]
      refine BIClass.sep_mono (arrays1_join (V2 m ρ) c (V3 m ρ c) (W3_of_ne m ρ c main_v10 (by decide)) (W3_out m ρ c)) ?_
      unfold Pipeline.unscopedRest
      exact Entails.of_eq (bigSep_congr fun b hb => by
        have hne : b ≠ main_v11 := fun e =>
          (Finset.mem_sdiff.mp hb).2 (e ▸ Finset.mem_image.mpr ⟨2, Finset.mem_univ _, rfl⟩)
        rw [show V3 m ρ c b = V2 m ρ c b from W3_of_ne m ρ c b hne])
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers at entry and put back at their exit contents; the generator register passes
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every unscoped buffer of every core ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W5_main_arg0 m ρ c),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_main_arg7 m ρ c),
     (h c _ (mem_uc main_arg8 (by decide))).trans (W5_kept m ρ c main_arg8 (by decide) (by decide) (by decide) (by decide) (by decide))⟩)
    (run_all m ρ)

end Cert.Kernel.Hand

end
-- ==== Proof.KI.R0.lean ====
import proofs.«150061_j20074677141639_2_alg».proof.Proof.Gen.KernelIdeal.Launch
import proofs.«150061_j20074677141639_2_alg».proof.Proof.Gen.KernelIdeal.Skeleton
import proofs.«150061_j20074677141639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The first region: the fused projection. At grid point `t` the body reads rows `512 t … 512 t + 511` of the
  token matrix (window 0), the whole stacked weight matrix `[640, 192]` (window 1) and the bias row `[1, 192]`
  (window 2), and stores `x · w + b` into the whole `[512, 192]` block of window 3.
-/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or carried over from
    the point where the block index last moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four whole-buffer rectangles. -/
abbrev r0_0 : Rect S512x640 := Rect.unit (s := S512x640) ![0, 0] S512x640.size inb_S512x640_S512x640_0_0
abbrev r0_1 : Rect S640x192 := Rect.unit (s := S640x192) ![0, 0] S640x192.size inb_S640x192_S640x192_0_0
abbrev r0_2 : Rect S1x192 := Rect.unit (s := S1x192) ![0, 0] S1x192.size inb_S1x192_S1x192_0_0
abbrev r0_3 : Rect S512x192 := Rect.unit (s := S512x192) ![0, 0] S512x192.size inb_S512x192_S512x192_0_0

/-- What the body leaves in the output window's buffer: its one store, of the projection of the three input blocks. -/
def out0_3 (x0 : Vec F S512x640 .f32) (x1 : Vec F S640x192 .f32) (x2 : Vec F S1x192 .f32) : Vec F S512x192 .f32 :=
  View.canon [⟨r0_3, k0_pay1 (View.ld x0 r0_0) (View.ld x1 r0_1) (View.ld x2 r0_2)⟩]

/-- The one store covers the buffer. -/
theorem cover0_3 (p0 : Vec F S512x192 .f32) (y : S512x192.Idx) :
    ∃ pc ∈ ([⟨r0_3, p0⟩] : List (View.Piece (Elt F) S512x192 .f32)), y ∈ pc.1.set :=
  View.cover_of_tiled [⟨r0_3, p0⟩] S512x192.size (by rfl) y

set_option maxHeartbeats 1000000 in
/-- The body on whole staging buffers, the inputs' at contents `x0 x1 x2`, the output's at anything, ends with the
    inputs as they were and the output at `out0_3 x0 x1 x2`. -/
theorem sound_kernel0 (c : Dev nD) (E : Set ℕ) (i : grid0.Coords)
    (arg1 : Memref sig .tc .vmem S512x640 .f32) (harg1 : arg1.IsWhole) (arg2 : Memref sig .tc .vmem S640x192 .f32) (harg2 : arg2.IsWhole)
    (arg3 : Memref sig .tc .vmem S1x192 .f32) (harg3 : arg3.IsWhole) (arg4 : Memref sig .tc .vmem S512x192 .f32) (harg4 : arg4.IsWhole)
    (x0 : Vec F S512x640 .f32) (x1 : Vec F S640x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point `t`
    each input's buffer at its block and the output's at the projection of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«150061_j20074677141639_2_alg».proof.Proof.Gen.KernelIdeal.Launch
import proofs.«150061_j20074677141639_2_alg».proof.Proof.Gen.KernelIdeal.Skeleton
import proofs.«150061_j20074677141639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The second region: attention with the residual. At grid point `t` the body reads rows `256 t … 256 t + 255` of the
  fused projection `[4096, 192]` (window 0) and the whole of the same array (window 1), and stores head `h`'s
  `[256, 16]` output into columns `16 h … 16 h + 15` of the `[256, 64]` block of window 2, one store per head.
  Both input windows read one array: each holds half of it (`q`).
-/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or carried over from
    the point where the block index last moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two whole-buffer loads and the four column stores. -/
abbrev r1_t : Rect S256x192 := Rect.unit (s := S256x192) ![0, 0] S256x192.size inb_S256x192_S256x192_0_0
abbrev r1_f : Rect S4096x192 := Rect.unit (s := S4096x192) ![0, 0] S4096x192.size inb_S4096x192_S4096x192_0_0
abbrev r1_s0 : Rect S256x64 := Rect.unit (s := S256x64) ![0, 0] S256x16.size inb_S256x64_S256x16_0_0
abbrev r1_s16 : Rect S256x64 := Rect.unit (s := S256x64) ![0, 16] S256x16.size inb_S256x64_S256x16_0_16
abbrev r1_s32 : Rect S256x64 := Rect.unit (s := S256x64) ![0, 32] S256x16.size inb_S256x64_S256x16_0_32
abbrev r1_s48 : Rect S256x64 := Rect.unit (s := S256x64) ![0, 48] S256x16.size inb_S256x64_S256x16_0_48

/-- The four heads' outputs as functions of the two loaded blocks (the tile `v0`, the whole array `v2`). -/
def pay1_h0 (v0 : Vec F S256x192 .f32) (v2 : Vec F S4096x192 .f32) : FVec F S256x16 .f32 := k1_pay8 v0 v2
def pay1_h1 (v0 : Vec F S256x192 .f32) (v2 : Vec F S4096x192 .f32) : FVec F S256x16 .f32 :=
  k1_pay11 (k1_pay5 v0) (k1_pay9 v2) (k1_pay10 v0 v2)
def pay1_h2 (v0 : Vec F S256x192 .f32) (v2 : Vec F S4096x192 .f32) : FVec F S256x16 .f32 :=
  k1_pay12 (k1_pay4 v0) (k1_pay5 v0) (k1_pay6 v2) (k1_pay7 v2)
def pay1_h3 (v0 : Vec F S256x192 .f32) (v2 : Vec F S4096x192 .f32) : FVec F S256x16 .f32 :=
  k1_pay1 (k1_pay5 v0) (k1_pay13 (k1_pay7 v2)) (k1_pay14 (k1_pay4 v0) (k1_pay6 v2)) (k1_pay15 (k1_pay4 v0) (k1_pay6 v2))

/-- What the body leaves in the output window's buffer: its four stores, last first. -/
def out1_2 (x0 : Vec F S256x192 .f32) (x1 : Vec F S4096x192 .f32) : Vec F S256x64 .f32 :=
  View.canon [⟨r1_s48, pay1_h3 (View.ld x0 r1_t) (View.ld x1 r1_f)⟩,
    ⟨r1_s32, pay1_h2 (View.ld x0 r1_t) (View.ld x1 r1_f)⟩,
    ⟨r1_s16, pay1_h1 (View.ld x0 r1_t) (View.ld x1 r1_f)⟩,
    ⟨r1_s0, pay1_h0 (View.ld x0 r1_t) (View.ld x1 r1_f)⟩]

/-- The four column stores tile the buffer. -/
theorem cover1_2 (p0 p1 p2 p3 : Vec F S256x16 .f32) (y : S256x64.Idx) :
    ∃ pc ∈ ([⟨r1_s48, p0⟩, ⟨r1_s32, p1⟩, ⟨r1_s16, p2⟩, ⟨r1_s0, p3⟩] : List (View.Piece (Elt F) S256x64 .f32)), y ∈ pc.1.set :=
  View.cover_of_tiled [⟨r1_s48, p0⟩, ⟨r1_s32, p1⟩, ⟨r1_s16, p2⟩, ⟨r1_s0, p3⟩] S256x16.size (by rfl) y

set_option maxHeartbeats 4000000 in
/-- The body on whole staging buffers, the inputs' at contents `x0 x1`, the output's at anything, ends with the
    inputs as they were and the output at `out1_2 x0 x1`. -/
theorem sound_kernel1 (c : Dev nD) (E : Set ℕ) (i : grid1.Coords)
    (arg1 : Memref sig .tc .vmem S256x192 .f32) (harg1 : arg1.IsWhole) (arg2 : Memref sig .tc .vmem S4096x192 .f32) (harg2 : arg2.IsWhole)
    (arg3 : Memref sig .tc .vmem S256x64 .f32) (harg3 : arg3.IsWhole)
    (x0 : Vec F S256x192 .f32) (x1 : Vec F S4096x192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-- The proof data of the second pipeline on core `c`: the arrays as the region finds them; after the body at point
    `t` each input's buffer at its block and the output's at the four heads' outputs of the input blocks; nothing
    owed; the two input windows hold the halves of their common array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«150061_j20074677141639_2_alg».proof.Proof.Gen.KernelIdeal.Launch
import proofs.«150061_j20074677141639_2_alg».proof.Proof.Gen.KernelIdeal.Skeleton
import proofs.«150061_j20074677141639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-!
  The third region: the token mix. At grid point `t` the body reads rows `512 t … 512 t + 511` of the mixing matrix
  (window 0), the whole `[4096, 64]` matrix of the heads' outputs (window 1) and rows `512 t …` of the bias column
  `[2048, 1]` (window 2), and stores `Wd · v + b` into the whole `[512, 64]` block of window 3.
-/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or carried over from
    the point where the block index last moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's four whole-buffer rectangles. -/
abbrev r2_0 : Rect S512x4096 := Rect.unit (s := S512x4096) ![0, 0] S512x4096.size inb_S512x4096_S512x4096_0_0
abbrev r2_1 : Rect S4096x64 := Rect.unit (s := S4096x64) ![0, 0] S4096x64.size inb_S4096x64_S4096x64_0_0
abbrev r2_2 : Rect S512x1 := Rect.unit (s := S512x1) ![0, 0] S512x1.size inb_S512x1_S512x1_0_0
abbrev r2_3 : Rect S512x64 := Rect.unit (s := S512x64) ![0, 0] S512x64.size inb_S512x64_S512x64_0_0

/-- What the body leaves in the output window's buffer: its one store, of the mix of the three input blocks. -/
def out2_3 (x0 : Vec F S512x4096 .f32) (x1 : Vec F S4096x64 .f32) (x2 : Vec F S512x1 .f32) : Vec F S512x64 .f32 :=
  View.canon [⟨r2_3, k2_pay1 (View.ld x0 r2_0) (View.ld x1 r2_1) (View.ld x2 r2_2)⟩]

/-- The one store covers the buffer. -/
theorem cover2_3 (p0 : Vec F S512x64 .f32) (y : S512x64.Idx) :
    ∃ pc ∈ ([⟨r2_3, p0⟩] : List (View.Piece (Elt F) S512x64 .f32)), y ∈ pc.1.set :=
  View.cover_of_tiled [⟨r2_3, p0⟩] S512x64.size (by rfl) y

set_option maxHeartbeats 1000000 in
/-- The body on whole staging buffers, the inputs' at contents `x0 x1 x2`, the output's at anything, ends with the
    inputs as they were and the output at `out2_3 x0 x1 x2`. -/
theorem sound_kernel2 (c : Dev nD) (E : Set ℕ) (i : grid2.Coords)
    (arg1 : Memref sig .tc .vmem S512x4096 .f32) (harg1 : arg1.IsWhole) (arg2 : Memref sig .tc .vmem S4096x64 .f32) (harg2 : arg2.IsWhole)
    (arg3 : Memref sig .tc .vmem S512x1 .f32) (harg3 : arg3.IsWhole) (arg4 : Memref sig .tc .vmem S512x64 .f32) (harg4 : arg4.IsWhole)
    (x0 : Vec F S512x4096 .f32) (x1 : Vec F S4096x64 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__down_kernel i arg1 harg1 arg2 harg2 arg3 harg3 arg4 harg4) K := by
  simp only [cc2__down_kernel_eq_skeleton]; unfold cc2__down_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body at point `t`
    each input's buffer at its block and the output's at the mix of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«150061_j20074677141639_2_alg».proof.Proof.Gen.KernelIdeal.Launch
import proofs.«150061_j20074677141639_2_alg».proof.Proof.Gen.KernelIdeal.Skeleton
import proofs.«150061_j20074677141639_2_alg».proof.Proof.Gen.KernelIdeal.Points
import proofs.«150061_j20074677141639_2_alg».proof.Proof.Gen.KernelIdeal.Regions
import proofs.«150061_j20074677141639_2_alg».proof.Proof.KI.R0
import proofs.«150061_j20074677141639_2_alg».proof.Proof.KI.R1
import proofs.«150061_j20074677141639_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The run of the whole program: a stretch of host operations, the three regions — the second after the first, the
  third after one more host operation —, each entered from the buffer contents the item before it left.
-/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the heads' outputs at what the pipeline leaves, every other buffer as entered (the
    region's two input windows read one array and leave it as it was). -/
def W3 (c : Dev nD) : Valuation τ sig (Elt F) :=
  Function.update (W2 m ρ c) (Proc.devRef .tc main_v11) ((dat1 (V2 m ρ) c).arrAt 2 cfg1.N)
theorem W3_out (c : Dev nD) : W3 m ρ c (Proc.devRef .tc main_v11) = (dat1 (V2 m ρ) c).arrAt 2 cfg1.N := by
  unfold W3; exact Function.update_self ..
theorem W3_of_ne (c : Dev nD) (b : Ref sig .tc) (hb : b ≠ main_v11) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the second host stretch (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third region's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## What no item writes keeps its launch contents -/

theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W4_of (c : Dev nD) (b : Ref sig .tc) (h : b ∉ hostOps2_W) : W4 m ρ c (Proc.devRef .tc b) = W3 m ρ c (Proc.devRef .tc b) :=
  StableHlo.after_of_writes_sub hostOps2 _ hostOps2_writes h

/-- A buffer that is no array of the first or third region, that no host stretch writes and that is not the second
    region's output, ends as launched. -/
theorem W5_kept (c : Dev nD) (b : Ref sig .tc) (h5 : ∀ w, Pipeline.arrRef spec2 w ≠ b) (h4 : b ∉ hostOps2_W) (h3 : b ≠ main_v11)
    (h2 : ∀ w, Pipeline.arrRef spec0 w ≠ b) (h1 : b ∉ hostOps0_W) :
    W5 m ρ c (Proc.devRef .tc b) = m ((c : Thread nD τ).loc b) :=
  (W5_of_ne m ρ c b h5).trans <| (W4_of m ρ c b h4).trans <| (W3_of_ne m ρ c b h3).trans <| (W2_of_ne m ρ c b h2).trans <|
    (W1_of m ρ c b h1).trans rfl

/-- The token matrix, an input of the first region, ends as launched. -/
theorem W5_main_arg0 (c : Dev nD) : W5 m ρ c (Proc.devRef .tc main_arg0) = m ((c : Thread nD τ).loc main_arg0) :=
  (W5_of_ne m ρ c main_arg0 (by decide)).trans <| (W4_of m ρ c main_arg0 (by decide)).trans <| (W3_of_ne m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
/-- The mixing matrix, an input of the third region, ends as launched. -/
theorem W5_main_arg7 (c : Dev nD) : W5 m ρ c (Proc.devRef .tc main_arg7) = m ((c : Thread nD τ).loc main_arg7) :=
  ((W5_arr m ρ c 0).trans (((dat2 (V4 m ρ) c).arrAt_in 0 rfl _).trans (A_eq2 (V4 m ρ) c 0))).trans <|
    (W4_of m ρ c main_arg7 (by decide)).trans <| (W3_of_ne m ρ c main_arg7 (by decide)).trans <|
    (W2_of_ne m ρ c main_arg7 (by decide)).trans <| (W1_of m ρ c main_arg7 (by decide)).trans rfl

/-! ## The second region's two input windows on one array -/

/-- The two buffers behind the second region's three windows. -/
theorem arrImage1 : Finset.univ.image (Pipeline.arrRef spec1) = ({main_v10, main_v11} : Finset (Ref sig .tc)) := by decide

/-- At the entry the buffer of the common array, held whole, is split into the two input windows' halves. -/
theorem arrays1_split (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  unfold Pipeline.arrBufs Pipeline.Dat.arrays
  rw [arrImage1, BI.bigSep_insert (by decide), BI.bigSep_singleton, bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have s0 : (dat1 V c).share 0 = fullShare.left := rfl
  have s1 : (dat1 V c).share 1 = fullShare.right := rfl
  have s2 : (dat1 V c).share 2 = fullShare := rfl
  simp only [h0, h1, h2, s0, s1, s2]
  show iprop(((c : Thread nD τ).loc main_v10 ↦{fullShare} V c main_v10) ∗ ((c : Thread nD τ).loc main_v11 ↦{fullShare} V c main_v11))
    ⊢ iprop(((c : Thread nD τ).loc main_v10 ↦{fullShare.left} V c main_v10) ∗ ((c : Thread nD τ).loc main_v10 ↦{fullShare.right} V c main_v10)
        ∗ ((c : Thread nD τ).loc main_v11 ↦{fullShare} V c main_v11))
  have hs : ((c : Thread nD τ).loc main_v10 ↦{fullShare} V c main_v10 : sProp 𝕄)
      ⊢ iprop(((c : Thread nD τ).loc main_v10 ↦{fullShare.left} V c main_v10) ∗ ((c : Thread nD τ).loc main_v10 ↦{fullShare.right} V c main_v10)) :=
    (pointsTo_share (PosShare.mem_left_op_right fullShare)).1
  iintro ⟨Ha, Hb⟩
  ihave H := hs $$ Ha
  icases H with ⟨Hl, Hr⟩
  isplitl [Hl]; · iexact Hl
  isplitl [Hr]; · iexact Hr
  iexact Hb

/-- At the exit the two halves of the common array, both still at the entry contents, are joined; the output is
    at what the pipeline leaves. -/
theorem arrays1_join (V : (c : Dev nD) → (b : Ref sig .tc) → Buf (Elt F) ((c : Thread nD τ).loc b)) (c : Dev nD)
    (V' : (b : Ref sig .tc) → Buf (Elt F) ((c : Thread nD τ).loc b))
    (h10 : V' main_v10 = V c main_v10) (h11 : V' main_v11 = (dat1 V c).arrAt 2 cfg1.N) :
    (dat1 V c).arrays (fun w => (dat1 V c).arrAt w cfg1.N)
      ⊢ (Pipeline.arrBufs (Ix := Unit) (Name := ℕ) (U := UR sig nD τ) (Lvl := ℕ) spec1 c V' : sProp 𝕄) := by
  unfold Pipeline.arrBufs Pipeline.Dat.arrays
  rw [arrImage1, BI.bigSep_insert (by decide), BI.bigSep_singleton, bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have s0 : (dat1 V c).share 0 = fullShare.left := rfl
  have s1 : (dat1 V c).share 1 = fullShare.right := rfl
  have s2 : (dat1 V c).share 2 = fullShare := rfl
  have a0 : (dat1 V c).arrAt 0 cfg1.N = V c main_v10 := ((dat1 V c).arrAt_in 0 rfl _).trans (A_eq1 V c 0)
  have a1 : (dat1 V c).arrAt 1 cfg1.N = V c main_v10 := ((dat1 V c).arrAt_in 1 rfl _).trans (A_eq1 V c 1)
  simp only [h0, h1, h2, s0, s1, s2, h10, h11, a0, a1]
  show iprop(((c : Thread nD τ).loc main_v10 ↦{fullShare.left} V c main_v10) ∗ ((c : Thread nD τ).loc main_v10 ↦{fullShare.right} V c main_v10)
        ∗ ((c : Thread nD τ).loc main_v11 ↦{fullShare} (dat1 V c).arrAt 2 cfg1.N))
    ⊢ iprop(((c : Thread nD τ).loc main_v10 ↦{fullShare} V c main_v10) ∗ ((c : Thread nD τ).loc main_v11 ↦{fullShare} (dat1 V c).arrAt 2 cfg1.N))
  have hj : iprop(((c : Thread nD τ).loc main_v10 ↦{fullShare.left} V c main_v10) ∗ ((c : Thread nD τ).loc main_v10 ↦{fullShare.right} V c main_v10))
      ⊢ ((c : Thread nD τ).loc main_v10 ↦{fullShare} V c main_v10 : sProp 𝕄) :=
    (pointsTo_share (PosShare.mem_left_op_right fullShare)).2
  iintro ⟨Hl, Hr, Hb⟩
  isplitl [Hl Hr]
  · iapply hj
    isplitl [Hl]; · iexact Hl
    iexact Hr
  iexact Hb

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers at entry and put back at their exit contents; the generator register passes
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its two input
    windows read one array: the array's buffer, held whole at entry, is split into two halves, one per window, and the
    halves — both still at the entry contents — are joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held (Ix := Unit) (Name := ℕ) (U := UR sig nD τ) (Lvl := ℕ) c (W2 m ρ c),
        Pipeline.unscopedBufs_split₀ cfgs 1 winFacts₀1.arr_unscoped c (V2 m ρ c)]
      exact BIClass.sep_mono (arrays1_split (V2 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c),
        Pipeline.unscopedBufs_split₀ cfgs 1 winFacts₀1.arr_unscoped c (V3 m ρ c)]
      refine BIClass.sep_mono (arrays1_join (V2 m ρ) c (V3 m ρ c) (W3_of_ne m ρ c main_v10 (by decide)) (W3_out m ρ c)) ?_
      unfold Pipeline.unscopedRest
      exact Entails.of_eq (bigSep_congr fun b hb => by
        have hne : b ≠ main_v11 := fun e =>
          (Finset.mem_sdiff.mp hb).2 (e ▸ Finset.mem_image.mpr ⟨2, Finset.mem_univ _, rfl⟩)
        rw [show V3 m ρ c b = V2 m ρ c b from W3_of_ne m ρ c b hne])
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers at entry and put back at their exit contents; the generator register passes
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every unscoped buffer of every core ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W5_main_arg0 m ρ c),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_main_arg7 m ρ c),
     (h c _ (mem_uc main_arg8 (by decide))).trans (W5_kept m ρ c main_arg8 (by decide) (by decide) (by decide) (by decide) (by decide))⟩)
    (run_all m ρ)

end Cert.KernelIdeal.Hand

end
-- ==== Proof.Spec.lean ====
/-
  What the block computes, entry by entry, on the extended reals.

  Tokens are rows `n : Fin 4096`, heads `h : Fin 4`, a head's features `e : Fin 16`. One head's query, key and value
  rows are affine images of the token rows (`proj`). A query row is scored against every key row and scaled by 1/4
  (`scores`); the scores of one row are shifted by their maximum (`rowMax`, a fold of `max` seeded with −∞),
  exponentiated and normalised by their sum (`prob`); the head's output at a token is the so-weighted sum of the value
  rows plus the token's own value row (`head`). The result mixes the tokens of every head's output with the matrix
  `Wd` and adds a bias per result row (`out`).

  The same quantities in the layout in which a fused projection holds them — query, key and value features of the four
  heads side by side in 192 columns, column `64 s + 16 h + e` — are `qkv`, `attn` and `down`.
-/
import Idealize.ShloMosaic.PureOps.Ideal
import Idealize.ShloMosaic.Lib.ValueIdx

noncomputable section

namespace Cert.Spec

open Idealize.ShloMosaic Idealize.ShloMosaic.ValueIdx

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- Column `64 s + 16 h + e` of the 192 fused columns: part `s` (query, key, value), head `h`, feature `e`. -/
def col (s : Fin 3) (h : Fin 4) (e : Fin 16) : Fin 192 := ⟨64 * s.val + 16 * h.val + e.val, by omega⟩
/-- Column `16 h + e` of the 64 columns of the heads' outputs side by side. -/
def col64 (h : Fin 4) (e : Fin 16) : Fin 64 := ⟨16 * h.val + e.val, by omega⟩

theorem col_val (s : Fin 3) (h : Fin 4) (e : Fin 16) : (col s h e).val = 64 * s.val + 16 * h.val + e.val := rfl
theorem col64_val (h : Fin 4) (e : Fin 16) : (col64 h e).val = 16 * h.val + e.val := rfl

/-- Every one of the 64 columns is a head's feature. -/
theorem exists_col64 (c : Fin 64) : ∃ (h : Fin 4) (e : Fin 16), c = col64 h e :=
  ⟨⟨c.val / 16, by omega⟩, ⟨c.val % 16, by omega⟩, Fin.ext (by rw [col64_val]; dsimp only; omega)⟩

/-- Every one of the 192 fused columns is a part's head's feature. -/
theorem exists_col (c : Fin 192) : ∃ (s : Fin 3) (h : Fin 4) (e : Fin 16), c = col s h e :=
  ⟨⟨c.val / 64, by omega⟩, ⟨c.val % 64 / 16, by omega⟩, ⟨c.val % 16, by omega⟩, Fin.ext (by rw [col_val]; dsimp only; omega)⟩

/-- The scale 1/4 = 1/√16, as the word both programs spell. -/
abbrev quarter : EReal := Ideal.ofBits .f32 0x3E800000#32
/-- The seed −∞ of a row maximum, as the word both programs spell. -/
abbrev negInf : EReal := Ideal.ofBits .f32 0xFF800000#32

/-- One head's projection of token `n`: `Σ_d x[n,d] · W[h,e,d] + b[h,e]`. -/
def proj (x : Arr2 4096 640) (W : Arr3 4 16 640) (b : Arr2 4 16) (h : Fin 4) (n : Fin 4096) (e : Fin 16) : EReal :=
  (∑ d : Fin 640, x (ix2 n d) * W (ix3 h e d)) + b (ix2 h e)

/-- Query row `n` against key row `m`, scaled. -/
def scores (q k : Fin 4096 → Fin 16 → EReal) (n m : Fin 4096) : EReal :=
  (∑ e : Fin 16, q n e * k m e) * quarter

/-- The maximum of a row of scores, folded from −∞. -/
def rowMax (s : Fin 4096 → EReal) : EReal := (Finset.univ : Finset (Fin 4096)).fold max negInf s

/-- The softmax weight of key `m` in a row of scores. -/
def prob (s : Fin 4096 → EReal) (m : Fin 4096) : EReal :=
  Ideal.div (Ideal.exp (s m - rowMax s)) (∑ m' : Fin 4096, Ideal.exp (s m' - rowMax s))

/-- One head's output at token `n`, feature `e`: the weighted sum of the value rows plus the token's own. -/
def head (q k v : Fin 4096 → Fin 16 → EReal) (n : Fin 4096) (e : Fin 16) : EReal :=
  (∑ m : Fin 4096, prob (scores q k n) m * v m e) + v n e

/-- The block's result at row `r`, head `h`, feature `e`. -/
def out (x : Arr2 4096 640) (Wq : Arr3 4 16 640) (bq : Arr2 4 16) (Wk : Arr3 4 16 640) (bk : Arr2 4 16)
    (Wv : Arr3 4 16 640) (bv : Arr2 4 16) (Wd : Arr2 2048 4096) (bd : Arr1 2048) (r : Fin 2048) (h : Fin 4) (e : Fin 16) : EReal :=
  (∑ n : Fin 4096, Wd (ix2 r n) * head (proj x Wq bq h) (proj x Wk bk h) (proj x Wv bv h) n e) + bd (ix1 r)

/-! ## The fused layout -/

/-- The fused projection: token `n`, fused column `c`, from the stacked weights `[640, 192]` and the bias row `[1, 192]`. -/
def qkv (x : Arr2 4096 640) (wT : Arr2 640 192) (b : Arr2 1 192) (n : Fin 4096) (c : Fin 192) : EReal :=
  (∑ d : Fin 640, x (ix2 n d) * wT (ix2 d c)) + b (ix2 (0 : Fin 1) c)

/-- Head `h`'s output read off a fused projection `a : [4096, 192]`. -/
def attn (a : Arr2 4096 192) (n : Fin 4096) (h : Fin 4) (e : Fin 16) : EReal :=
  head (fun n e => a (ix2 n (col 0 h e))) (fun m e => a (ix2 m (col 1 h e))) (fun m e => a (ix2 m (col 2 h e))) n e

/-- The token mix: row `r`, column `c`, with a bias column `[2048, 1]`. -/
def down (Wd : Arr2 2048 4096) (v : Arr2 4096 64) (b : Arr2 2048 1) (r : Fin 2048) (c : Fin 64) : EReal :=
  (∑ n : Fin 4096, Wd (ix2 r n) * v (ix2 n c)) + b (ix2 r (0 : Fin 1))

end Cert.Spec

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSoftmaxHead.lean ====
/-
  One head of scaled dot-product attention with a residual, as a vector program computes it, read at an entry on the
  extended reals, for any extents.

  For queries q : [A, E], keys k : [N, E], values v : [N, E] and a residual r : [A, E] the program forms the scores
  q · kᵀ (a product contracting the last axis of both, into the zero accumulator) times a scalar w, subtracts from
  every row its maximum (a lane maximum over the columns, kept as a unit trailing axis and broadcast back along the
  row), exponentiates, divides every row by its sum (a lane sum, kept and broadcast the same way), multiplies the
  weights with v (into the zero accumulator) and adds r. At entry (p, e) this is

      (∑ m, weight z (score q k w p) m · v (m, e)) + r (p, e),

  where score q k w p m = (∑ e', q (p, e') · k (m, e')) · w, z is the value of the maximum's seed word and
  weight z s m = exp (s m − M) / ∑ m', exp (s m' − M) with M the fold of max over s from z. The four stages are
  stated one by one over any operand (scores, shifted, normalised, readout) and then composed.
-/
import Idealize.ShloMosaic.PureOps.Ideal.Laws
import Idealize.ShloMosaic.Lib.ValueIdx
import Idealize.ShloMosaic.Lib.Pipeline.Value
import proofs.«150061_j20074677141639_2_alg».proof.Proof.LibGram
import proofs.«150061_j20074677141639_2_alg».proof.Proof.LibContract
import proofs.«150061_j20074677141639_2_alg».proof.Proof.LibRowSum
import proofs.«150061_j20074677141639_2_alg».proof.Proof.LibColumn

noncomputable section

open scoped BigOperators

namespace Idealize.ShloMosaic.SoftmaxHead

open Idealize.ShloMosaic Idealize.ShloMosaic.ValueIdx

variable {A N E : ℕ}

/-- Query row `p` against key row `m`, times the scalar `w`. -/
def score (q : (⟨2, ![A, E]⟩ : Shape).Idx → EReal) (k : (⟨2, ![N, E]⟩ : Shape).Idx → EReal) (w : EReal) (p : Fin A) (m : Fin N) : EReal :=
  (∑ e : Fin E, q (ix2 p e) * k (ix2 m e)) * w

/-- The maximum of a row of scores, folded from `z`. -/
def rowMax (z : EReal) (s : Fin N → EReal) : EReal := (Finset.univ : Finset (Fin N)).fold max z s

/-- The softmax weight of entry `m` of a row of scores, the row shifted by its maximum folded from `z`. -/
def weight (z : EReal) (s : Fin N → EReal) (m : Fin N) : EReal :=
  Ideal.div (Ideal.exp (s m - rowMax z s)) (∑ m' : Fin N, Ideal.exp (s m' - rowMax z s))

/-- The scaled scores at (p, m). -/
theorem scores_apply {φ₁ φ₂ : FTy}
    (D : DotDims (⟨2, ![A, E]⟩ : Shape) (⟨2, ![N, E]⟩ : Shape) (⟨2, ![A, N]⟩ : Shape))
    (hr : D.contr.rank = 1) (hs : D.contr.size ⟨0, by omega⟩ = E)
    (hlc : D.lhsContracting = [1]) (hrc : D.rhsContracting = [1])
    (hl0 : ∀ j q, (D.lhsIdx j q 0).val = (j 0).val) (hr0 : ∀ j q, (D.rhsIdx j q 0).val = (j 1).val)
    (prec : Option ContractPrecision)
    (q : FVec Ideal (⟨2, ![A, E]⟩ : Shape) φ₁) (k : FVec Ideal (⟨2, ![N, E]⟩ : Shape) φ₂) (w : BitVec 32)
    (p : Fin A) (m : Fin N) :
    mulf (matmul D prec q k (constant (F := Ideal) (⟨2, ![A, N]⟩ : Shape) .f32 0x00000000#32))
        (broadcast (⟨2, ![A, N]⟩ : Shape) (Scalar.ofBits (F := Ideal) .f32 w)) (ix2 p m)
      = score q k (Ideal.ofBits .f32 w) p m := by
  rw [mulf_apply, broadcast_apply]
  refine congrArg (· * Ideal.ofBits .f32 w) ?_
  refine (Ideal.matmul_constant_zero_apply D prec q k (ix2 p m)).trans ?_
  exact Gram.sum_contr_last D hr hs hlc hrc hl0 hr0 q k (ix2 p m)

/-- A matrix minus its rows' maxima (kept as a column and broadcast back), at (p, m). -/
theorem shifted_apply (S : FVec Ideal (⟨2, ![A, N]⟩ : Shape) .f32) (acc : BitVec 32)
    (h : (⟨2, ![A, N]⟩ : Shape).Reduces [1] ⟨1, ![A]⟩) (hφ : FKind.Formats .f32)
    (hacc : acc = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (m : Fin N) :
    subf S (broadcastTo (⟨2, ![A, N]⟩ : Shape) (shapeCast (⟨2, ![A, 1]⟩ : Shape)
        (multiReduction .maximumf [1] (⟨1, ![A]⟩ : Shape) S acc h hφ hacc) hc) hb) (ix2 p m)
      = S (ix2 p m) - rowMax (Ideal.ofBits .f32 acc) (fun c => S (ix2 p c)) := by
  rw [subf_apply]
  refine congrArg (S (ix2 p m) - ·) ?_
  refine (broadcastTo_a1_ab_apply _ hb p m).trans ?_
  refine (shapeCast_a_a1_apply _ hc p (0 : Fin 1)).trans ?_
  exact Gram.multiReduction_max_rows_apply S acc h hφ hacc p

/-- A matrix divided by its rows' sums (kept as a column and broadcast back), at (p, m). -/
theorem normalised_apply (X : FVec Ideal (⟨2, ![A, N]⟩ : Shape) .f32)
    (h : (⟨2, ![A, N]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩)
    (p : Fin A) (m : Fin N) :
    divf X (broadcastTo (⟨2, ![A, N]⟩ : Shape) (shapeCast (⟨2, ![A, 1]⟩ : Shape)
        (multiReduction .add [1] (⟨1, ![A]⟩ : Shape) X 0x00000000#32 h hφ hacc) hc) hb) (ix2 p m)
      = Ideal.div (X (ix2 p m)) (∑ d : Fin N, X (ix2 p d)) := by
  rw [divf_apply]
  refine congrArg (Ideal.div (X (ix2 p m))) ?_
  refine (broadcastTo_a1_ab_apply _ hb p m).trans ?_
  refine (shapeCast_a_a1_apply _ hc p (0 : Fin 1)).trans ?_
  exact multiReduction_add_rows_apply X h hφ hacc p

/-- Weights times values into zero, plus a residual, at (p, e). -/
theorem readout_apply {φ₁ φ₂ : FTy}
    (D : DotDims (⟨2, ![A, N]⟩ : Shape) (⟨2, ![N, E]⟩ : Shape) (⟨2, ![A, E]⟩ : Shape))
    (hr : D.contr.rank = 1) (hs : D.contr.size ⟨0, by omega⟩ = N)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (P : FVec Ideal (⟨2, ![A, N]⟩ : Shape) φ₁) (v : FVec Ideal (⟨2, ![N, E]⟩ : Shape) φ₂)
    (r : FVec Ideal (⟨2, ![A, E]⟩ : Shape) .f32) (p : Fin A) (e : Fin E) :
    addf (matmul D prec P v (constant (F := Ideal) (⟨2, ![A, E]⟩ : Shape) .f32 0x00000000#32)) r (ix2 p e)
      = (∑ m : Fin N, P (ix2 p m) * v (ix2 m e)) + r (ix2 p e) := by
  rw [addf_apply]
  refine congrArg (· + r (ix2 p e)) ?_
  refine (Ideal.matmul_constant_zero_apply D prec P v (ix2 p e)).trans ?_
  exact Contract2.sum_contr_eq_sum_fin D hr hs hlc hrc hl0 hr1 P v (ix2 p e)

/-! ## The head as one vector program -/

/-- The scaled scores as a vector program spells them. -/
abbrev scoresV {φ₁ φ₂ : FTy} (D : DotDims (⟨2, ![A, E]⟩ : Shape) (⟨2, ![N, E]⟩ : Shape) (⟨2, ![A, N]⟩ : Shape))
    (prec : Option ContractPrecision) (q : FVec Ideal (⟨2, ![A, E]⟩ : Shape) φ₁) (k : FVec Ideal (⟨2, ![N, E]⟩ : Shape) φ₂)
    (w : BitVec 32) : FVec Ideal (⟨2, ![A, N]⟩ : Shape) .f32 :=
  mulf (matmul D prec q k (constant (F := Ideal) (⟨2, ![A, N]⟩ : Shape) .f32 0x00000000#32))
    (broadcast (⟨2, ![A, N]⟩ : Shape) (Scalar.ofBits (F := Ideal) .f32 w))

/-- A matrix minus its rows' maxima, as a vector program spells it. -/
abbrev shiftedV (S : FVec Ideal (⟨2, ![A, N]⟩ : Shape) .f32) (acc : BitVec 32)
    (h : (⟨2, ![A, N]⟩ : Shape).Reduces [1] ⟨1, ![A]⟩) (hφ : FKind.Formats .f32)
    (hacc : acc = FKind.maximumf.neutral .f32 hφ)
    (hc : (⟨1, ![A]⟩ : Shape).ShapeCasts ⟨2, ![A, 1]⟩) (hb : (⟨2, ![A, 1]⟩ : Shape).Broadcasts ⟨2, ![A, N]⟩) :
    FVec Ideal (⟨2, ![A, N]⟩ : Shape) .f32 :=
  subf S (broadcastTo (⟨2, ![A, N]⟩ : Shape) (shapeCast (⟨2, ![A, 1]⟩ : Shape)
    (multiReduction .maximumf [1] (⟨1, ![A]⟩ : Shape) S acc h hφ hacc) hc) hb)

/-- A matrix divided by its rows' sums, as a vector program spells it. -/
abbrev normalisedV (X : FVec Ideal (⟨2, ![A, N]⟩ : Shape) .f32)
    (h : (⟨2, ![A, N]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    FVec Ideal (⟨2, ![A, N]⟩ : Shape) .f32 :=
  divf X (broadcastTo (⟨2, ![A, N]⟩ : Shape) (shapeCast (⟨2, ![A, 1]⟩ : Shape)
    (multiReduction .add [1] (⟨1, ![A]⟩ : Shape) X 0x00000000#32 h hφ hacc) hc) hb)

/-- The exponentials of the shifted scores of row `p` are those of the row's entries minus the row's maximum. -/
theorem exp_shifted_scores_apply
    (D1 : DotDims (⟨2, ![A, E]⟩ : Shape) (⟨2, ![N, E]⟩ : Shape) (⟨2, ![A, N]⟩ : Shape))
    (hr : D1.contr.rank = 1) (hs : D1.contr.size ⟨0, by omega⟩ = E)
    (hlc : D1.lhsContracting = [1]) (hrc : D1.rhsContracting = [1])
    (hl0 : ∀ j q, (D1.lhsIdx j q 0).val = (j 0).val) (hr0 : ∀ j q, (D1.rhsIdx j q 0).val = (j 1).val)
    (prec : Option ContractPrecision) (hbf : FTy.bits .bf16 < FTy.bits .f32)
    (q : FVec Ideal (⟨2, ![A, E]⟩ : Shape) .f32) (k : FVec Ideal (⟨2, ![N, E]⟩ : Shape) .f32) (w acc : BitVec 32)
    (h : (⟨2, ![A, N]⟩ : Shape).Reduces [1] ⟨1, ![A]⟩) (hφ : FKind.Formats .f32)
    (hacc : acc = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (d : Fin N) :
    exp (shiftedV (scoresV D1 prec (truncf .bf16 q hbf) (truncf .bf16 k hbf) w) acc h hφ hacc hc hb) (ix2 p d)
      = Ideal.exp (score q k (Ideal.ofBits .f32 w) p d
          - rowMax (Ideal.ofBits .f32 acc) (score q k (Ideal.ofBits .f32 w) p)) := by
  have hS : ∀ c : Fin N, scoresV D1 prec (truncf .bf16 q hbf) (truncf .bf16 k hbf) w (ix2 p c)
      = score q k (Ideal.ofBits .f32 w) p c := fun c =>
    scores_apply D1 hr hs hlc hrc hl0 hr0 prec (truncf .bf16 q hbf) (truncf .bf16 k hbf) w p c
  refine congrArg Ideal.exp ?_
  refine (shifted_apply _ acc h hφ hacc hc hb p d).trans ?_
  exact congrArg₂ (fun a b : EReal => a - b) (hS d) (congrArg (rowMax (Ideal.ofBits .f32 acc)) (funext hS))

/-- One head as a vector program spells it. -/
abbrev headV
    (D1 : DotDims (⟨2, ![A, E]⟩ : Shape) (⟨2, ![N, E]⟩ : Shape) (⟨2, ![A, N]⟩ : Shape))
    (D2 : DotDims (⟨2, ![A, N]⟩ : Shape) (⟨2, ![N, E]⟩ : Shape) (⟨2, ![A, E]⟩ : Shape))
    (prec : Option ContractPrecision) (hbf : FTy.bits .bf16 < FTy.bits .f32)
    (q : FVec Ideal (⟨2, ![A, E]⟩ : Shape) .f32) (k v : FVec Ideal (⟨2, ![N, E]⟩ : Shape) .f32)
    (r : FVec Ideal (⟨2, ![A, E]⟩ : Shape) .f32) (w acc : BitVec 32)
    (h : (⟨2, ![A, N]⟩ : Shape).Reduces [1] ⟨1, ![A]⟩) (hφ : FKind.Formats .f32)
    (hacc : acc = FKind.maximumf.neutral .f32 hφ) (hφ' : FKind.Formats .f32)
    (hacc' : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, N]⟩) :
    FVec Ideal (⟨2, ![A, E]⟩ : Shape) .f32 :=
  addf (matmul D2 prec
      (truncf .bf16 (normalisedV (exp (shiftedV (scoresV D1 prec (truncf .bf16 q hbf) (truncf .bf16 k hbf) w) acc h hφ hacc hc hb))
        h hφ' hacc' hc hb) hbf)
      (truncf .bf16 v hbf) (constant (F := Ideal) (⟨2, ![A, E]⟩ : Shape) .f32 0x00000000#32)) r

/-- The head at entry (p, e): the softmax-weighted sum of the value rows plus the residual. -/
theorem head_apply
    (D1 : DotDims (⟨2, ![A, E]⟩ : Shape) (⟨2, ![N, E]⟩ : Shape) (⟨2, ![A, N]⟩ : Shape))
    (hr : D1.contr.rank = 1) (hs : D1.contr.size ⟨0, by omega⟩ = E)
    (hlc : D1.lhsContracting = [1]) (hrc : D1.rhsContracting = [1])
    (hl0 : ∀ j q, (D1.lhsIdx j q 0).val = (j 0).val) (hr0 : ∀ j q, (D1.rhsIdx j q 0).val = (j 1).val)
    (D2 : DotDims (⟨2, ![A, N]⟩ : Shape) (⟨2, ![N, E]⟩ : Shape) (⟨2, ![A, E]⟩ : Shape))
    (hr' : D2.contr.rank = 1) (hs' : D2.contr.size ⟨0, by omega⟩ = N)
    (hlc' : D2.lhsContracting = [1]) (hrc' : D2.rhsContracting = [0])
    (hl0' : ∀ j q, (D2.lhsIdx j q 0).val = (j 0).val) (hr1' : ∀ j q, (D2.rhsIdx j q 1).val = (j 1).val)
    (prec : Option ContractPrecision) (hbf : FTy.bits .bf16 < FTy.bits .f32)
    (q : FVec Ideal (⟨2, ![A, E]⟩ : Shape) .f32) (k v : FVec Ideal (⟨2, ![N, E]⟩ : Shape) .f32)
    (r : FVec Ideal (⟨2, ![A, E]⟩ : Shape) .f32) (w acc : BitVec 32)
    (h : (⟨2, ![A, N]⟩ : Shape).Reduces [1] ⟨1, ![A]⟩) (hφ : FKind.Formats .f32)
    (hacc : acc = FKind.maximumf.neutral .f32 hφ) (hφ' : FKind.Formats .f32)
    (hacc' : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, N]⟩)
    (p : Fin A) (e : Fin E) :
    headV D1 D2 prec hbf q k v r w acc h hφ hacc hφ' hacc' hc hb (ix2 p e)
      = (∑ m : Fin N, weight (Ideal.ofBits .f32 acc) (score q k (Ideal.ofBits .f32 w) p) m * v (ix2 m e)) + r (ix2 p e) := by
  refine (readout_apply D2 hr' hs' hlc' hrc' hl0' hr1' prec _ _ r p e).trans ?_
  refine congrArg (· + r (ix2 p e)) (Finset.sum_congr rfl fun m _ => ?_)
  refine congrArg (· * v (ix2 m e)) ?_
  have hX := exp_shifted_scores_apply D1 hr hs hlc hrc hl0 hr0 prec hbf q k w acc h hφ hacc hc hb p
  refine (normalised_apply _ h hφ' hacc' hc hb p m).trans ?_
  exact congrArg₂ Ideal.div (hX m) (Finset.sum_congr rfl fun d _ => hX d)

end Idealize.ShloMosaic.SoftmaxHead

end
-- ==== Proof.LibColSlice.lean ====
/-
  A block of columns of a matrix read at an index: the unit-stride slice of an [a, b] matrix that keeps every row and
  the c columns from offset o on reads, at (p, e), the matrix at (p, o + e). For any extents and any element type.
-/
import Idealize.ShloMosaic.Lib.Pipeline.Value
import Idealize.ShloMosaic.Lib.ValueIdx

namespace Idealize.ShloMosaic.ValueIdx

variable {α : Type}

/-- A column slice `[a, b] → [a, c]` at offset `o` reads, at `(p, e)`, the operand at row `p` and the column
    `d` whose number is `o + e`. -/
theorem colSlice_apply {a b c : ℕ} (o : ℕ) (x : (⟨2, ![a, b]⟩ : Shape).Idx → α)
    (h : (⟨2, ![a, b]⟩ : Shape).Slices ![0, o] ⟨2, ![a, c]⟩) (p : Fin a) (e : Fin c) (d : Fin b)
    (hd : d.val = o + e.val) :
    extractStridedSlice (⟨2, ![a, c]⟩ : Shape) ![0, o] x h (ix2 p e) = x (ix2 p d) :=
  extractStridedSlice_apply ![0, o] x h (ix2 p e) (ix2 p d) fun ax => by
    match ax with
    | ⟨0, _⟩ => exact (Nat.zero_add p.val).symm
    | ⟨1, _⟩ => exact hd

end Idealize.ShloMosaic.ValueIdx
-- ==== Proof.KI.CSlab.lean ====
/-
  The four heads' outputs of the attention region, entry by entry on the extended reals.

  The body slices the tile into its query columns (the first 64) and its own value columns (the last 64), the whole
  array into its key columns (the middle 64) and value columns (the last 64), and for head h works on the 16 columns
  from offset 16 h of each. Entry (p, e) of head h's [256, 16] output is the softmax-weighted sum over all 4096 rows m
  of the value entries (m, 128 + 16 h + e), the weights those of the scores of the tile's row p against the key rows
  (columns 16 h + · against 64 + 16 h + ·, times 1/4), plus the tile's own value entry (p, 128 + 16 h + e).
-/
import proofs.«150061_j20074677141639_2_alg».proof.Proof.KI.R1
import proofs.«150061_j20074677141639_2_alg».proof.Proof.Spec
import proofs.«150061_j20074677141639_2_alg».proof.Proof.LibSoftmaxHead
import proofs.«150061_j20074677141639_2_alg».proof.Proof.LibColSlice
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx

/-- One head's output for a single query row `qrow` against all the key and value rows, the row's own value entry
    `res` added. -/
def headRow (qrow : Fin 16 → EReal) (k v : Fin 4096 → Fin 16 → EReal) (res : EReal) (e : Fin 16) : EReal :=
  (∑ m : Fin 4096, Cert.Spec.prob (fun m' => (∑ e' : Fin 16, qrow e' * k m' e') * Cert.Spec.quarter) m * v m e) + res

/-- The specification's head at token `n` is the row form at the token's query row and own value entry. -/
theorem head_eq_headRow (q k v : Fin 4096 → Fin 16 → EReal) (n : Fin 4096) (e : Fin 16) :
    Cert.Spec.head q k v n e = headRow (q n) k v (v n e) e := rfl

/-! ## The two products' dimension records -/

theorem qk_lhs0 (j : S256x4096.Idx) (q : dot_S256x16_S4096x16_S256x4096_1_1_0_0_n_n.contr.Idx) :
    (dot_S256x16_S4096x16_S256x4096_1_1_0_0_n_n.lhsIdx j q 0).val = (j 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem qk_rhs0 (j : S256x4096.Idx) (q : dot_S256x16_S4096x16_S256x4096_1_1_0_0_n_n.contr.Idx) :
    (dot_S256x16_S4096x16_S256x4096_1_1_0_0_n_n.rhsIdx j q 0).val = (j 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
theorem pv_lhs0 (j : S256x16.Idx) (q : dot_S256x4096_S4096x16_S256x16_1_0_0_1_n_n.contr.Idx) :
    (dot_S256x4096_S4096x16_S256x16_1_0_0_1_n_n.lhsIdx j q 0).val = (j 0).val := by
  unfold DotDims.lhsIdx
  rw [dif_neg (show ¬(0 : Fin S256x4096.rank) ∈ dot_S256x4096_S4096x16_S256x16_1_0_0_1_n_n.lhsBatch by decide), dif_pos (show (0 : Fin S256x4096.rank) ∈ dot_S256x4096_S4096x16_S256x16_1_0_0_1_n_n.lhsNonContracting by decide)]
  rfl
theorem pv_rhs1 (j : S256x16.Idx) (q : dot_S256x4096_S4096x16_S256x16_1_0_0_1_n_n.contr.Idx) :
    (dot_S256x4096_S4096x16_S256x16_1_0_0_1_n_n.rhsIdx j q 1).val = (j 1).val := by
  unfold DotDims.rhsIdx
  rw [dif_neg (show ¬(1 : Fin S4096x16.rank) ∈ dot_S256x4096_S4096x16_S256x16_1_0_0_1_n_n.rhsBatch by decide), dif_pos (show (1 : Fin S4096x16.rank) ∈ dot_S256x4096_S4096x16_S256x16_1_0_0_1_n_n.rhsNonContracting by decide)]
  rfl

/-! ## The four 64-column slabs -/

/-- The tile's query slab at (p, c) is the tile at column c. -/
theorem pay4_apply (v0 : Vec Ideal S256x192 .f32) (p : Fin 256) (c : Fin 64) (d : Fin 192) (hd : d.val = c.val) :
    k1_pay4 (F := Ideal) v0 (ix2 p c) = v0 (ix2 p d) := by
  unfold k1_pay4 k1_pay2
  refine (colSlice_apply 0 _ slices_S256x192_o0_0_S256x64 p c d (by rw [hd, Nat.zero_add])).trans ?_
  exact congrFun (shapeCast_self v0 shapeCasts_S256x192_S256x192) (ix2 p d)

/-- The tile's value slab at (p, c) is the tile at column 128 + c. -/
theorem pay5_apply (v0 : Vec Ideal S256x192 .f32) (p : Fin 256) (c : Fin 64) (d : Fin 192) (hd : d.val = 128 + c.val) :
    k1_pay5 (F := Ideal) v0 (ix2 p c) = v0 (ix2 p d) := by
  unfold k1_pay5 k1_pay2
  refine (colSlice_apply 128 _ slices_S256x192_o0_128_S256x64 p c d hd).trans ?_
  exact congrFun (shapeCast_self v0 shapeCasts_S256x192_S256x192) (ix2 p d)

/-- The whole array's key slab at (m, c) is the array at column 64 + c. -/
theorem pay6_apply (v2 : Vec Ideal S4096x192 .f32) (m : Fin 4096) (c : Fin 64) (d : Fin 192) (hd : d.val = 64 + c.val) :
    k1_pay6 (F := Ideal) v2 (ix2 m c) = v2 (ix2 m d) := by
  unfold k1_pay6 k1_pay3
  refine (colSlice_apply 64 _ slices_S4096x192_o0_64_S4096x64 m c d hd).trans ?_
  exact congrFun (shapeCast_self v2 shapeCasts_S4096x192_S4096x192) (ix2 m d)

/-- The whole array's value slab at (m, c) is the array at column 128 + c. -/
theorem pay7_apply (v2 : Vec Ideal S4096x192 .f32) (m : Fin 4096) (c : Fin 64) (d : Fin 192) (hd : d.val = 128 + c.val) :
    k1_pay7 (F := Ideal) v2 (ix2 m c) = v2 (ix2 m d) := by
  unfold k1_pay7 k1_pay3
  refine (colSlice_apply 128 _ slices_S4096x192_o0_128_S4096x64 m c d hd).trans ?_
  exact congrFun (shapeCast_self v2 shapeCasts_S4096x192_S4096x192) (ix2 m d)

end Cert.KernelIdeal.Val

end
-- ==== Proof.KI.CHead.lean ====
/-
  One head of the attention region at an entry, for any of the four column offsets, and the four heads.

  With the query, key, value and residual operands the 16 columns from offset o of the four 64-column slabs, entry
  (p, e) of the head is the row form `headRow` of the tile's row p (columns o + ·), the whole array's key columns
  64 + o + · and value columns 128 + o + ·, and the tile's entry (p, 128 + o + e).
-/
import proofs.«150061_j20074677141639_2_alg».proof.Proof.KI.CSlab

noncomputable section

open scoped BigOperators

namespace Cert.KernelIdeal.Val

open Cert.KernelIdeal Cert.KernelIdeal.Gen Cert.KernelIdeal.Hand
open Idealize.ShloMosaic Idealize.ShloMosaic.ValueIdx

/-- The head over the 16 columns from offset `o` of the four slabs, at entry (p, e); `cq`, `ck`, `cv` name the
    columns `o + ·`, `64 + o + ·`, `128 + o + ·` of the 192. -/
theorem head_of_slices (o : ℕ) (v0 : Vec Ideal S256x192 .f32) (v2 : Vec Ideal S4096x192 .f32)
    (hsq : S256x64.Slices ![0, o] S256x16) (hsk : S4096x64.Slices ![0, o] S4096x16)
    (cq ck cv : Fin 16 → Fin 192) (hq : ∀ e', (cq e').val = o + e'.val) (hk : ∀ e', (ck e').val = 64 + (o + e'.val))
    (hv : ∀ e', (cv e').val = 128 + (o + e'.val)) (ho : o + 16 ≤ 64) (p : Fin 256) (e : Fin 16) :
    SoftmaxHead.headV dot_S256x16_S4096x16_S256x4096_1_1_0_0_n_n dot_S256x4096_S4096x16_S256x16_1_0_0_1_n_n none
        bitsLt_bf16_f32
        (extractStridedSlice S256x16 ![0, o] (k1_pay4 (F := Ideal) v0) hsq)
        (extractStridedSlice S4096x16 ![0, o] (k1_pay6 (F := Ideal) v2) hsk)
        (extractStridedSlice S4096x16 ![0, o] (k1_pay7 (F := Ideal) v2) hsk)
        (extractStridedSlice S256x16 ![0, o] (k1_pay5 (F := Ideal) v0) hsq)
        0x3E800000#32 0xFF800000#32 reduces_S256x4096_S256 (.inl rfl) rfl (.inl rfl) rfl
        shapeCasts_S256_S256x1 broadcasts_S256x1_S256x4096 (ix2 p e)
      = headRow (fun e' => v0 (ix2 p (cq e'))) (fun m e' => v2 (ix2 m (ck e'))) (fun m e' => v2 (ix2 m (cv e')))
          (v0 (ix2 p (cv e))) e := by
  refine (SoftmaxHead.head_apply dot_S256x16_S4096x16_S256x4096_1_1_0_0_n_n rfl rfl rfl rfl qk_lhs0 qk_rhs0
    dot_S256x4096_S4096x16_S256x16_1_0_0_1_n_n rfl rfl rfl rfl pv_lhs0 pv_rhs1 none bitsLt_bf16_f32 _ _ _ _ _ _ _ _ _ _ _ _ _ p e).trans ?_
  have eq : ∀ e' : Fin 16, extractStridedSlice S256x16 ![0, o] (k1_pay4 (F := Ideal) v0) hsq (ix2 p e') = v0 (ix2 p (cq e')) := fun e' =>
    (colSlice_apply o _ hsq p e' (⟨o + e'.val, by have := e'.isLt; omega⟩ : Fin 64) rfl).trans (pay4_apply v0 p _ (cq e') (hq e'))
  have ek : ∀ (m : Fin 4096) (e' : Fin 16), extractStridedSlice S4096x16 ![0, o] (k1_pay6 (F := Ideal) v2) hsk (ix2 m e') = v2 (ix2 m (ck e')) := fun m e' =>
    (colSlice_apply o _ hsk m e' (⟨o + e'.val, by have := e'.isLt; omega⟩ : Fin 64) rfl).trans (pay6_apply v2 m _ (ck e') (hk e'))
  have ev : ∀ (m : Fin 4096) (e' : Fin 16), extractStridedSlice S4096x16 ![0, o] (k1_pay7 (F := Ideal) v2) hsk (ix2 m e') = v2 (ix2 m (cv e')) := fun m e' =>
    (colSlice_apply o _ hsk m e' (⟨o + e'.val, by have := e'.isLt; omega⟩ : Fin 64) rfl).trans (pay7_apply v2 m _ (cv e') (hv e'))
  have er : extractStridedSlice S256x16 ![0, o] (k1_pay5 (F := Ideal) v0) hsq (ix2 p e) = v0 (ix2 p (cv e)) :=
    (colSlice_apply o _ hsq p e (⟨o + e.val, by have := e.isLt; omega⟩ : Fin 64) rfl).trans (pay5_apply v0 p _ (cv e) (hv e))
  have hscore : SoftmaxHead.score (extractStridedSlice S256x16 ![0, o] (k1_pay4 (F := Ideal) v0) hsq)
        (extractStridedSlice S4096x16 ![0, o] (k1_pay6 (F := Ideal) v2) hsk) (Ideal.ofBits .f32 0x3E800000#32) p
      = fun m' => (∑ e' : Fin 16, v0 (ix2 p (cq e')) * v2 (ix2 m' (ck e'))) * Cert.Spec.quarter :=
    funext fun m' => congrArg (· * Cert.Spec.quarter) (Finset.sum_congr rfl fun e' _ => congrArg₂ (· * ·) (eq e') (ek m' e'))
  exact congrArg₂ (· + ·) (Finset.sum_congr rfl fun m _ =>
    congrArg₂ (· * ·) (congrFun (congrArg (SoftmaxHead.weight Cert.Spec.negInf) hscore) m) (ev m e)) er

end Cert.KernelIdeal.Val

end
-- ==== Proof.KI.CFour.lean ====
/-
  The four heads' outputs of the attention region at an entry: head h is the head over the 16 columns from offset
  16 h of the four slabs, so its entry (p, e) is the row form of the tile's row p at the fused columns of head h.
-/
import proofs.«150061_j20074677141639_2_alg».proof.Proof.KI.CHead

noncomputable section

open scoped BigOperators

namespace Cert.KernelIdeal.Val

open Cert.KernelIdeal Cert.KernelIdeal.Gen Cert.KernelIdeal.Hand
open Idealize.ShloMosaic Idealize.ShloMosaic.ValueIdx

/-- Head 0 (columns 0 … 15 of each slab) at entry (p, e). -/
theorem pay1_h0_apply (v0 : Vec Ideal S256x192 .f32) (v2 : Vec Ideal S4096x192 .f32) (p : Fin 256) (e : Fin 16) :
    pay1_h0 (F := Ideal) v0 v2 (ix2 p e)
      = headRow (fun e' => v0 (ix2 p (Cert.Spec.col 0 0 e'))) (fun m e' => v2 (ix2 m (Cert.Spec.col 1 0 e')))
          (fun m e' => v2 (ix2 m (Cert.Spec.col 2 0 e'))) (v0 (ix2 p (Cert.Spec.col 2 0 e))) e :=
  head_of_slices 0 v0 v2 slices_S256x64_o0_0_S256x16 slices_S4096x64_o0_0_S4096x16
    (Cert.Spec.col 0 0) (Cert.Spec.col 1 0) (Cert.Spec.col 2 0)
    (fun e' => by rw [Cert.Spec.col_val]; show 64 * 0 + 16 * 0 + e'.val = 0 + e'.val; omega)
    (fun e' => by rw [Cert.Spec.col_val]; show 64 * 1 + 16 * 0 + e'.val = 64 + (0 + e'.val); omega)
    (fun e' => by rw [Cert.Spec.col_val]; show 64 * 2 + 16 * 0 + e'.val = 128 + (0 + e'.val); omega)
    (by omega) p e

/-- Head 1 (columns 16 … 31 of each slab) at entry (p, e). -/
theorem pay1_h1_apply (v0 : Vec Ideal S256x192 .f32) (v2 : Vec Ideal S4096x192 .f32) (p : Fin 256) (e : Fin 16) :
    pay1_h1 (F := Ideal) v0 v2 (ix2 p e)
      = headRow (fun e' => v0 (ix2 p (Cert.Spec.col 0 1 e'))) (fun m e' => v2 (ix2 m (Cert.Spec.col 1 1 e')))
          (fun m e' => v2 (ix2 m (Cert.Spec.col 2 1 e'))) (v0 (ix2 p (Cert.Spec.col 2 1 e))) e :=
  head_of_slices 16 v0 v2 slices_S256x64_o0_16_S256x16 slices_S4096x64_o0_16_S4096x16
    (Cert.Spec.col 0 1) (Cert.Spec.col 1 1) (Cert.Spec.col 2 1)
    (fun e' => by rw [Cert.Spec.col_val]; show 64 * 0 + 16 * 1 + e'.val = 16 + e'.val; omega)
    (fun e' => by rw [Cert.Spec.col_val]; show 64 * 1 + 16 * 1 + e'.val = 64 + (16 + e'.val); omega)
    (fun e' => by rw [Cert.Spec.col_val]; show 64 * 2 + 16 * 1 + e'.val = 128 + (16 + e'.val); omega)
    (by omega) p e

/-- Head 2 (columns 32 … 47 of each slab) at entry (p, e). -/
theorem pay1_h2_apply (v0 : Vec Ideal S256x192 .f32) (v2 : Vec Ideal S4096x192 .f32) (p : Fin 256) (e : Fin 16) :
    pay1_h2 (F := Ideal) v0 v2 (ix2 p e)
      = headRow (fun e' => v0 (ix2 p (Cert.Spec.col 0 2 e'))) (fun m e' => v2 (ix2 m (Cert.Spec.col 1 2 e')))
          (fun m e' => v2 (ix2 m (Cert.Spec.col 2 2 e'))) (v0 (ix2 p (Cert.Spec.col 2 2 e))) e :=
  head_of_slices 32 v0 v2 slices_S256x64_o0_32_S256x16 slices_S4096x64_o0_32_S4096x16
    (Cert.Spec.col 0 2) (Cert.Spec.col 1 2) (Cert.Spec.col 2 2)
    (fun e' => by rw [Cert.Spec.col_val]; show 64 * 0 + 16 * 2 + e'.val = 32 + e'.val; omega)
    (fun e' => by rw [Cert.Spec.col_val]; show 64 * 1 + 16 * 2 + e'.val = 64 + (32 + e'.val); omega)
    (fun e' => by rw [Cert.Spec.col_val]; show 64 * 2 + 16 * 2 + e'.val = 128 + (32 + e'.val); omega)
    (by omega) p e

/-- Head 3 (columns 48 … 63 of each slab) at entry (p, e). -/
theorem pay1_h3_apply (v0 : Vec Ideal S256x192 .f32) (v2 : Vec Ideal S4096x192 .f32) (p : Fin 256) (e : Fin 16) :
    pay1_h3 (F := Ideal) v0 v2 (ix2 p e)
      = headRow (fun e' => v0 (ix2 p (Cert.Spec.col 0 3 e'))) (fun m e' => v2 (ix2 m (Cert.Spec.col 1 3 e')))
          (fun m e' => v2 (ix2 m (Cert.Spec.col 2 3 e'))) (v0 (ix2 p (Cert.Spec.col 2 3 e))) e :=
  head_of_slices 48 v0 v2 slices_S256x64_o0_48_S256x16 slices_S4096x64_o0_48_S4096x16
    (Cert.Spec.col 0 3) (Cert.Spec.col 1 3) (Cert.Spec.col 2 3)
    (fun e' => by rw [Cert.Spec.col_val]; show 64 * 0 + 16 * 3 + e'.val = 48 + e'.val; omega)
    (fun e' => by rw [Cert.Spec.col_val]; show 64 * 1 + 16 * 3 + e'.val = 64 + (48 + e'.val); omega)
    (fun e' => by rw [Cert.Spec.col_val]; show 64 * 2 + 16 * 3 + e'.val = 128 + (48 + e'.val); omega)
    (by omega) p e

end Cert.KernelIdeal.Val

end
-- ==== Proof.KI.CBlock.lean ====
/-
  The [256, 64] block the attention body leaves in the output window, entry by entry.

  The body loads the tile and the whole array through whole-buffer rectangles (so it reads the two buffers as they
  are) and stores head h's [256, 16] output into columns 16 h … 16 h + 15; the four stores are disjoint column
  strips, so entry (p, 16 h + e) of the block is entry (p, e) of head h's output.
-/
import proofs.«150061_j20074677141639_2_alg».proof.Proof.KI.CFour
import Idealize.ShloMosaic.Lib.Pipeline.FrameBody

noncomputable section

open scoped BigOperators

namespace Cert.KernelIdeal.Val

open Cert.KernelIdeal Cert.KernelIdeal.Gen Cert.KernelIdeal.Hand
open Idealize.ShloMosaic Idealize.ShloMosaic.ValueIdx

theorem hz1 : (![0, 0] : Fin 2 → Nat) = fun _ => 0 := funext fun a => by fin_cases a <;> rfl

/-- The two loads read the two buffers as they are. -/
theorem ld_tile (x0 : Vec Ideal S256x192 .f32) : View.ld x0 r1_t = x0 := View.ld_unit_zero (S := S256x192) hz1 _ x0
theorem ld_full (x1 : Vec Ideal S4096x192 .f32) : View.ld x1 r1_f = x1 := View.ld_unit_zero (S := S4096x192) hz1 _ x1

/-- The block as the four strips of the heads' outputs of the two buffers. -/
theorem out1_2_eq (x0 : Vec Ideal S256x192 .f32) (x1 : Vec Ideal S4096x192 .f32) :
    out1_2 (F := Ideal) x0 x1 = View.canon [⟨r1_s48, pay1_h3 x0 x1⟩, ⟨r1_s32, pay1_h2 x0 x1⟩, ⟨r1_s16, pay1_h1 x0 x1⟩, ⟨r1_s0, pay1_h0 x0 x1⟩] := by
  unfold out1_2
  rw [ld_tile, ld_full]

/-- Local entry (p, e) of the strip at column offset `o` is entry (p, o + e) of the block. -/
theorem strip_emb (o : ℕ) (inb : ∀ a, (![0, o] : Fin 2 → Nat) a + S256x16.size a ≤ S256x64.size a)
    (p : Fin 256) (e : Fin 16) (d : Fin 64) (hd : d.val = o + e.val) :
    (Rect.unit (s := S256x64) ![0, o] S256x16.size inb).emb (ix2 p e) = ix2 p d :=
  funext fun a => Fin.ext (by
    match a with
    | ⟨0, _⟩ => show 0 + 1 * p.val = p.val; omega
    | ⟨1, _⟩ => show o + 1 * e.val = d.val; omega)

/-- Entry (p, d) is outside the strip at column offset `o` when `d` is outside `o … o + 15`. -/
theorem not_mem_strip (o : ℕ) (inb : ∀ a, (![0, o] : Fin 2 → Nat) a + S256x16.size a ≤ S256x64.size a)
    (p : Fin 256) (d : Fin 64) (hd : d.val < o ∨ o + 16 ≤ d.val) :
    ix2 p d ∉ (Rect.unit (s := S256x64) ![0, o] S256x16.size inb).set := by
  rw [Rect.mem_set_unit]
  intro h
  have h1 : o ≤ d.val ∧ d.val < o + 16 := h 1
  omega

/-- The block at entry (p, 0 + e): head 0's output at (p, e). -/
theorem out1_2_h0 (x0 : Vec Ideal S256x192 .f32) (x1 : Vec Ideal S4096x192 .f32) (p : Fin 256) (e : Fin 16) :
    out1_2 (F := Ideal) x0 x1 (ix2 p (Cert.Spec.col64 0 e))
      = headRow (fun e' => x0 (ix2 p (Cert.Spec.col 0 0 e'))) (fun m e' => x1 (ix2 m (Cert.Spec.col 1 0 e')))
          (fun m e' => x1 (ix2 m (Cert.Spec.col 2 0 e'))) (x0 (ix2 p (Cert.Spec.col 2 0 e))) e := by
  have hc : (Cert.Spec.col64 0 e).val = 16 * 0 + e.val := Cert.Spec.col64_val 0 e
  have he : e.val < 16 := e.isLt
  rw [out1_2_eq]
  refine (View.canon_cons_of_not_mem (⟨r1_s48, pay1_h3 x0 x1⟩ : View.Piece (Elt Ideal) S256x64 .f32) _ (not_mem_strip 48 inb_S256x64_S256x16_0_48 p _ (Or.inl (by omega)))).trans ?_
  refine (View.canon_cons_of_not_mem (⟨r1_s32, pay1_h2 x0 x1⟩ : View.Piece (Elt Ideal) S256x64 .f32) _ (not_mem_strip 32 inb_S256x64_S256x16_0_32 p _ (Or.inl (by omega)))).trans ?_
  refine (View.canon_cons_of_not_mem (⟨r1_s16, pay1_h1 x0 x1⟩ : View.Piece (Elt Ideal) S256x64 .f32) _ (not_mem_strip 16 inb_S256x64_S256x16_0_16 p _ (Or.inl (by omega)))).trans ?_
  refine (congrArg (View.canon ([⟨r1_s0, pay1_h0 x0 x1⟩] : List (View.Piece (Elt Ideal) S256x64 .f32)))
    (strip_emb 0 inb_S256x64_S256x16_0_0 p e (Cert.Spec.col64 0 e) (by omega)).symm).trans ?_
  refine (View.canon_cons_emb (Val := Elt Ideal) (e := .f32) r1_s0 (pay1_h0 x0 x1) _ (ix2 p e)).trans ?_
  exact pay1_h0_apply x0 x1 p e

/-- The block at entry (p, 16 + e): head 1's output at (p, e). -/
theorem out1_2_h1 (x0 : Vec Ideal S256x192 .f32) (x1 : Vec Ideal S4096x192 .f32) (p : Fin 256) (e : Fin 16) :
    out1_2 (F := Ideal) x0 x1 (ix2 p (Cert.Spec.col64 1 e))
      = headRow (fun e' => x0 (ix2 p (Cert.Spec.col 0 1 e'))) (fun m e' => x1 (ix2 m (Cert.Spec.col 1 1 e')))
          (fun m e' => x1 (ix2 m (Cert.Spec.col 2 1 e'))) (x0 (ix2 p (Cert.Spec.col 2 1 e))) e := by
  have hc : (Cert.Spec.col64 1 e).val = 16 * 1 + e.val := Cert.Spec.col64_val 1 e
  have he : e.val < 16 := e.isLt
  rw [out1_2_eq]
  refine (View.canon_cons_of_not_mem (⟨r1_s48, pay1_h3 x0 x1⟩ : View.Piece (Elt Ideal) S256x64 .f32) _ (not_mem_strip 48 inb_S256x64_S256x16_0_48 p _ (Or.inl (by omega)))).trans ?_
  refine (View.canon_cons_of_not_mem (⟨r1_s32, pay1_h2 x0 x1⟩ : View.Piece (Elt Ideal) S256x64 .f32) _ (not_mem_strip 32 inb_S256x64_S256x16_0_32 p _ (Or.inl (by omega)))).trans ?_
  refine (congrArg (View.canon ([⟨r1_s16, pay1_h1 x0 x1⟩, ⟨r1_s0, pay1_h0 x0 x1⟩] : List (View.Piece (Elt Ideal) S256x64 .f32)))
    (strip_emb 16 inb_S256x64_S256x16_0_16 p e (Cert.Spec.col64 1 e) (by omega)).symm).trans ?_
  refine (View.canon_cons_emb (Val := Elt Ideal) (e := .f32) r1_s16 (pay1_h1 x0 x1) _ (ix2 p e)).trans ?_
  exact pay1_h1_apply x0 x1 p e

/-- The block at entry (p, 32 + e): head 2's output at (p, e). -/
theorem out1_2_h2 (x0 : Vec Ideal S256x192 .f32) (x1 : Vec Ideal S4096x192 .f32) (p : Fin 256) (e : Fin 16) :
    out1_2 (F := Ideal) x0 x1 (ix2 p (Cert.Spec.col64 2 e))
      = headRow (fun e' => x0 (ix2 p (Cert.Spec.col 0 2 e'))) (fun m e' => x1 (ix2 m (Cert.Spec.col 1 2 e')))
          (fun m e' => x1 (ix2 m (Cert.Spec.col 2 2 e'))) (x0 (ix2 p (Cert.Spec.col 2 2 e))) e := by
  have hc : (Cert.Spec.col64 2 e).val = 16 * 2 + e.val := Cert.Spec.col64_val 2 e
  have he : e.val < 16 := e.isLt
  rw [out1_2_eq]
  refine (View.canon_cons_of_not_mem (⟨r1_s48, pay1_h3 x0 x1⟩ : View.Piece (Elt Ideal) S256x64 .f32) _ (not_mem_strip 48 inb_S256x64_S256x16_0_48 p _ (Or.inl (by omega)))).trans ?_
  refine (congrArg (View.canon ([⟨r1_s32, pay1_h2 x0 x1⟩, ⟨r1_s16, pay1_h1 x0 x1⟩, ⟨r1_s0, pay1_h0 x0 x1⟩] : List (View.Piece (Elt Ideal) S256x64 .f32)))
    (strip_emb 32 inb_S256x64_S256x16_0_32 p e (Cert.Spec.col64 2 e) (by omega)).symm).trans ?_
  refine (View.canon_cons_emb (Val := Elt Ideal) (e := .f32) r1_s32 (pay1_h2 x0 x1) _ (ix2 p e)).trans ?_
  exact pay1_h2_apply x0 x1 p e

/-- The block at entry (p, 48 + e): head 3's output at (p, e). -/
theorem out1_2_h3 (x0 : Vec Ideal S256x192 .f32) (x1 : Vec Ideal S4096x192 .f32) (p : Fin 256) (e : Fin 16) :
    out1_2 (F := Ideal) x0 x1 (ix2 p (Cert.Spec.col64 3 e))
      = headRow (fun e' => x0 (ix2 p (Cert.Spec.col 0 3 e'))) (fun m e' => x1 (ix2 m (Cert.Spec.col 1 3 e')))
          (fun m e' => x1 (ix2 m (Cert.Spec.col 2 3 e'))) (x0 (ix2 p (Cert.Spec.col 2 3 e))) e := by
  have hc : (Cert.Spec.col64 3 e).val = 16 * 3 + e.val := Cert.Spec.col64_val 3 e
  have he : e.val < 16 := e.isLt
  rw [out1_2_eq]
  refine (congrArg (View.canon ([⟨r1_s48, pay1_h3 x0 x1⟩, ⟨r1_s32, pay1_h2 x0 x1⟩, ⟨r1_s16, pay1_h1 x0 x1⟩, ⟨r1_s0, pay1_h0 x0 x1⟩] : List (View.Piece (Elt Ideal) S256x64 .f32)))
    (strip_emb 48 inb_S256x64_S256x16_0_48 p e (Cert.Spec.col64 3 e) (by omega)).symm).trans ?_
  refine (View.canon_cons_emb (Val := Elt Ideal) (e := .f32) r1_s48 (pay1_h3 x0 x1) _ (ix2 p e)).trans ?_
  exact pay1_h3_apply x0 x1 p e

/-- The block at entry (p, 16 h + e): head h's output at (p, e), as the row form of the tile's row p. -/
theorem out1_2_apply (x0 : Vec Ideal S256x192 .f32) (x1 : Vec Ideal S4096x192 .f32) (p : Fin 256) (h : Fin 4) (e : Fin 16) :
    out1_2 (F := Ideal) x0 x1 (ix2 p (Cert.Spec.col64 h e))
      = headRow (fun e' => x0 (ix2 p (Cert.Spec.col 0 h e'))) (fun m e' => x1 (ix2 m (Cert.Spec.col 1 h e')))
          (fun m e' => x1 (ix2 m (Cert.Spec.col 2 h e'))) (x0 (ix2 p (Cert.Spec.col 2 h e))) e := by
  match h with
  | ⟨0, _⟩ => exact out1_2_h0 x0 x1 p e
  | ⟨1, _⟩ => exact out1_2_h1 x0 x1 p e
  | ⟨2, _⟩ => exact out1_2_h2 x0 x1 p e
  | ⟨3, _⟩ => exact out1_2_h3 x0 x1 p e

end Cert.KernelIdeal.Val

end
-- ==== Proof.KI.CRead.lean ====
/-
  The value of the attention region: the array of the heads' outputs, entry by entry on the extended reals.

  At grid point t the tile is rows 256 t … 256 t + 255 of the fused projection and the second window the whole of it,
  so the block the body leaves is rows 256 t … of the array whose entry (n, 16 h + e) is head h's output at token n,
  feature e, read off the fused projection. The sixteen blocks tile the [4096, 64] array (row n lies in the block of
  point n / 256), so the array ends holding exactly that.
-/
import proofs.«150061_j20074677141639_2_alg».proof.Proof.KI.R1
import proofs.«150061_j20074677141639_2_alg».proof.Proof.Spec
import proofs.«150061_j20074677141639_2_alg».proof.Proof.KI.CBlock
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The array of the heads' outputs read off a fused projection `a`: entry (n, c) is the output of head `c / 16`
    at token `n`, feature `c % 16`. -/
def attnArr (a : Cert.Spec.Arr2 4096 192) : S4096x64.Idx → EReal := fun j =>
  Cert.Spec.attn a ⟨(j 0).val, idx2_lt0 j⟩ ⟨(j 1).val / 16, by have := idx2_lt1 j; omega⟩
    ⟨(j 1).val % 16, Nat.mod_lt _ (by omega)⟩

/-- At the index of token `n`, head `h`, feature `e`. -/
theorem attnArr_apply (a : Cert.Spec.Arr2 4096 192) (j : S4096x64.Idx) (n : Fin 4096) (h : Fin 4) (e : Fin 16)
    (h0 : (j 0).val = n.val) (h1 : (j 1).val = 16 * h.val + e.val) : attnArr a j = Cert.Spec.attn a n h e := by
  have he := e.isLt
  have e0 : (⟨(j 0).val, idx2_lt0 j⟩ : Fin 4096) = n := Fin.ext h0
  have e1 : (⟨(j 1).val / 16, by have := idx2_lt1 j; omega⟩ : Fin 4) = h := Fin.ext (by show (j 1).val / 16 = h.val; omega)
  have e2 : (⟨(j 1).val % 16, Nat.mod_lt _ (by omega)⟩ : Fin 16) = e := Fin.ext (by show (j 1).val % 16 = e.val; omega)
  unfold attnArr
  rw [e0, e1, e2]

/-- The windows' block indices at every grid point: the tile and the output block move with the point, the whole
    array stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The tile at point `t` is rows `256 t …` of the fused projection. -/
theorem iblk1_0_apply (c : Dev nD) (t : Fin cfg1.N) (x : S256x192.Idx) (k : S4096x192.Idx)
    (hk0 : (k 0).val = 256 * t.val + (x 0).val) (hk1 : (k 1).val = (x 1).val) :
    (iblk1 (F := Ideal) V c 0 t : Vec Ideal S256x192 .f32) x = (V c main_v10 : S4096x192.Idx → EReal) k := by
  obtain ⟨e0, e1, -⟩ := idx_facts1 t
  unfold iblk1
  rw [View.read_apply]
  show V c main_v10 _ = V c main_v10 _
  congr 1
  funext a
  apply Fin.ext
  match a with
  | ⟨0, _⟩ => show win1_0.index t 0 * 256 + 1 * (x 0).val = (k 0).val; rw [e0, hk0]; omega
  | ⟨1, _⟩ => show win1_0.index t 1 * 192 + 1 * (x 1).val = (k 1).val; rw [e1, hk1]; omega

/-- The second window's block at every point is the whole fused projection. -/
theorem iblk1_1_apply (c : Dev nD) (t : Fin cfg1.N) (x : S4096x192.Idx) :
    (iblk1 (F := Ideal) V c 1 t : Vec Ideal S4096x192 .f32) x = (V c main_v10 : S4096x192.Idx → EReal) x := by
  obtain ⟨-, -, e0, e1, -⟩ := idx_facts1 t
  unfold iblk1
  rw [View.read_apply]
  show V c main_v10 _ = V c main_v10 _
  congr 1
  funext a
  apply Fin.ext
  match a with
  | ⟨0, _⟩ => show win1_1.index t 0 * 4096 + 1 * (x 0).val = (x 0).val; rw [e0]; omega
  | ⟨1, _⟩ => show win1_1.index t 1 * 192 + 1 * (x 1).val = (x 1).val; rw [e1]; omega

/-- The block the body leaves from a tile `x0` that is rows `256 t …` of `a` and a second block `x1` that is
    `a`: rows `256 t …` of the heads' outputs read off `a`. -/
theorem block_eq (a : Cert.Spec.Arr2 4096 192) (x0 : Vec Ideal S256x192 .f32) (x1 : Vec Ideal S4096x192 .f32) (t : ℕ)
    (h0 : ∀ (p : Fin 256) (d : Fin 192) (n : Fin 4096), n.val = 256 * t + p.val → x0 (ix2 p d) = a (ix2 n d))
    (h1 : ∀ (m : Fin 4096) (d : Fin 192), x1 (ix2 m d) = a (ix2 m d))
    (y : S256x64.Idx) (i : S4096x64.Idx) (hi0 : (i 0).val = 256 * t + (y 0).val) (hi1 : (i 1).val = (y 1).val) :
    out1_2 (F := Ideal) x0 x1 y = attnArr a i := by
  obtain ⟨p, d, rfl⟩ : ∃ (p : Fin 256) (d : Fin 64), y = ix2 p d := ⟨y 0, y 1, eq_ix2 y⟩
  obtain ⟨h, e, rfl⟩ := Cert.Spec.exists_col64 d
  have hn : (i 0).val < 4096 := idx2_lt0 i
  rw [out1_2_apply, attnArr_apply a i ⟨(i 0).val, hn⟩ h e rfl (hi1.trans (Cert.Spec.col64_val h e))]
  unfold Cert.Spec.attn
  rw [head_eq_headRow]
  have hq : ∀ d', x0 (ix2 p d') = a (ix2 (⟨(i 0).val, hn⟩ : Fin 4096) d') := fun d' => h0 p d' _ hi0
  simp only [hq, h1]

end Cert.KernelIdeal.Val

end
-- ==== Proof.KI.Val1.lean ====
/-
  The value of the attention region: after the sixteen points, the output array holds at entry (n, 16 h + e) head h's
  output at token n, feature e, read off the fused projection as the region found it.

  What point t writes back is the block the body left, rows 256 t … 256 t + 255 of that array; row n lies in the block
  of point n / 256, so the blocks cover the array.
-/
import proofs.«150061_j20074677141639_2_alg».proof.Proof.KI.R1
import proofs.«150061_j20074677141639_2_alg».proof.Proof.Spec
import proofs.«150061_j20074677141639_2_alg».proof.Proof.KI.CRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- What point `t` writes back is block `t` of the heads' outputs read off the fused projection. -/
theorem flushed1_2 (c : Dev nD) (t : Fin cfg1.N) :
    (dat1 (F := Ideal) V c).flushed 2 t = ((cfg1.win 2).blk t).view.read (Elt Ideal) (attnArr (V c main_v10)) := by
  show (cfg1.win 2).cut (grid1.coords t) ((dat1 (F := Ideal) V c).after 2 t) = _
  rw [after1_2]
  obtain ⟨-, -, -, -, e0, e1⟩ := idx_facts1 t
  funext j
  show out1_2 (F := Ideal) (iblk1 V c 0 t) (iblk1 V c 1 t) j = attnArr (V c main_v10) (((cfg1.win 2).blk t).view.emb j)
  refine block_eq (V c main_v10) (iblk1 V c 0 t) (iblk1 V c 1 t) t.val ?_ ?_ j (((cfg1.win 2).blk t).view.emb j) ?_ ?_
  · intro p d n hn
    exact iblk1_0_apply V c t (ix2 p d) (ix2 n d) hn rfl
  · intro m d
    exact iblk1_1_apply V c t (ix2 m d)
  · show win1_2.index t (0 : Fin 2) * 256 + 1 * (j 0).val = 256 * t.val + (j 0).val
    rw [e0]; omega
  · show win1_2.index t (1 : Fin 2) * 64 + 1 * (j 1).val = (j 1).val
    rw [e1]; omega

/-- An index of the array is in point `t`'s block iff each coordinate is in the block's range on its axis. -/
theorem mem_blk1_2 (t : Fin cfg1.N) (i : S4096x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v11).slice (win1_2.rect t)).set ↔ _
  rw [View.set_slice_whole, Rect.mem_set_unit]
  exact Iff.rfl

/-- Row `n` of the array lies in the block of point `n / 256`. -/
theorem covered1_2 (i : S4096x64.Idx) :
    ∃ t : Fin cfg1.N, (cfg1.win 2).flush t = true ∧ i ∈ ((cfg1.win 2).blk t).view.set := by
  have hN : grid1.N = 16 := N_1
  have hi0 : (i 0).val < 4096 := idx2_lt0 i
  have hi1 : (i 1).val < 64 := idx2_lt1 i
  have hlt : (i 0).val / 256 < grid1.N := by rw [hN]; omega
  obtain ⟨-, -, -, -, e0, e1⟩ := idx_facts1 ⟨(i 0).val / 256, hlt⟩
  refine ⟨⟨(i 0).val / 256, hlt⟩, flush1_2 _, ?_⟩
  rw [mem_blk1_2]
  intro a
  match a with
  | ⟨0, _⟩ =>
    show win1_2.index ⟨(i 0).val / 256, hlt⟩ (0 : Fin 2) * 256 ≤ (i 0).val ∧ (i 0).val < win1_2.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win1_2.index ⟨(i 0).val / 256, hlt⟩ (1 : Fin 2) * 64 ≤ (i 1).val ∧ (i 1).val < win1_2.index ⟨(i 0).val / 256, hlt⟩ (1 : Fin 2) * 64 + 64
    rw [e1]; omega

/-- The output array after the region: the heads' outputs read off the fused projection. -/
theorem arrAt1_2 (c : Dev nD) : (dat1 (F := Ideal) V c).arrAt 2 cfg1.N = attnArr (V c main_v10) :=
  (dat1 (F := Ideal) V c).arrAt_eq_of_cover 2 (attnArr (V c main_v10)) (fun t _ => flushed1_2 V c t) covered1_2

/-- Entry (n, 16 h + e) of the output array after the region is head `h`'s output at token `n`, feature `e`. -/
theorem arr1 (c : Dev nD) (n : Fin 4096) (h : Fin 4) (e : Fin 16) :
    ((dat1 (F := Ideal) V c).arrAt 2 cfg1.N) (ValueIdx.ix2 n (Cert.Spec.col64 h e)) = Cert.Spec.attn (V c main_v10) n h e :=
  (congrFun (arrAt1_2 V c) (ix2 n (Cert.Spec.col64 h e))).trans
    (attnArr_apply (V c main_v10) (ix2 n (Cert.Spec.col64 h e)) n h e rfl (Cert.Spec.col64_val h e))

end Cert.KernelIdeal.Val

end
-- ==== Proof.LibJoinRows.lean ====
/-
  Matrices stacked along their rows, and vectors joined end to end, read at an entry.

  When three matrices with the same number of columns are stacked one above the other, the entry (q, e) of the result
  is the entry of the piece whose row range holds q: for heights w1, w2, w3 the first piece at row q when q < w1, the
  second at q − w1 when w1 ≤ q < w1 + w2, the third at q − w1 − w2 beyond. Three vectors joined end to end are read
  the same way. The result's extent is kept as a number W of its own, so that a printed shape whose extent is written
  as one literal is met directly.
-/
import Idealize.ShloMosaic.Lib.ValueIdx
import Idealize.ShloMosaic.Lib.Pipeline.Value

noncomputable section

namespace Idealize.ShloMosaic.JoinRows

open Idealize.ShloMosaic Idealize.ShloMosaic.ValueIdx

variable {α : Type}

/-- Three matrices stacked, at a row of the first. -/
theorem triple_top {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w1) (e : Fin n) (q : Fin W) (hq : q.val = a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = A (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 0 (by simp) _ A rfl rfl 0 rfl (ix2 a e)
    (fun b hb => match b with | ⟨0, _⟩ => absurd rfl hb | ⟨1, _⟩ => rfl)
    (by show 0 + a.val = q.val; omega)

/-- Three matrices stacked, at a row of the second. -/
theorem triple_mid {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w2) (e : Fin n) (q : Fin W) (hq : q.val = w1 + a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = B (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 1 (by simp) _ B rfl rfl w1 (by simp) (ix2 a e)
    (fun b hb => match b with | ⟨0, _⟩ => absurd rfl hb | ⟨1, _⟩ => rfl)
    (by show w1 + a.val = q.val; omega)

/-- Three matrices stacked, at a row of the third. -/
theorem triple_bottom {n w1 w2 w3 W : ℕ} (A : (⟨2, ![w1, n]⟩ : Shape).Idx → α) (B : (⟨2, ![w2, n]⟩ : Shape).Idx → α)
    (C : (⟨2, ![w3, n]⟩ : Shape).Idx → α)
    (h : Shape.Concatenates [(⟨2, ![w1, n]⟩ : Shape), (⟨2, ![w2, n]⟩ : Shape), (⟨2, ![w3, n]⟩ : Shape)] (⟨2, ![W, n]⟩ : Shape) 0)
    (a : Fin w3) (e : Fin n) (q : Fin W) (hq : q.val = w1 + w2 + a.val) :
    concatenate (⟨2, ![W, n]⟩ : Shape) 0
      [⟨(⟨2, ![w1, n]⟩ : Shape), A⟩, ⟨(⟨2, ![w2, n]⟩ : Shape), B⟩, ⟨(⟨2, ![w3, n]⟩ : Shape), C⟩] h (ix2 q e) = C (ix2 a e) :=
  concatenate_apply_piece 0 [⟨(⟨2, ![w1, n]⟩ : Shape), A⟩, ⟨(⟨2, ![w2, n]⟩ : Shape), B⟩, ⟨(⟨2, ![w3, n]⟩ : Shape), C⟩] h (ix2 q e) 2 (by simp) _ C rfl rfl (w1 + w2) (by simp) (ix2 a e)
    (fun b hb => match b with | ⟨0, _⟩ => absurd rfl hb | ⟨1, _⟩ => rfl)
    (by show w1 + w2 + a.val = q.val; omega)

/-- Three vectors joined, at a position of the first. -/
theorem vec_first {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w1) (q : Fin W) (hq : q.val = a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = A (ix1 a) :=
  concatenate_apply_piece 0 [⟨(⟨1, ![w1]⟩ : Shape), A⟩, ⟨(⟨1, ![w2]⟩ : Shape), B⟩, ⟨(⟨1, ![w3]⟩ : Shape), C⟩] h (ix1 q) 0 (by simp) _ A rfl rfl 0 rfl (ix1 a)
    (fun b hb => match b with | ⟨0, _⟩ => absurd rfl hb)
    (by show 0 + a.val = q.val; omega)

/-- Three vectors joined, at a position of the second. -/
theorem vec_second {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w2) (q : Fin W) (hq : q.val = w1 + a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = B (ix1 a) :=
  concatenate_apply_piece 0 [⟨(⟨1, ![w1]⟩ : Shape), A⟩, ⟨(⟨1, ![w2]⟩ : Shape), B⟩, ⟨(⟨1, ![w3]⟩ : Shape), C⟩] h (ix1 q) 1 (by simp) _ B rfl rfl w1 (by simp) (ix1 a)
    (fun b hb => match b with | ⟨0, _⟩ => absurd rfl hb)
    (by show w1 + a.val = q.val; omega)

/-- Three vectors joined, at a position of the third. -/
theorem vec_third {w1 w2 w3 W : ℕ} (A : (⟨1, ![w1]⟩ : Shape).Idx → α) (B : (⟨1, ![w2]⟩ : Shape).Idx → α)
    (C : (⟨1, ![w3]⟩ : Shape).Idx → α)
    (h : Shape.Concatenates [(⟨1, ![w1]⟩ : Shape), (⟨1, ![w2]⟩ : Shape), (⟨1, ![w3]⟩ : Shape)] (⟨1, ![W]⟩ : Shape) 0)
    (a : Fin w3) (q : Fin W) (hq : q.val = w1 + w2 + a.val) :
    concatenate (⟨1, ![W]⟩ : Shape) 0
      [⟨(⟨1, ![w1]⟩ : Shape), A⟩, ⟨(⟨1, ![w2]⟩ : Shape), B⟩, ⟨(⟨1, ![w3]⟩ : Shape), C⟩] h (ix1 q) = C (ix1 a) :=
  concatenate_apply_piece 0 [⟨(⟨1, ![w1]⟩ : Shape), A⟩, ⟨(⟨1, ![w2]⟩ : Shape), B⟩, ⟨(⟨1, ![w3]⟩ : Shape), C⟩] h (ix1 q) 2 (by simp) _ C rfl rfl (w1 + w2) (by simp) (ix1 a)
    (fun b hb => match b with | ⟨0, _⟩ => absurd rfl hb)
    (by show w1 + w2 + a.val = q.val; omega)

end Idealize.ShloMosaic.JoinRows

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.LibNary3.lean ====
/-
  A host operation with three operands, read at its own result buffer.

  The builder of an operation over a family of operand references leaves, at its result buffer, its function applied
  to the family of the operands' contents, `fun k => F ↑(xs k)`. Over a literal family of three references the same
  value is stated here with each operand's contents at its own reference, so that the operands' contents can be
  rewritten further: under the binder the reference `![a, b, c] k` is no literal. (The library states the same for a
  literal family of four.)
-/
import Idealize.ShloMosaic.Lib.StableHlo.Run

noncomputable section

namespace Idealize.ShloMosaic.StableHlo

variable {nD : Nat} {τ : Topo} {sig : RefSig} {Val : EltTy → Type}
variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibFlatten.lean ====
/-
  A row-major matrix laid out as one vector, read at a position: `[a, g] → [n]` with `n = a * g` reads, at position
  `k = o * g + u`, the matrix entry `(o, u)`.
-/
import Idealize.ShloMosaic.Lib.Pipeline.Value
import Idealize.ShloMosaic.Lib.ValueIdx

namespace Idealize.ShloMosaic.Flatten

open Idealize.ShloMosaic Idealize.ShloMosaic.ValueIdx

variable {α : Type}

/-- A matrix flattened: `[a, g] → [n]` reads, at `k` with `k = o * g + u`, the operand at `(o, u)`. -/
theorem shapeCast_flatten_apply {a g n : ℕ} (x : (⟨2, ![a, g]⟩ : Shape).Idx → α)
    (h : (⟨2, ![a, g]⟩ : Shape).ShapeCasts ⟨1, ![n]⟩) (k : Fin n) (o : Fin a) (u : Fin g)
    (hk : k.val = o.val * g + u.val) :
    shapeCast ⟨1, ![n]⟩ x h (ix1 k) = x (ix2 o u) :=
  shapeCast_apply x h _ _ (by
    rw [Shape.rowMajor_val_two, Shape.rowMajor_val_one]
    show o.val * g + u.val = k.val
    exact hk.symm)

end Idealize.ShloMosaic.Flatten
-- ==== Proof.KI.HostVal.lean ====
/-
  The arrays the host operations prepare for the three regions, read entry by entry.

  Before the first region the program regroups each of the three weight tensors [4, 16, 640] to 64 rows (row 16 h + e),
  stacks them to 192 rows — query, key, value — and transposes: entry (d, 64 s + 16 h + e) of the result is part s's
  weight at (h, e, d). It flattens each of the three bias matrices [4, 16] to 64 entries, joins them to 192 and adds a
  leading unit axis: entry (0, 64 s + 16 h + e) is part s's bias at (h, e). Before the third region it gives the bias
  vector of the token mix a trailing unit axis: entry (r, 0) is the vector's entry r; nothing before that writes the
  vector, so it still holds its launch contents.

  Each array is first identified with the operations' term over the launch contents, then the term is read at an
  index over variable operands: a transpose, a stack along the rows (or a join of vectors) at the piece that holds the
  row, and a regrouping of a row-major array.
-/
import proofs.«150061_j20074677141639_2_alg».proof.Proof.KI.Run
import proofs.«150061_j20074677141639_2_alg».proof.Proof.Spec
import proofs.«150061_j20074677141639_2_alg».proof.Proof.LibJoinRows
import proofs.«150061_j20074677141639_2_alg».proof.Proof.LibRegroup
import proofs.«150061_j20074677141639_2_alg».proof.Proof.LibColumn
import proofs.«150061_j20074677141639_2_alg».proof.Proof.LibNary3
import proofs.«150061_j20074677141639_2_alg».proof.Proof.LibFlatten
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem Idealize.ShloMosaic.StableHlo

/-! ## The arrays as the operations' terms -/

section Terms

variable (m : (ℓ : Loc nD τ sig) → Buf (Elt Ideal) ℓ) (ρ : Dev nD → PrngReg) (c : Dev nD)

/-- The stacked, transposed weights: the three weight tensors, each regrouped to 64 rows, stacked to 192 rows and
    transposed. -/
theorem wT_term :
    (V1 m ρ c main_v4 : S640x192.Idx → EReal)
      = transpose S640x192 [1, 0]
          (concatenate S192x640 0
            [⟨S64x640, shapeCast S64x640 (m ((c : Thread nD τ).loc main_arg1) : S4x16x640.Idx → EReal) shapeCasts_S4x16x640_S64x640⟩,
             ⟨S64x640, shapeCast S64x640 (m ((c : Thread nD τ).loc main_arg3) : S4x16x640.Idx → EReal) shapeCasts_S4x16x640_S64x640⟩,
             ⟨S64x640, shapeCast S64x640 (m ((c : Thread nD τ).loc main_arg5) : S4x16x640.Idx → EReal) shapeCasts_S4x16x640_S64x640⟩]
            concatenates_S64x640_S64x640_S64x640_S192x640_d0)
          transposes_S192x640_S640x192_1_0 := by
  show StableHlo.after hostOps0 (W0 m ρ c) (Proc.devRef .tc main_v4) = _
  simp only [after_cons, after_nil]
  repeat (first
    | rw [nary3_result] | rw [unary_result] | rw [reshape_result]
    | (rw [unary_result_ne]; rotate_left; decide)
    | (rw [reshape_result_ne]; rotate_left; decide)
    | (rw [nary_result_ne]; rotate_left; decide))
  rfl

/-- The bias row: the three bias matrices, each flattened to 64 entries, joined to 192 and given a leading unit axis. -/
theorem bRow_term :
    (V1 m ρ c main_v9 : S1x192.Idx → EReal)
      = shapeCast S1x192
          (concatenate S192 0
            [⟨S64, shapeCast S64 (m ((c : Thread nD τ).loc main_arg2) : S4x16.Idx → EReal) shapeCasts_S4x16_S64⟩,
             ⟨S64, shapeCast S64 (m ((c : Thread nD τ).loc main_arg4) : S4x16.Idx → EReal) shapeCasts_S4x16_S64⟩,
             ⟨S64, shapeCast S64 (m ((c : Thread nD τ).loc main_arg6) : S4x16.Idx → EReal) shapeCasts_S4x16_S64⟩]
            concatenates_S64_S64_S64_S192_d0)
          shapeCasts_S192_S1x192 := by
  show StableHlo.after hostOps0 (W0 m ρ c) (Proc.devRef .tc main_v9) = _
  simp only [after_cons, after_nil]
  repeat (first
    | rw [nary3_result] | rw [unary_result] | rw [reshape_result]
    | (rw [unary_result_ne]; rotate_left; decide)
    | (rw [reshape_result_ne]; rotate_left; decide)
    | (rw [nary_result_ne]; rotate_left; decide))
  rfl

/-- The bias column of the token mix: the bias vector given a trailing unit axis. No earlier item writes the vector. -/
theorem bCol_term :
    (V4 m ρ c main_v12 : S2048x1.Idx → EReal)
      = shapeCast S2048x1 (m ((c : Thread nD τ).loc main_arg8) : S2048.Idx → EReal) shapeCasts_S2048_S2048x1 := by
  show StableHlo.after hostOps2 (W3 m ρ c) (Proc.devRef .tc main_v12) = _
  after_results
  rw [W3_of_ne m ρ c main_arg8 (by decide), W2_of_ne m ρ c main_arg8 (by decide), W1_of m ρ c main_arg8 (by decide)]
  rfl

end Terms

/-! ## The terms read at an index, over variable operands -/

section Reads

/-- Stacked, transposed weights at row d and the query column of head h, feature e: the query tensor at (h, e, d). -/
theorem stackT_q (A B C : S4x16x640.Idx → EReal) (d : Fin 640) (h : Fin 4) (e : Fin 16) :
    transpose S640x192 [1, 0]
        (concatenate S192x640 0
          [⟨S64x640, shapeCast S64x640 A shapeCasts_S4x16x640_S64x640⟩, ⟨S64x640, shapeCast S64x640 B shapeCasts_S4x16x640_S64x640⟩,
           ⟨S64x640, shapeCast S64x640 C shapeCasts_S4x16x640_S64x640⟩]
          concatenates_S64x640_S64x640_S64x640_S192x640_d0)
        transposes_S192x640_S640x192_1_0 (ix2 d (Cert.Spec.col 0 h e)) = A (ix3 h e d) :=
  (transpose_ix2_apply _ transposes_S192x640_S640x192_1_0 d (Cert.Spec.col 0 h e)).trans <|
    (JoinRows.triple_top _ _ _ concatenates_S64x640_S64x640_S64x640_S192x640_d0 (Cert.Spec.col64 h e) d (Cert.Spec.col 0 h e)
      (by show 64 * 0 + 16 * h.val + e.val = 16 * h.val + e.val; omega)).trans <|
    Regroup.shapeCast_mergeFirst_apply A shapeCasts_S4x16x640_S64x640 (Cert.Spec.col64 h e) d h e
      (by show 16 * h.val + e.val = h.val * 16 + e.val; omega)

/-- Stacked, transposed weights at row d and the key column of head h, feature e: the key tensor at (h, e, d). -/
theorem stackT_k (A B C : S4x16x640.Idx → EReal) (d : Fin 640) (h : Fin 4) (e : Fin 16) :
    transpose S640x192 [1, 0]
        (concatenate S192x640 0
          [⟨S64x640, shapeCast S64x640 A shapeCasts_S4x16x640_S64x640⟩, ⟨S64x640, shapeCast S64x640 B shapeCasts_S4x16x640_S64x640⟩,
           ⟨S64x640, shapeCast S64x640 C shapeCasts_S4x16x640_S64x640⟩]
          concatenates_S64x640_S64x640_S64x640_S192x640_d0)
        transposes_S192x640_S640x192_1_0 (ix2 d (Cert.Spec.col 1 h e)) = B (ix3 h e d) :=
  (transpose_ix2_apply _ transposes_S192x640_S640x192_1_0 d (Cert.Spec.col 1 h e)).trans <|
    (JoinRows.triple_mid _ _ _ concatenates_S64x640_S64x640_S64x640_S192x640_d0 (Cert.Spec.col64 h e) d (Cert.Spec.col 1 h e)
      (by show 64 * 1 + 16 * h.val + e.val = 64 + (16 * h.val + e.val); omega)).trans <|
    Regroup.shapeCast_mergeFirst_apply B shapeCasts_S4x16x640_S64x640 (Cert.Spec.col64 h e) d h e
      (by show 16 * h.val + e.val = h.val * 16 + e.val; omega)

/-- Stacked, transposed weights at row d and the value column of head h, feature e: the value tensor at (h, e, d). -/
theorem stackT_v (A B C : S4x16x640.Idx → EReal) (d : Fin 640) (h : Fin 4) (e : Fin 16) :
    transpose S640x192 [1, 0]
        (concatenate S192x640 0
          [⟨S64x640, shapeCast S64x640 A shapeCasts_S4x16x640_S64x640⟩, ⟨S64x640, shapeCast S64x640 B shapeCasts_S4x16x640_S64x640⟩,
           ⟨S64x640, shapeCast S64x640 C shapeCasts_S4x16x640_S64x640⟩]
          concatenates_S64x640_S64x640_S64x640_S192x640_d0)
        transposes_S192x640_S640x192_1_0 (ix2 d (Cert.Spec.col 2 h e)) = C (ix3 h e d) :=
  (transpose_ix2_apply _ transposes_S192x640_S640x192_1_0 d (Cert.Spec.col 2 h e)).trans <|
    (JoinRows.triple_bottom _ _ _ concatenates_S64x640_S64x640_S64x640_S192x640_d0 (Cert.Spec.col64 h e) d (Cert.Spec.col 2 h e)
      (by show 64 * 2 + 16 * h.val + e.val = 64 + 64 + (16 * h.val + e.val); omega)).trans <|
    Regroup.shapeCast_mergeFirst_apply C shapeCasts_S4x16x640_S64x640 (Cert.Spec.col64 h e) d h e
      (by show 16 * h.val + e.val = h.val * 16 + e.val; omega)

/-- The joined bias row at the query column of head h, feature e: the query bias at (h, e). -/
theorem joinRow_q (A B C : S4x16.Idx → EReal) (h : Fin 4) (e : Fin 16) :
    shapeCast S1x192
        (concatenate S192 0
          [⟨S64, shapeCast S64 A shapeCasts_S4x16_S64⟩, ⟨S64, shapeCast S64 B shapeCasts_S4x16_S64⟩,
           ⟨S64, shapeCast S64 C shapeCasts_S4x16_S64⟩]
          concatenates_S64_S64_S64_S192_d0)
        shapeCasts_S192_S1x192 (ix2 (0 : Fin 1) (Cert.Spec.col 0 h e)) = A (ix2 h e) :=
  (shapeCast_a_1a_apply _ shapeCasts_S192_S1x192 (0 : Fin 1) (Cert.Spec.col 0 h e)).trans <|
    (JoinRows.vec_first _ _ _ concatenates_S64_S64_S64_S192_d0 (Cert.Spec.col64 h e) (Cert.Spec.col 0 h e)
      (by show 64 * 0 + 16 * h.val + e.val = 16 * h.val + e.val; omega)).trans <|
    Flatten.shapeCast_flatten_apply A shapeCasts_S4x16_S64 (Cert.Spec.col64 h e) h e
      (by show 16 * h.val + e.val = h.val * 16 + e.val; omega)

/-- The joined bias row at the key column of head h, feature e: the key bias at (h, e). -/
theorem joinRow_k (A B C : S4x16.Idx → EReal) (h : Fin 4) (e : Fin 16) :
    shapeCast S1x192
        (concatenate S192 0
          [⟨S64, shapeCast S64 A shapeCasts_S4x16_S64⟩, ⟨S64, shapeCast S64 B shapeCasts_S4x16_S64⟩,
           ⟨S64, shapeCast S64 C shapeCasts_S4x16_S64⟩]
          concatenates_S64_S64_S64_S192_d0)
        shapeCasts_S192_S1x192 (ix2 (0 : Fin 1) (Cert.Spec.col 1 h e)) = B (ix2 h e) :=
  (shapeCast_a_1a_apply _ shapeCasts_S192_S1x192 (0 : Fin 1) (Cert.Spec.col 1 h e)).trans <|
    (JoinRows.vec_second _ _ _ concatenates_S64_S64_S64_S192_d0 (Cert.Spec.col64 h e) (Cert.Spec.col 1 h e)
      (by show 64 * 1 + 16 * h.val + e.val = 64 + (16 * h.val + e.val); omega)).trans <|
    Flatten.shapeCast_flatten_apply B shapeCasts_S4x16_S64 (Cert.Spec.col64 h e) h e
      (by show 16 * h.val + e.val = h.val * 16 + e.val; omega)

/-- The joined bias row at the value column of head h, feature e: the value bias at (h, e). -/
theorem joinRow_v (A B C : S4x16.Idx → EReal) (h : Fin 4) (e : Fin 16) :
    shapeCast S1x192
        (concatenate S192 0
          [⟨S64, shapeCast S64 A shapeCasts_S4x16_S64⟩, ⟨S64, shapeCast S64 B shapeCasts_S4x16_S64⟩,
           ⟨S64, shapeCast S64 C shapeCasts_S4x16_S64⟩]
          concatenates_S64_S64_S64_S192_d0)
        shapeCasts_S192_S1x192 (ix2 (0 : Fin 1) (Cert.Spec.col 2 h e)) = C (ix2 h e) :=
  (shapeCast_a_1a_apply _ shapeCasts_S192_S1x192 (0 : Fin 1) (Cert.Spec.col 2 h e)).trans <|
    (JoinRows.vec_third _ _ _ concatenates_S64_S64_S64_S192_d0 (Cert.Spec.col64 h e) (Cert.Spec.col 2 h e)
      (by show 64 * 2 + 16 * h.val + e.val = 64 + 64 + (16 * h.val + e.val); omega)).trans <|
    Flatten.shapeCast_flatten_apply C shapeCasts_S4x16_S64 (Cert.Spec.col64 h e) h e
      (by show 16 * h.val + e.val = h.val * 16 + e.val; omega)

end Reads

/-! ## The program's arrays at an index -/

section Final

variable (m : (ℓ : Loc nD τ sig) → Buf (Elt Ideal) ℓ) (ρ : Dev nD → PrngReg) (c : Dev nD)

/-- The stacked weights' query column of head h, feature e, at row d is the query weight at (h, e, d). -/
theorem wT_q (d : Fin 640) (h : Fin 4) (e : Fin 16) :
    (V1 m ρ c main_v4 : S640x192.Idx → EReal) (ix2 d (Cert.Spec.col 0 h e))
      = (m ((c : Thread nD τ).loc main_arg1) : S4x16x640.Idx → EReal) (ix3 h e d) := by
  rw [wT_term m ρ c]
  exact stackT_q _ _ _ d h e

/-- The stacked weights' key column of head h, feature e, at row d is the key weight at (h, e, d). -/
theorem wT_k (d : Fin 640) (h : Fin 4) (e : Fin 16) :
    (V1 m ρ c main_v4 : S640x192.Idx → EReal) (ix2 d (Cert.Spec.col 1 h e))
      = (m ((c : Thread nD τ).loc main_arg3) : S4x16x640.Idx → EReal) (ix3 h e d) := by
  rw [wT_term m ρ c]
  exact stackT_k _ _ _ d h e

/-- The stacked weights' value column of head h, feature e, at row d is the value weight at (h, e, d). -/
theorem wT_v (d : Fin 640) (h : Fin 4) (e : Fin 16) :
    (V1 m ρ c main_v4 : S640x192.Idx → EReal) (ix2 d (Cert.Spec.col 2 h e))
      = (m ((c : Thread nD τ).loc main_arg5) : S4x16x640.Idx → EReal) (ix3 h e d) := by
  rw [wT_term m ρ c]
  exact stackT_v _ _ _ d h e

/-- The bias row's query column of head h, feature e is the query bias at (h, e). -/
theorem bRow_q (h : Fin 4) (e : Fin 16) :
    (V1 m ρ c main_v9 : S1x192.Idx → EReal) (ix2 (0 : Fin 1) (Cert.Spec.col 0 h e))
      = (m ((c : Thread nD τ).loc main_arg2) : S4x16.Idx → EReal) (ix2 h e) := by
  rw [bRow_term m ρ c]
  exact joinRow_q _ _ _ h e

/-- The bias row's key column of head h, feature e is the key bias at (h, e). -/
theorem bRow_k (h : Fin 4) (e : Fin 16) :
    (V1 m ρ c main_v9 : S1x192.Idx → EReal) (ix2 (0 : Fin 1) (Cert.Spec.col 1 h e))
      = (m ((c : Thread nD τ).loc main_arg4) : S4x16.Idx → EReal) (ix2 h e) := by
  rw [bRow_term m ρ c]
  exact joinRow_k _ _ _ h e

/-- The bias row's value column of head h, feature e is the value bias at (h, e). -/
theorem bRow_v (h : Fin 4) (e : Fin 16) :
    (V1 m ρ c main_v9 : S1x192.Idx → EReal) (ix2 (0 : Fin 1) (Cert.Spec.col 2 h e))
      = (m ((c : Thread nD τ).loc main_arg6) : S4x16.Idx → EReal) (ix2 h e) := by
  rw [bRow_term m ρ c]
  exact joinRow_v _ _ _ h e

/-- The token mix's bias column at row r is the bias vector's entry r. -/
theorem bCol (r : Fin 2048) :
    (V4 m ρ c main_v12 : S2048x1.Idx → EReal) (ix2 r (0 : Fin 1))
      = (m ((c : Thread nD τ).loc main_arg8) : S2048.Idx → EReal) (ix1 r) := by
  rw [bCol_term m ρ c]
  exact shapeCast_a_a1_apply _ shapeCasts_S2048_S2048x1 r (0 : Fin 1)

end Final

end Cert.KernelIdeal.Val

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«150061_j20074677141639_2_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.KI.Val0.lean ====
/-
  The first region's result, entry by entry.

  Grid point t of the fused projection reads rows 512 t … 512 t + 511 of the token matrix, the whole stacked weight
  matrix and the whole bias row, and writes rows 512 t … 512 t + 511 of the result. The body's one store holds, at
  (r, j) of its block, the sum over d of x (r, d) · w (d, j) plus b (0, j): a matrix product into the zero
  accumulator plus the bias row spread down the rows; the changes of float format are the identity on the extended
  reals. Row n of the result is written by point n / 512 at block row n % 512, and only there, so the array ends
  holding the fused projection of the specification at every entry.
-/
import proofs.«150061_j20074677141639_2_alg».proof.Proof.KI.R0
import proofs.«150061_j20074677141639_2_alg».proof.Proof.Spec
import proofs.«150061_j20074677141639_2_alg».proof.Proof.LibDenseRow
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The body's store at an entry -/

/-- The product's left operand reads the result's row. -/
theorem qkvDot_lhs_row (i : S512x192.Idx) (q : dot_S512x640_S640x192_S512x192_1_0_0_1_n_n.contr.Idx) :
    (dot_S512x640_S640x192_S512x192_1_0_0_1_n_n.lhsIdx i q 0).val = (i 0).val := by
  unfold DotDims.lhsIdx
  rw [dif_neg (show ¬(0 : Fin S512x640.rank) ∈ dot_S512x640_S640x192_S512x192_1_0_0_1_n_n.lhsBatch by decide),
    dif_pos (show (0 : Fin S512x640.rank) ∈ dot_S512x640_S640x192_S512x192_1_0_0_1_n_n.lhsNonContracting by decide)]
  rfl

/-- The product's right operand reads the result's column. -/
theorem qkvDot_rhs_col (i : S512x192.Idx) (q : dot_S512x640_S640x192_S512x192_1_0_0_1_n_n.contr.Idx) :
    (dot_S512x640_S640x192_S512x192_1_0_0_1_n_n.rhsIdx i q 1).val = (i 1).val := by
  unfold DotDims.rhsIdx
  rw [dif_neg (show ¬(1 : Fin S640x192.rank) ∈ dot_S512x640_S640x192_S512x192_1_0_0_1_n_n.rhsBatch by decide),
    dif_pos (show (1 : Fin S640x192.rank) ∈ dot_S512x640_S640x192_S512x192_1_0_0_1_n_n.rhsNonContracting by decide)]
  rfl

/-- Entry (r, j) of the block the body stores: row r of the token block against column j of the weights, plus the
    bias at j. -/
theorem qkvBlock_apply (x0 : Vec Ideal S512x640 .f32) (x1 : Vec Ideal S640x192 .f32) (x2 : Vec Ideal S1x192 .f32)
    (r : Fin 512) (j : Fin 192) :
    k0_pay1 x0 x1 x2 (ix2 r j) = (∑ d : Fin 640, x0 (ix2 r d) * x1 (ix2 d j)) + x2 (ix2 (0 : Fin 1) j) := by
  unfold k0_pay1
  refine (GcnDense.kernel_layer_apply dot_S512x640_S640x192_S512x192_1_0_0_1_n_n rfl rfl rfl rfl
    qkvDot_lhs_row qkvDot_rhs_col none _ _ x2 _ _ r j).trans ?_
  unfold GcnDense.entry
  refine congrArg (· + x2 (ix2 (0 : Fin 1) j)) (Finset.sum_congr rfl fun d _ => ?_)
  rw [truncf_apply, truncf_apply, shapeCast_self]

/-! ## The body's store is the whole block -/

private theorem zero_offsets : (![0, 0] : Fin 2 → Nat) = fun _ => 0 := funext fun a => by fin_cases a <;> rfl

/-- The one store, through the whole-buffer rectangle, of loads through whole-buffer rectangles: the stored block is
    the body's arithmetic of the three staged blocks. -/
theorem out0_3_eq (x0 : Vec Ideal S512x640 .f32) (x1 : Vec Ideal S640x192 .f32) (x2 : Vec Ideal S1x192 .f32) :
    out0_3 (F := Ideal) x0 x1 x2 = k0_pay1 x0 x1 x2 := by
  unfold out0_3
  rw [View.canon_unit_zero zero_offsets]
  simp only [View.ld_unit_zero (S := S512x640) zero_offsets, View.ld_unit_zero (S := S640x192) zero_offsets,
    View.ld_unit_zero (S := S1x192) zero_offsets]

/-! ## Which part of its array each window stages at a point -/

/-- The windows' block indices over the grid: the token window and the result window move down the rows with the
    point, the weights and the bias stay at their one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row y₀ of the token block at point t is row 512 t + y₀ of the token matrix. -/
theorem tokens0_apply (c : Dev nD) (t : Fin cfg0.N) (y : S512x640.Idx) (k : S4096x640.Idx)
    (hk0 : (k 0).val = 512 * t.val + (y 0).val) (hk1 : (k 1).val = (y 1).val) :
    (iblk0 V c 0 t : Vec Ideal S512x640 .f32) y = (V c main_arg0 : S4096x640.Idx → EReal) k := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 512 + 1 * (y 0).val = (k 0).val; rw [e0, hk0]; omega
  | ⟨1, _⟩ => show win0_0.index t 1 * 640 + 1 * (y 1).val = (k 1).val; rw [e1, hk1]; omega

/-- The weight block at every point is the whole weight matrix. -/
theorem weights0_apply (c : Dev nD) (t : Fin cfg0.N) (y : S640x192.Idx) :
    (iblk0 V c 1 t : Vec Ideal S640x192 .f32) y = (V c main_v4 : S640x192.Idx → EReal) y := by
  obtain ⟨-, -, e2, e3, -⟩ := blockIndex0 t
  unfold iblk0
  rw [View.read_apply]
  show V c main_v4 _ = V c main_v4 _
  congr 1
  funext a
  apply Fin.ext
  match a with
  | ⟨0, _⟩ => show win0_1.index t 0 * 640 + 1 * (y 0).val = (y 0).val; rw [e2]; omega
  | ⟨1, _⟩ => show win0_1.index t 1 * 192 + 1 * (y 1).val = (y 1).val; rw [e3]; omega

/-- The bias block at every point is the whole bias row. -/
theorem bias0_apply (c : Dev nD) (t : Fin cfg0.N) (y : S1x192.Idx) :
    (iblk0 V c 2 t : Vec Ideal S1x192 .f32) y = (V c main_v9 : S1x192.Idx → EReal) y := by
  obtain ⟨-, -, -, -, e4, e5, -⟩ := blockIndex0 t
  unfold iblk0
  rw [View.read_apply]
  show V c main_v9 _ = V c main_v9 _
  congr 1
  funext a
  apply Fin.ext
  match a with
  | ⟨0, _⟩ => show win0_2.index t 0 * 1 + 1 * (y 0).val = (y 0).val; rw [e4]; omega
  | ⟨1, _⟩ => show win0_2.index t 1 * 192 + 1 * (y 1).val = (y 1).val; rw [e5]; omega

/-! ## What a point writes back, and the array after the last point -/

/-- The fused projection of the specification as an array over the result's index type. -/
def qkvArr (a0 : S4096x640.Idx → EReal) (a1 : S640x192.Idx → EReal) (a2 : S1x192.Idx → EReal) : S4096x192.Idx → EReal :=
  fun i => Cert.Spec.qkv a0 a1 a2 ⟨(i 0).val, (i 0).isLt⟩ ⟨(i 1).val, (i 1).isLt⟩

/-- Entry y of the block stored at point t is the specification's entry at row 512 t + y₀, column y₁: the sum runs
    over the same token row and weight column, and the bias entry is the same. -/
theorem qkvBlock_eq_spec (c : Dev nD) (t : Fin cfg0.N) (y : S512x192.Idx) (i : S4096x192.Idx)
    (h0 : (i 0).val = 512 * t.val + (y 0).val) (h1 : (i 1).val = (y 1).val) :
    k0_pay1 (iblk0 V c 0 t) (iblk0 V c 1 t) (iblk0 V c 2 t) y
      = qkvArr (V c main_arg0) (V c main_v4) (V c main_v9) i := by
  obtain ⟨r, j, rfl⟩ : ∃ (r : Fin 512) (j : Fin 192), y = ix2 r j := ⟨y 0, y 1, eq_ix2 y⟩
  refine (qkvBlock_apply (iblk0 V c 0 t) (iblk0 V c 1 t) (iblk0 V c 2 t) r j).trans ?_
  unfold qkvArr Cert.Spec.qkv
  refine congrArg₂ (· + ·) (Finset.sum_congr rfl fun d _ => congrArg₂ (· * ·) ?_ ?_) ?_
  · exact tokens0_apply V c t (ix2 r d) _ h0 rfl
  · exact (weights0_apply V c t (ix2 d j)).trans (congrArg (V c main_v4 : S640x192.Idx → EReal)
      (funext fun a => Fin.ext (by
        match a with
        | ⟨0, _⟩ => rfl
        | ⟨1, _⟩ => exact h1.symm)))
  · exact (bias0_apply V c t (ix2 (0 : Fin 1) j)).trans (congrArg (V c main_v9 : S1x192.Idx → EReal)
      (funext fun a => Fin.ext (by
        match a with
        | ⟨0, _⟩ => rfl
        | ⟨1, _⟩ => exact h1.symm)))

/-- What point t writes back is block t of the specification's array. -/
theorem writeback0_eq (c : Dev nD) (t : Fin cfg0.N) :
    (dat0 (F := Ideal) V c).flushed 3 t
      = ((cfg0.win 3).blk t).view.read (Elt Ideal) (qkvArr (V c main_arg0) (V c main_v4) (V c main_v9)) := by
  show (cfg0.win 3).cut (grid0.coords t) ((dat0 V c).after 3 t) = _
  rw [after0_3, out0_3_eq]
  obtain ⟨-, -, -, -, -, -, e6, e7⟩ := blockIndex0 t
  funext y
  refine qkvBlock_eq_spec V c t _ _ ?_ ?_
  · show win0_3.index t 0 * 512 + 1 * (y 0).val = 512 * t.val + (y 0).val
    rw [e6]; omega
  · show win0_3.index t 1 * 192 + 1 * (y 1).val = (y 1).val
    rw [e7]; omega

/-- An index of the result is in point t's block iff each coordinate is in the block's range on its axis. -/
theorem mem_resultBlock0 (t : Fin cfg0.N) (i : S4096x192.Idx) :
    i ∈ ((cfg0.win 3).blk t).view.set
      ↔ ∀ a : Fin 2, win0_3.index t a * S512x192.size a ≤ (i a).val ∧ (i a).val < win0_3.index t a * S512x192.size a + S512x192.size a := by
  show i ∈ ((View.whole main_v10).slice (win0_3.rect t)).set ↔ _
  rw [View.set_slice_whole, Rect.mem_set_unit]
  exact Iff.rfl

/-- Row n of the result lies in the block of point n / 512. -/
theorem resultRows_covered0 (i : S4096x192.Idx) : ∃ t : Fin cfg0.N, (cfg0.win 3).flush t = true ∧ i ∈ ((cfg0.win 3).blk t).view.set := by
  have hi0 : (i 0).val < 4096 := (i 0).isLt
  have hi1 : (i 1).val < 192 := (i 1).isLt
  have hN : cfg0.N = 8 := N_0
  let t : Fin cfg0.N := ⟨(i 0).val / 512, by rw [hN]; omega⟩
  obtain ⟨-, -, -, -, -, -, e6, e7⟩ := blockIndex0 t
  have ht : t.val = (i 0).val / 512 := rfl
  refine ⟨t, flush0_3 t, ?_⟩
  rw [mem_resultBlock0]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 192 ≤ (i 1).val ∧ (i 1).val < win0_3.index t (1 : Fin 2) * 192 + 192; rw [e7]; omega

/-- The result array after the region is the specification's array. -/
theorem resultArray0 (c : Dev nD) :
    (dat0 (F := Ideal) V c).arrAt 3 cfg0.N = qkvArr (V c main_arg0) (V c main_v4) (V c main_v9) :=
  (dat0 (F := Ideal) V c).arrAt_eq_of_cover 3 (qkvArr (V c main_arg0) (V c main_v4) (V c main_v9))
    (fun t _ => writeback0_eq V c t) resultRows_covered0

/-- THE FIRST REGION'S VALUE: entry (n, j) of the array the region leaves is the fused projection of token n at
    column j. -/
theorem arr0 (c : Dev nD) (n : Fin 4096) (j : Fin 192) :
    ((dat0 (F := Ideal) V c).arrAt 3 cfg0.N) (ValueIdx.ix2 n j)
      = Cert.Spec.qkv (V c main_arg0) (V c main_v4) (V c main_v9) n j := by
  rw [resultArray0]
  rfl

end Cert.KernelIdeal.Val

end
-- ==== Proof.KI.Val2.lean ====
/-
  The third region's result, entry by entry.

  Grid point t of the token mix reads rows 512 t … 512 t + 511 of the mixing matrix, the whole matrix of the heads'
  outputs and rows 512 t … 512 t + 511 of the bias column, and writes rows 512 t … 512 t + 511 of the result. The
  body's one store holds, at (r, j) of its block, the sum over n of Wd (r, n) · v (n, j) plus b (r, 0): a matrix
  product into the zero accumulator plus the bias column spread along the rows; the changes of float format are the
  identity on the extended reals. Row r of the result is written by point r / 512 at block row r % 512, and only
  there, so the array ends holding the token mix of the specification at every entry.
-/
import proofs.«150061_j20074677141639_2_alg».proof.Proof.KI.R2
import proofs.«150061_j20074677141639_2_alg».proof.Proof.Spec
import proofs.«150061_j20074677141639_2_alg».proof.Proof.LibColumn
import proofs.«150061_j20074677141639_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The body's store at an entry -/

/-- The product's left operand reads the result's row. -/
theorem downDot_lhs_row (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl

/-- The product's right operand reads the result's column. -/
theorem downDot_rhs_col (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- Entry (r, j) of the block the body stores: row r of the mixing block against column j of the heads' outputs,
    plus the bias of row r. -/
theorem downBlock_apply (x0 : Vec Ideal S512x4096 .f32) (x1 : Vec Ideal S4096x64 .f32) (x2 : Vec Ideal S512x1 .f32)
    (r : Fin 512) (j : Fin 64) :
    k2_pay1 x0 x1 x2 (ix2 r j) = (∑ n : Fin 4096, x0 (ix2 r n) * x1 (ix2 n j)) + x2 (ix2 r (0 : Fin 1)) := by
  unfold k2_pay1
  refine (addf_apply _ _ (ix2 r j)).trans ?_
  refine congrArg₂ (· + ·) ?_ ?_
  · refine (Ideal.matmul_constant_zero_apply dot_S512x4096_S4096x64_S512x64_1_0_0_1_n_n none _ _ (ix2 r j)).trans ?_
    refine (Contract2.sum_contr_eq_sum_fin dot_S512x4096_S4096x64_S512x64_1_0_0_1_n_n rfl rfl rfl rfl
      downDot_lhs_row downDot_rhs_col _ _ (ix2 r j)).trans ?_
    refine Finset.sum_congr rfl fun n _ => ?_
    rw [truncf_apply, truncf_apply, shapeCast_self]
  · refine (broadcastTo_a1_ab_apply _ _ r j).trans ?_
    rw [shapeCast_self]

/-! ## The body's store is the whole block -/

private theorem zero_offsets2 : (![0, 0] : Fin 2 → Nat) = fun _ => 0 := funext fun a => by fin_cases a <;> rfl

/-- The one store, through the whole-buffer rectangle, of loads through whole-buffer rectangles: the stored block is
    the body's arithmetic of the three staged blocks. -/
theorem out2_3_eq (x0 : Vec Ideal S512x4096 .f32) (x1 : Vec Ideal S4096x64 .f32) (x2 : Vec Ideal S512x1 .f32) :
    out2_3 (F := Ideal) x0 x1 x2 = k2_pay1 x0 x1 x2 := by
  unfold out2_3
  rw [View.canon_unit_zero zero_offsets2]
  simp only [View.ld_unit_zero (S := S512x4096) zero_offsets2, View.ld_unit_zero (S := S4096x64) zero_offsets2,
    View.ld_unit_zero (S := S512x1) zero_offsets2]

/-! ## Which part of its array each window stages at a point -/

/-- The windows' block indices over the grid: the mixing matrix, the bias column and the result move down the rows
    with the point, the heads' outputs stay at their one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row y₀ of the mixing block at point t is row 512 t + y₀ of the mixing matrix. -/
theorem mixRows2_apply (c : Dev nD) (t : Fin cfg2.N) (y : S512x4096.Idx) (k : S2048x4096.Idx)
    (hk0 : (k 0).val = 512 * t.val + (y 0).val) (hk1 : (k 1).val = (y 1).val) :
    (iblk2 V c 0 t : Vec Ideal S512x4096 .f32) y = (V c main_arg7 : S2048x4096.Idx → EReal) k := by
  obtain ⟨e0, e1, -⟩ := blockIndex2 t
  unfold iblk2
  rw [View.read_apply]
  show V c main_arg7 _ = V c main_arg7 _
  congr 1
  funext a
  apply Fin.ext
  match a with
  | ⟨0, _⟩ => show win2_0.index t 0 * 512 + 1 * (y 0).val = (k 0).val; rw [e0, hk0]; omega
  | ⟨1, _⟩ => show win2_0.index t 1 * 4096 + 1 * (y 1).val = (k 1).val; rw [e1, hk1]; omega

/-- The block of the heads' outputs at every point is the whole matrix. -/
theorem heads2_apply (c : Dev nD) (t : Fin cfg2.N) (y : S4096x64.Idx) :
    (iblk2 V c 1 t : Vec Ideal S4096x64 .f32) y = (V c main_v11 : S4096x64.Idx → EReal) y := by
  obtain ⟨-, -, e2, e3, -⟩ := blockIndex2 t
  unfold iblk2
  rw [View.read_apply]
  show V c main_v11 _ = V c main_v11 _
  congr 1
  funext a
  apply Fin.ext
  match a with
  | ⟨0, _⟩ => show win2_1.index t 0 * 4096 + 1 * (y 0).val = (y 0).val; rw [e2]; omega
  | ⟨1, _⟩ => show win2_1.index t 1 * 64 + 1 * (y 1).val = (y 1).val; rw [e3]; omega

/-- Row y₀ of the bias block at point t is row 512 t + y₀ of the bias column. -/
theorem biasCol2_apply (c : Dev nD) (t : Fin cfg2.N) (y : S512x1.Idx) (k : S2048x1.Idx)
    (hk0 : (k 0).val = 512 * t.val + (y 0).val) (hk1 : (k 1).val = (y 1).val) :
    (iblk2 V c 2 t : Vec Ideal S512x1 .f32) y = (V c main_v12 : S2048x1.Idx → EReal) k := by
  obtain ⟨-, -, -, -, e4, e5, -⟩ := blockIndex2 t
  unfold iblk2
  rw [View.read_apply]
  show V c main_v12 _ = V c main_v12 _
  congr 1
  funext a
  apply Fin.ext
  match a with
  | ⟨0, _⟩ => show win2_2.index t 0 * 512 + 1 * (y 0).val = (k 0).val; rw [e4, hk0]; omega
  | ⟨1, _⟩ => show win2_2.index t 1 * 1 + 1 * (y 1).val = (k 1).val; rw [e5, hk1]; omega

/-! ## What a point writes back, and the array after the last point -/

/-- The token mix of the specification as an array over the result's index type. -/
def downArr (a0 : S2048x4096.Idx → EReal) (a1 : S4096x64.Idx → EReal) (a2 : S2048x1.Idx → EReal) : S2048x64.Idx → EReal :=
  fun i => Cert.Spec.down a0 a1 a2 ⟨(i 0).val, (i 0).isLt⟩ ⟨(i 1).val, (i 1).isLt⟩

/-- Entry y of the block stored at point t is the specification's entry at row 512 t + y₀, column y₁: the sum runs
    over the same mixing row and the same column of the heads' outputs, and the bias entry is that row's. -/
theorem downBlock_eq_spec (c : Dev nD) (t : Fin cfg2.N) (y : S512x64.Idx) (i : S2048x64.Idx)
    (h0 : (i 0).val = 512 * t.val + (y 0).val) (h1 : (i 1).val = (y 1).val) :
    k2_pay1 (iblk2 V c 0 t) (iblk2 V c 1 t) (iblk2 V c 2 t) y
      = downArr (V c main_arg7) (V c main_v11) (V c main_v12) i := by
  obtain ⟨r, j, rfl⟩ : ∃ (r : Fin 512) (j : Fin 64), y = ix2 r j := ⟨y 0, y 1, eq_ix2 y⟩
  refine (downBlock_apply (iblk2 V c 0 t) (iblk2 V c 1 t) (iblk2 V c 2 t) r j).trans ?_
  unfold downArr Cert.Spec.down
  refine congrArg₂ (· + ·) (Finset.sum_congr rfl fun n _ => congrArg₂ (· * ·) ?_ ?_) ?_
  · exact mixRows2_apply V c t (ix2 r n) _ h0 rfl
  · exact (heads2_apply V c t (ix2 n j)).trans (congrArg (V c main_v11 : S4096x64.Idx → EReal)
      (funext fun a => Fin.ext (by
        match a with
        | ⟨0, _⟩ => rfl
        | ⟨1, _⟩ => exact h1.symm)))
  · exact biasCol2_apply V c t (ix2 r (0 : Fin 1)) _ h0 rfl

/-- What point t writes back is block t of the specification's array. -/
theorem writeback2_eq (c : Dev nD) (t : Fin cfg2.N) :
    (dat2 (F := Ideal) V c).flushed 3 t
      = ((cfg2.win 3).blk t).view.read (Elt Ideal) (downArr (V c main_arg7) (V c main_v11) (V c main_v12)) := by
  show (cfg2.win 3).cut (grid2.coords t) ((dat2 V c).after 3 t) = _
  rw [after2_3, out2_3_eq]
  obtain ⟨-, -, -, -, -, -, e6, e7⟩ := blockIndex2 t
  funext y
  refine downBlock_eq_spec V c t _ _ ?_ ?_
  · show win2_3.index t 0 * 512 + 1 * (y 0).val = 512 * t.val + (y 0).val
    rw [e6]; omega
  · show win2_3.index t 1 * 64 + 1 * (y 1).val = (y 1).val
    rw [e7]; omega

/-- An index of the result is in point t's block iff each coordinate is in the block's range on its axis. -/
theorem mem_resultBlock2 (t : Fin cfg2.N) (i : S2048x64.Idx) :
    i ∈ ((cfg2.win 3).blk t).view.set
      ↔ ∀ a : Fin 2, win2_3.index t a * S512x64.size a ≤ (i a).val ∧ (i a).val < win2_3.index t a * S512x64.size a + S512x64.size a := by
  show i ∈ ((View.whole main_v13).slice (win2_3.rect t)).set ↔ _
  rw [View.set_slice_whole, Rect.mem_set_unit]
  exact Iff.rfl

/-- Row r of the result lies in the block of point r / 512. -/
theorem resultRows_covered2 (i : S2048x64.Idx) :
    ∃ t : Fin cfg2.N, (cfg2.win 3).flush t = true ∧ i ∈ ((cfg2.win 3).blk t).view.set := by
  have hi0 : (i 0).val < 2048 := (i 0).isLt
  have hi1 : (i 1).val < 64 := (i 1).isLt
  have hN : cfg2.N = 4 := N_2
  let t : Fin cfg2.N := ⟨(i 0).val / 512, by rw [hN]; omega⟩
  obtain ⟨-, -, -, -, -, -, e6, e7⟩ := blockIndex2 t
  have ht : t.val = (i 0).val / 512 := rfl
  refine ⟨t, flush2_3 t, ?_⟩
  rw [mem_resultBlock2]
  intro a
  match a with
  | ⟨0, _⟩ => show win2_3.index t (0 : Fin 2) * 512 ≤ (i 0).val ∧ (i 0).val < win2_3.index t (0 : Fin 2) * 512 + 512; rw [e6, ht]; omega
  | ⟨1, _⟩ => show win2_3.index t (1 : Fin 2) * 64 ≤ (i 1).val ∧ (i 1).val < win2_3.index t (1 : Fin 2) * 64 + 64; rw [e7]; omega

/-- The result array after the region is the specification's array. -/
theorem resultArray2 (c : Dev nD) :
    (dat2 (F := Ideal) V c).arrAt 3 cfg2.N = downArr (V c main_arg7) (V c main_v11) (V c main_v12) :=
  (dat2 (F := Ideal) V c).arrAt_eq_of_cover 3 (downArr (V c main_arg7) (V c main_v11) (V c main_v12))
    (fun t _ => writeback2_eq V c t) resultRows_covered2

/-- THE THIRD REGION'S VALUE: entry (r, j) of the array the region leaves is the token mix at row r, column j. -/
theorem arr2 (c : Dev nD) (r : Fin 2048) (j : Fin 64) :
    ((dat2 (F := Ideal) V c).arrAt 3 cfg2.N) (ValueIdx.ix2 r j)
      = Cert.Spec.down (V c main_arg7) (V c main_v11) (V c main_v12) r j := by
  rw [resultArray2]
  rfl

end Cert.KernelIdeal.Val

end
-- ==== Proof.KI.Chain.lean ====
/-
  The kernel side's result, entry by entry. The third region's output is the token mix of the second region's
  output with the bias column; the second region's output is, head by head, the attention over the first region's
  fused projection; and a fused column `64 s + 16 h + e` of that projection is part `s`'s head-`h` feature-`e`
  projection of the token, because the host stacked the three weight tensors (and the three bias matrices) in that
  order before the first region. Composed, the result at row `r`, column `16 h + e` is `Spec.out … r h e`.
-/
import proofs.«150061_j20074677141639_2_alg».proof.Proof.KI.Run
import proofs.«150061_j20074677141639_2_alg».proof.Proof.KI.Val0
import proofs.«150061_j20074677141639_2_alg».proof.Proof.KI.Val2
import proofs.«150061_j20074677141639_2_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The token matrix is as launched when the first region is entered. -/
theorem x_kept : V1 m ρ c main_arg0 = m ((c : Thread nD τ).loc main_arg0) :=
  (W1_of m ρ c main_arg0 (by decide)).trans rfl
/-- The mixing matrix is as launched when the third region is entered. -/
theorem wd_kept : V4 m ρ c main_arg7 = m ((c : Thread nD τ).loc main_arg7) :=
  (W4_of m ρ c main_arg7 (by decide)).trans <| (W3_of_ne m ρ c main_arg7 (by decide)).trans <|
    (W2_of_ne m ρ c main_arg7 (by decide)).trans <| (W1_of m ρ c main_arg7 (by decide)).trans rfl
/-- The third region finds the heads' outputs as the second region left them. -/
theorem heads_kept : V4 m ρ c main_v11 = (dat1 (V2 m ρ) c).arrAt 2 cfg1.N :=
  (W4_of m ρ c main_v11 (by decide)).trans (W3_out m ρ c)
/-- The second region finds the fused projection as the first region left it. -/
theorem fused_kept : V2 m ρ c main_v10 = (dat0 (V1 m ρ) c).arrAt 3 cfg0.N := W2_arr m ρ c 3
/-- The result array is what the third region leaves. -/
theorem result_kept : V5 m ρ c main_v13 = (dat2 (V4 m ρ) c).arrAt 3 cfg2.N := W5_arr m ρ c 3

/-- A fused column of the first region's output is a head's projection, given the stacked weights and bias row read at
    that column. -/
theorem fused_col (W : S4x16x640.Idx → EReal) (b : S4x16.Idx → EReal) (s : Fin 3) (h : Fin 4)
    (hw : ∀ (d : Fin 640) (e : Fin 16), (V1 m ρ c main_v4 : S640x192.Idx → EReal) (ix2 d (Cert.Spec.col s h e)) = W (ix3 h e d))
    (hb : ∀ e : Fin 16, (V1 m ρ c main_v9 : S1x192.Idx → EReal) (ix2 (0 : Fin 1) (Cert.Spec.col s h e)) = b (ix2 h e)) :
    (fun (n : Fin 4096) (e : Fin 16) => (V2 m ρ c main_v10 : S4096x192.Idx → EReal) (ix2 n (Cert.Spec.col s h e)))
      = Cert.Spec.proj (m ((c : Thread nD τ).loc main_arg0)) W b h := by
  funext n e
  rw [fused_kept m ρ c, arr0 (V1 m ρ) c n (Cert.Spec.col s h e)]
  unfold Cert.Spec.qkv Cert.Spec.proj
  rw [x_kept m ρ c, hb e]
  exact congrArg (· + b (ix2 h e)) (Finset.sum_congr rfl fun d _ => by rw [hw d e])

/-- The kernel side's result at row `r`, head `h`, feature `e`. -/
theorem kernel_out
    (hval1 : ∀ (V : (c : Dev nD) → (b : Ref sig .tc) → Buf (Elt Ideal) ((c : Thread nD τ).loc b)) (c : Dev nD) (n : Fin 4096) (h : Fin 4) (e : Fin 16),
      ((dat1 (F := Ideal) V c).arrAt 2 cfg1.N) (ix2 n (Cert.Spec.col64 h e)) = Cert.Spec.attn (V c main_v10) n h e)
    (hwq : ∀ (d : Fin 640) (h : Fin 4) (e : Fin 16), (V1 m ρ c main_v4 : S640x192.Idx → EReal) (ix2 d (Cert.Spec.col 0 h e)) = (m ((c : Thread nD τ).loc main_arg1) : S4x16x640.Idx → EReal) (ix3 h e d))
    (hwk : ∀ (d : Fin 640) (h : Fin 4) (e : Fin 16), (V1 m ρ c main_v4 : S640x192.Idx → EReal) (ix2 d (Cert.Spec.col 1 h e)) = (m ((c : Thread nD τ).loc main_arg3) : S4x16x640.Idx → EReal) (ix3 h e d))
    (hwv : ∀ (d : Fin 640) (h : Fin 4) (e : Fin 16), (V1 m ρ c main_v4 : S640x192.Idx → EReal) (ix2 d (Cert.Spec.col 2 h e)) = (m ((c : Thread nD τ).loc main_arg5) : S4x16x640.Idx → EReal) (ix3 h e d))
    (hbq : ∀ (h : Fin 4) (e : Fin 16), (V1 m ρ c main_v9 : S1x192.Idx → EReal) (ix2 (0 : Fin 1) (Cert.Spec.col 0 h e)) = (m ((c : Thread nD τ).loc main_arg2) : S4x16.Idx → EReal) (ix2 h e))
    (hbk : ∀ (h : Fin 4) (e : Fin 16), (V1 m ρ c main_v9 : S1x192.Idx → EReal) (ix2 (0 : Fin 1) (Cert.Spec.col 1 h e)) = (m ((c : Thread nD τ).loc main_arg4) : S4x16.Idx → EReal) (ix2 h e))
    (hbv : ∀ (h : Fin 4) (e : Fin 16), (V1 m ρ c main_v9 : S1x192.Idx → EReal) (ix2 (0 : Fin 1) (Cert.Spec.col 2 h e)) = (m ((c : Thread nD τ).loc main_arg6) : S4x16.Idx → EReal) (ix2 h e))
    (hbc : ∀ r : Fin 2048, (V4 m ρ c main_v12 : S2048x1.Idx → EReal) (ix2 r (0 : Fin 1)) = (m ((c : Thread nD τ).loc main_arg8) : S2048.Idx → EReal) (ix1 r))
    (r : Fin 2048) (h : Fin 4) (e : Fin 16) :
    (V5 m ρ c main_v13 : S2048x64.Idx → EReal) (ix2 r (Cert.Spec.col64 h e))
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) r h e := by
  rw [result_kept m ρ c, arr2 (V4 m ρ) c r (Cert.Spec.col64 h e)]
  unfold Cert.Spec.down Cert.Spec.out
  rw [wd_kept m ρ c, heads_kept m ρ c, hbc r]
  refine congrArg (· + _) (Finset.sum_congr rfl fun n _ => ?_)
  rw [hval1 (V2 m ρ) c n h e]
  unfold Cert.Spec.attn
  rw [fused_col m ρ c _ _ 0 h (fun d e => hwq d h e) (fun e => hbq h e),
    fused_col m ρ c _ _ 1 h (fun d e => hwk d h e) (fun e => hbk h e),
    fused_col m ρ c _ _ 2 h (fun d e => hwv d h e) (fun e => hbv h e)]

end Cert.KernelIdeal.Val

end
-- ==== Proof.LibHostLast3.lean ====
/-
  The host's reduce with max along the last axis of a rank-3 array, read at an index on the extended reals and for any
  extents: over [n0, n1, k] into [n0, n1] it is, at (a, b), the fold of max from the initial value over the k entries
  (a, b, ·).
-/
import Idealize.ShloMosaic.PureOps.Ideal.Laws
import Idealize.ShloMosaic.Lib.ValueIdx

noncomputable section

namespace Idealize.ShloMosaic.HostLast3

open Idealize.ShloMosaic Idealize.ShloMosaic.ValueIdx

/-- The reduced index `(a, b)` with the last coordinate `c` put back is `(a, b, c)`. -/
theorem lift_last {n0 n1 k : ℕ} (h : (⟨3, ![n0, n1, k]⟩ : Shape).Reduces [2] ⟨2, ![n0, n1]⟩)
    (a : Fin n0) (b : Fin n1) (c : Fin k) : h.lift (ix2 a b) c = ix3 a b c :=
  funext fun x => Fin.ext (by match x with | ⟨0, _⟩ => rfl | ⟨1, _⟩ => rfl | ⟨2, _⟩ => rfl)

/-- A host reduce with max over the last axis of an `[n0, n1, k]` array, at `(a, b)`: the fold of max over the
    entries `(a, b, ·)`. -/
theorem reduce_max_last_apply {n0 n1 k : ℕ} (z : (⟨3, ![n0, n1, k]⟩ : Shape).Idx → EReal) {u : Shape}
    (init : u.Idx → EReal) (h' : (⟨3, ![n0, n1, k]⟩ : Shape).ReducesTo [2] ⟨2, ![n0, n1]⟩)
    (h : (⟨3, ![n0, n1, k]⟩ : Shape).Reduces [2] ⟨2, ![n0, n1]⟩) (hu : 0 < u.numel)
    (a : Fin n0) (b : Fin n1) :
    Host.reduce (max : EReal → EReal → EReal) z init h' hu (ix2 a b)
      = (Finset.univ : Finset (Fin k)).fold max (init (Shape.Idx.first hu)) (fun c => z (ix3 a b c)) :=
  (Host.reduce_eq_fold_single max z init h' h hu (ix2 a b)).trans
    (Finset.fold_congr fun c _ => congrArg z (lift_last h a b c))

end Idealize.ShloMosaic.HostLast3

end
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.RefValue.lean ====
/-
  The reference block, read entry by entry, is the specification.

  The reference computes each head's query, key and value rows as a product of the weights with the tokens, transposed,
  plus a broadcast bias; scores every query row against every key row and scales by the word for 1/4; takes each row's
  maximum by a reduce seeded with the word for −∞ (and once more against that seed); shifts, exponentiates, sums from
  the zero word and divides; adds the weighted sum of the value rows to the value row; lays the four heads side by side
  in 64 columns (a transpose and a merge of two axes); and mixes the tokens with a matrix, adding a bias per row.

  Each stage is read at explicit coordinates — head h, token n (and key m), feature e — from the stage lemmas of the
  generated reading of the reference, and identified with the corresponding quantity of the specification. The only
  laws used are the commutativity of + and · on the extended reals, 0 + a = a for the zero word, and that the maximum
  of a seed and a fold of max from that seed is the fold. The words for 1/4 and −∞ are the same on both sides and are
  never evaluated.
-/
import proofs.«150061_j20074677141639_2_alg».proof.Proof.Gen.ReferenceIdeal.Read
import proofs.«150061_j20074677141639_2_alg».proof.Proof.Spec
import proofs.«150061_j20074677141639_2_alg».proof.Proof.LibHostLast3
import proofs.«150061_j20074677141639_2_alg».proof.Proof.LibHostRows
import proofs.«150061_j20074677141639_2_alg».proof.Proof.LibRegroup

noncomputable section

namespace Cert.RefValue

open Cert.ReferenceIdeal Cert.ReferenceIdeal.Gen Cert.ReferenceIdeal.Read Idealize.ShloMosaic Idealize.ShloMosaic.ValueIdx

/-- The query rows: the transposed product of the weights with the tokens plus the broadcast bias is, entry by entry, the head's affine image of the token row (the factors of each product in the other order). -/
theorem proj_q (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (h : Fin 4) (n : Fin 4096) (e : Fin 16) :
    val_main_v4 (F := Ideal) x0 x1 x2 (ix3 h n e) = Cert.Spec.proj x0 x1 x2 h n e := by
  rw [val_main_v4_apply, val_main_v1_apply, val_main_v0_apply, val_main_v3_apply, val_main_v2_apply]
  have el : ∀ k : Fin 640, lidx_main_v0 (idx_main_v1 (ix3 h n e)) k = ix3 h e k := fun k =>
    funext fun a => Fin.ext (by match a with | ⟨0, _⟩ => rfl | ⟨1, _⟩ => rfl | ⟨2, _⟩ => rfl)
  have er : ∀ k : Fin 640, ridx_main_v0 (idx_main_v1 (ix3 h n e)) k = ix2 n k := fun k =>
    funext fun a => Fin.ext (by match a with | ⟨0, _⟩ => rfl | ⟨1, _⟩ => rfl)
  have eb : idx_main_v2 (idx_main_v3 (ix3 h n e)) = ix2 h e :=
    funext fun a => Fin.ext (by match a with | ⟨0, _⟩ => rfl | ⟨1, _⟩ => rfl)
  rw [eb]
  unfold Cert.Spec.proj
  rw [Ideal.addf_def]
  refine congrArg (· + x2 (ix2 h e)) (Finset.sum_congr rfl fun k _ => ?_)
  rw [el k, er k, mul_comm]

/-- The key rows, likewise. -/
theorem proj_k (x0 : (⟨S4096x640, .f32⟩ : BufTy).Contents (Elt Ideal)) (x3 : (⟨S4x16x640, .f32⟩ : BufTy).Contents (Elt Ideal))
    (x4 : (⟨S4x16, .f32⟩ : BufTy).Contents (Elt Ideal)) (h : Fin 4) (n : Fin 4096) (e : Fin 16) :
    val_main_v9 (F := Ideal) x0 x3 x4 (ix3 h n e) = Cert.Spec.proj x0 x3 x4 h n e := by
  rw [val_main_v9_apply, val_main_v6_apply, val_main_v5_apply, val_main_v8_apply, val_main_v7_apply]
  have el : ∀ k : Fin 640, lidx_main_v5 (idx_main_v6 (ix3 h n e)) k = ix3 h e k := fun k =>
    funext fun a => Fin.ext (by match a with | ⟨0, _⟩ => rfl | ⟨1, _⟩ => rfl | ⟨2, _⟩ => rfl)
  have er : ∀ k : Fin 640, ridx_main_v5 (idx_main_v6 (ix3 h n e)) k = ix2 n k := fun k =>
    funext fun a => Fin.ext (by match a with | ⟨0, _⟩ => rfl | ⟨1, _⟩ => rfl)
  have eb : idx_main_v7 (idx_main_v8 (ix3 h n e)) = ix2 h e :=
    funext fun a => Fin.ext (by match a with | ⟨0, _⟩ => rfl | ⟨1, _⟩ => rfl)
  rw [eb]
  unfold Cert.Spec.proj
  rw [Ideal.addf_def]
  refine congrArg (· + x4 (ix2 h e)) (Finset.sum_congr rfl fun k _ => ?_)
  rw [el k, er k, mul_comm]

/-- The value rows, likewise. -/
theorem proj_v (x0 : (⟨S4096x640, .f32⟩ : BufTy).Contents (Elt Ideal)) (x5 : (⟨S4x16x640, .f32⟩ : BufTy).Contents (Elt Ideal))
    (x6 : (⟨S4x16, .f32⟩ : BufTy).Contents (Elt Ideal)) (h : Fin 4) (n : Fin 4096) (e : Fin 16) :
    val_main_v14 (F := Ideal) x0 x5 x6 (ix3 h n e) = Cert.Spec.proj x0 x5 x6 h n e := by
  rw [val_main_v14_apply, val_main_v11_apply, val_main_v10_apply, val_main_v13_apply, val_main_v12_apply]
  have el : ∀ k : Fin 640, lidx_main_v10 (idx_main_v11 (ix3 h n e)) k = ix3 h e k := fun k =>
    funext fun a => Fin.ext (by match a with | ⟨0, _⟩ => rfl | ⟨1, _⟩ => rfl | ⟨2, _⟩ => rfl)
  have er : ∀ k : Fin 640, ridx_main_v10 (idx_main_v11 (ix3 h n e)) k = ix2 n k := fun k =>
    funext fun a => Fin.ext (by match a with | ⟨0, _⟩ => rfl | ⟨1, _⟩ => rfl)
  have eb : idx_main_v12 (idx_main_v13 (ix3 h n e)) = ix2 h e :=
    funext fun a => Fin.ext (by match a with | ⟨0, _⟩ => rfl | ⟨1, _⟩ => rfl)
  rw [eb]
  unfold Cert.Spec.proj
  rw [Ideal.addf_def]
  refine congrArg (· + x6 (ix2 h e)) (Finset.sum_congr rfl fun k _ => ?_)
  rw [el k, er k, mul_comm]

/-- The scaled scores: the contraction of a query row with a key row over the 16 features, times the scale word. -/
theorem scores_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n m : Fin 4096) :
    val_main_v17 (F := Ideal) x0 x1 x2 x3 x4 (ix3 h n m)
      = Cert.Spec.scores (Cert.Spec.proj x0 x1 x2 h) (Cert.Spec.proj x0 x3 x4 h) n m := by
  rw [val_main_v17_apply, val_main_v15_apply, val_main_v16_apply, val_main_cst_apply]
  unfold Cert.Spec.scores
  rw [Ideal.mulf_def, Ideal.ofBits_def]
  refine congrArg (· * Cert.Spec.quarter) (Finset.sum_congr rfl fun k _ => ?_)
  have el : lidx_main_v15 (ix3 h n m) k = ix3 h n k :=
    funext fun a => Fin.ext (by match a with | ⟨0, _⟩ => rfl | ⟨1, _⟩ => rfl | ⟨2, _⟩ => rfl)
  have er : ridx_main_v15 (ix3 h n m) k = ix3 h m k :=
    funext fun a => Fin.ext (by match a with | ⟨0, _⟩ => rfl | ⟨1, _⟩ => rfl | ⟨2, _⟩ => rfl)
  rw [el, er, proj_q, proj_k]

/-- The reduce with max over the keys, at a head and a query row: the fold of max from the seed over that row of scores. -/
theorem rowmax_fold (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n : Fin 4096) :
    val_main_v18 (F := Ideal) x0 x1 x2 x3 x4 (ix2 h n)
      = (Finset.univ : Finset (Fin 4096)).fold max Cert.Spec.negInf
          (fun m => val_main_v17 (F := Ideal) x0 x1 x2 x3 x4 (ix3 h n m)) := by
  unfold val_main_v18
  generalize val_main_v17 (F := Ideal) x0 x1 x2 x3 x4 = z
  rw [HostRows.maximumf_eq_max]
  exact HostLast3.reduce_max_last_apply z _ reducesTo_S4x4096x4096_S4x4096_d2 (by decide) h_S_ h n

/-- The maximum of the seed and the row's fold is the fold (which is at least its own seed): the row maximum of the scores. -/
theorem rowmax_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n : Fin 4096) :
    val_main_v20 (F := Ideal) x0 x1 x2 x3 x4 (ix2 h n)
      = Cert.Spec.rowMax (Cert.Spec.scores (Cert.Spec.proj x0 x1 x2 h) (Cert.Spec.proj x0 x3 x4 h) n) := by
  rw [val_main_v20_apply, val_main_v19_apply, val_main_cst_1_apply, rowmax_fold, Ideal.maximumf_def, Ideal.ofBits_def,
    max_eq_right ((Finset.le_fold_max _).mpr (Or.inl le_rfl))]
  unfold Cert.Spec.rowMax
  exact Finset.fold_congr fun m _ => scores_eq x0 x1 x2 x3 x4 h n m

/-- A score shifted by its row's maximum (broadcast back along the keys), exponentiated. -/
theorem exp_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n m : Fin 4096) :
    val_main_v24 (F := Ideal) x0 x1 x2 x3 x4 (ix3 h n m)
      = Ideal.exp (Cert.Spec.scores (Cert.Spec.proj x0 x1 x2 h) (Cert.Spec.proj x0 x3 x4 h) n m
          - Cert.Spec.rowMax (Cert.Spec.scores (Cert.Spec.proj x0 x1 x2 h) (Cert.Spec.proj x0 x3 x4 h) n)) := by
  rw [val_main_v24_apply, val_main_v23_apply, val_main_v22_apply, val_main_v21_apply]
  have e : idx_main_v21 (idx_main_v22 (ix3 h n m)) = ix2 h n :=
    funext fun a => Fin.ext (by match a with | ⟨0, _⟩ => rfl | ⟨1, _⟩ => rfl)
  rw [e, rowmax_eq, scores_eq, Ideal.hostUnary_exp_def, Ideal.subf_def]

/-- The row's sum of exponentials: the float sum starts from the zero word, which is 0. -/
theorem expsum_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n : Fin 4096) :
    val_main_v25 (F := Ideal) x0 x1 x2 x3 x4 (ix2 h n)
      = ∑ m : Fin 4096, Ideal.exp (Cert.Spec.scores (Cert.Spec.proj x0 x1 x2 h) (Cert.Spec.proj x0 x3 x4 h) n m
          - Cert.Spec.rowMax (Cert.Spec.scores (Cert.Spec.proj x0 x1 x2 h) (Cert.Spec.proj x0 x3 x4 h) n)) := by
  rw [val_main_v25_apply, val_main_cst_2_apply, Ideal.ofBits_def, Ideal.ofBits_zero_f32, zero_add]
  refine Finset.sum_congr rfl fun k _ => ?_
  have e : idx_main_v25 (ix2 h n) k = ix3 h n k :=
    funext fun a => Fin.ext (by match a with | ⟨0, _⟩ => rfl | ⟨1, _⟩ => rfl | ⟨2, _⟩ => rfl)
  rw [e, exp_eq]

/-- The softmax weight: the exponential over the row's sum (broadcast back along the keys). -/
theorem prob_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (h : Fin 4) (n m : Fin 4096) :
    val_main_v28 (F := Ideal) x0 x1 x2 x3 x4 (ix3 h n m)
      = Cert.Spec.prob (Cert.Spec.scores (Cert.Spec.proj x0 x1 x2 h) (Cert.Spec.proj x0 x3 x4 h) n) m := by
  rw [val_main_v28_apply, val_main_v27_apply, val_main_v26_apply]
  have e : idx_main_v26 (idx_main_v27 (ix3 h n m)) = ix2 h n :=
    funext fun a => Fin.ext (by match a with | ⟨0, _⟩ => rfl | ⟨1, _⟩ => rfl)
  rw [e, expsum_eq, exp_eq, Ideal.hostDivf_def]
  rfl

/-- A head's output: the value row plus the weighted sum of the value rows (the two summands in the other order). -/
theorem head_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (x5 : (⟨S4x16x640, .f32⟩ : BufTy).Contents (Elt Ideal))
    (x6 : (⟨S4x16, .f32⟩ : BufTy).Contents (Elt Ideal)) (h : Fin 4) (n : Fin 4096) (e : Fin 16) :
    val_main_v30 (F := Ideal) x0 x1 x2 x3 x4 x5 x6 (ix3 h n e)
      = Cert.Spec.head (Cert.Spec.proj x0 x1 x2 h) (Cert.Spec.proj x0 x3 x4 h) (Cert.Spec.proj x0 x5 x6 h) n e := by
  rw [val_main_v30_apply, val_main_v29_apply, Ideal.addf_def, proj_v x0 x5 x6 h n e, add_comm]
  unfold Cert.Spec.head
  refine congrArg (· + Cert.Spec.proj x0 x5 x6 h n e) (Finset.sum_congr rfl fun k _ => ?_)
  have el : lidx_main_v29 (ix3 h n e) k = ix3 h n k :=
    funext fun a => Fin.ext (by match a with | ⟨0, _⟩ => rfl | ⟨1, _⟩ => rfl | ⟨2, _⟩ => rfl)
  have er : ridx_main_v29 (ix3 h n e) k = ix3 h k e :=
    funext fun a => Fin.ext (by match a with | ⟨0, _⟩ => rfl | ⟨1, _⟩ => rfl | ⟨2, _⟩ => rfl)
  rw [el, er, prob_eq, proj_v]

/-- The heads side by side: after the transpose to [4096, 4, 16] and the merge of the last two axes into 64 columns,
    column 16 h + e of token n is head h's feature e of token n. -/
theorem concat_eq (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (x5 : (⟨S4x16x640, .f32⟩ : BufTy).Contents (Elt Ideal))
    (x6 : (⟨S4x16, .f32⟩ : BufTy).Contents (Elt Ideal)) (h : Fin 4) (n : Fin 4096) (e : Fin 16) :
    val_main_v32 (F := Ideal) x0 x1 x2 x3 x4 x5 x6 (ix2 n (Cert.Spec.col64 h e))
      = val_main_v30 (F := Ideal) x0 x1 x2 x3 x4 x5 x6 (ix3 h n e) := by
  rw [val_main_v32_apply, val_main_v31_apply]
  refine congrArg (val_main_v30 (F := Ideal) x0 x1 x2 x3 x4 x5 x6) (funext fun a => Fin.ext ?_)
  have hh := h.isLt
  have he := e.isLt
  match a with
  | ⟨0, _⟩ => show (n.val * 64 + (16 * h.val + e.val)) / 16 % 4 = h.val; omega
  | ⟨1, _⟩ => show (n.val * 64 + (16 * h.val + e.val)) / 64 = n.val; omega
  | ⟨2, _⟩ => show (n.val * 64 + (16 * h.val + e.val)) % 16 = e.val; omega

/-- The reference's result at row r, column 16 h + e: the token mix of head h's feature e plus the row's bias. -/
theorem ref_out (x0 : (⟨S4096x640, .f32⟩ : BufTy).Contents (Elt Ideal)) (x1 : (⟨S4x16x640, .f32⟩ : BufTy).Contents (Elt Ideal))
    (x2 : (⟨S4x16, .f32⟩ : BufTy).Contents (Elt Ideal)) (x3 : (⟨S4x16x640, .f32⟩ : BufTy).Contents (Elt Ideal))
    (x4 : (⟨S4x16, .f32⟩ : BufTy).Contents (Elt Ideal)) (x5 : (⟨S4x16x640, .f32⟩ : BufTy).Contents (Elt Ideal))
    (x6 : (⟨S4x16, .f32⟩ : BufTy).Contents (Elt Ideal)) (x7 : (⟨S2048x4096, .f32⟩ : BufTy).Contents (Elt Ideal))
    (x8 : (⟨S2048, .f32⟩ : BufTy).Contents (Elt Ideal)) (r : Fin 2048) (h : Fin 4) (e : Fin 16) :
    val_main_v36 (F := Ideal) x0 x1 x2 x3 x4 x5 x6 x7 x8 (ix2 r (Cert.Spec.col64 h e))
      = Cert.Spec.out x0 x1 x2 x3 x4 x5 x6 x7 x8 r h e := by
  rw [val_main_v36_apply, val_main_v33_apply, val_main_v35_apply, val_main_v34_apply, Ideal.addf_def]
  have eb : idx_main_v34 (idx_main_v35 (ix2 r (Cert.Spec.col64 h e))) = ix1 r :=
    funext fun a => Fin.ext (by match a with | ⟨0, _⟩ => rfl)
  rw [eb]
  unfold Cert.Spec.out
  refine congrArg (· + x8 (ix1 r)) (Finset.sum_congr rfl fun k _ => ?_)
  have el : lidx_main_v33 (ix2 r (Cert.Spec.col64 h e)) k = ix2 r k :=
    funext fun a => Fin.ext (by match a with | ⟨0, _⟩ => rfl | ⟨1, _⟩ => rfl)
  have er : ridx_main_v33 (ix2 r (Cert.Spec.col64 h e)) k = ix2 k (Cert.Spec.col64 h e) :=
    funext fun a => Fin.ext (by match a with | ⟨0, _⟩ => rfl | ⟨1, _⟩ => rfl)
  rw [el, er, concat_eq, head_eq]

end Cert.RefValue

end
-- ==== Proof.lean ====
/-
  A transformer block — per-head query, key and value projections of 4096 tokens, softmax attention in four heads
  of sixteen features with the value row added back, then a mix of the tokens by a [2048, 4096] matrix with a bias per
  result row — computed by three pipelined vector programs against a plain host computation, over the extended reals.

  The three vector programs are: a fused projection `x · w + b` into 192 columns (query, key and value features of
  the four heads side by side) over row blocks of 512 tokens; the attention of 256-token row blocks against all tokens,
  one head after the other, reading the fused projection both as the block's rows and whole; and the token mix
  over blocks of 512 result rows. Each is run block by block (Proof/KI/R0, R1, R2 and their word-level twins under
  Proof/K), the whole program item by item (Proof/KI/Run, Proof/K/Run): every execution terminates without a fault
  with the argument arrays as launched and every other buffer at a named value. Read entry by entry (Proof/KI/Val0,
  Val1, Val2, HostVal, Chain) the result at row `r`, column `16 h + e` is `Spec.out … r h e`; so is the host
  computation's (Proof/RefValue): the two differ only in the order of factors and summands, in a repeated maximum
  with −∞, and in layout. No entry needs to be finite for that.
-/
import proofs.«150061_j20074677141639_2_alg».proof.Defs
import proofs.«150061_j20074677141639_2_alg».proof.Proof.Gen.Kernel
import proofs.«150061_j20074677141639_2_alg».proof.Proof.Gen.KernelIdeal
import proofs.«150061_j20074677141639_2_alg».proof.Proof.Gen.ReferenceIdeal
import proofs.«150061_j20074677141639_2_alg».proof.Proof.Gen.Pre_finite_inputs
import proofs.«150061_j20074677141639_2_alg».proof.Proof.Gen.ReferenceIdeal.Run
import proofs.«150061_j20074677141639_2_alg».proof.Proof.Gen.ReferenceIdeal.Read
import proofs.«150061_j20074677141639_2_alg».proof.Proof.K.Run
import proofs.«150061_j20074677141639_2_alg».proof.Proof.KI.Run
import proofs.«150061_j20074677141639_2_alg».proof.Proof.KI.Val1
import proofs.«150061_j20074677141639_2_alg».proof.Proof.KI.HostVal
import proofs.«150061_j20074677141639_2_alg».proof.Proof.KI.Chain
import proofs.«150061_j20074677141639_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The host computation runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

section

open Cert.KernelIdeal Cert.KernelIdeal.Gen Cert.KernelIdeal.Hand

/-- The idealized program runs, its result array ends at the last boundary's value, its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = V5 m ρ c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v13 (by decide)),
     (h c _ (mem_uc main_arg0 (by decide))).trans (W5_main_arg0 m ρ c),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_main_arg7 m ρ c),
     (h c _ (mem_uc main_arg8 (by decide))).trans (W5_kept m ρ c main_arg8 (by decide) (by decide) (by decide) (by decide) (by decide))⟩)
    (run_all m ρ)

/-- The host computation's result of the same arguments is the vector programs' result array: entry by entry both
    are `Spec.out`. -/
theorem result_eq (m : (ℓ : Loc nD τ sig) → Buf (Elt Ideal) ℓ) (ρ : Dev nD → PrngReg) (c : Dev nD) :
    Cert.ReferenceIdeal.Read.val_main_v36 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      = V5 m ρ c main_v13 := by
  funext j
  obtain ⟨r, q, rfl⟩ : ∃ (r : Fin 2048) (q : Fin 64), j = ix2 r q := ⟨j 0, j 1, eq_ix2 j⟩
  obtain ⟨h, e, rfl⟩ := Cert.Spec.exists_col64 q
  exact (Cert.RefValue.ref_out _ _ _ _ _ _ _ _ _ r h e).trans
    (Cert.KernelIdeal.Val.kernel_out m ρ c Cert.KernelIdeal.Val.arr1
      (Cert.KernelIdeal.Val.wT_q m ρ c) (Cert.KernelIdeal.Val.wT_k m ρ c) (Cert.KernelIdeal.Val.wT_v m ρ c)
      (Cert.KernelIdeal.Val.bRow_q m ρ c) (Cert.KernelIdeal.Val.bRow_k m ρ c) (Cert.KernelIdeal.Val.bRow_v m ρ c)
      (Cert.KernelIdeal.Val.bCol m ρ c) r h e).symm

end

/-- From memories that agree on the arguments both idealized programs run and end with one result array. -/
theorem algebraic : Cert.algebraic_KernelIdeal_ReferenceIdeal := by
  intro m ρ m' ρ' _ hagree
  refine ⟨fun c => Cert.KernelIdeal.Hand.V5 m ρ c Cert.KernelIdeal.main_v13, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact result_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
